-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S64x256 : Shape := ⟨2, ![64, 256]⟩
abbrev S2x64x1 : Shape := ⟨3, ![2, 64, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x256 : S_.BroadcastsInDim S64x256 (![] : Fin 0 → Fin S64x256.rank)
  reducesTo_S64x256_S_d0_1 : S64x256.ReducesTo [0, 1] S_
  bcast_S_S2x64x1 : S_.BroadcastsInDim S2x64x1 (![] : Fin 0 → Fin S2x64x1.rank)
  reducesTo_S2x64x1_S_d0_1_2 : S2x64x1.ReducesTo [0, 1, 2] S_

variable [Facts]

def fn_part1 {F : FTy → Type} [FloatOps F] (main_v13 : IVec S_ 1) (main_v16 : IVec S2x64x1 1) : IVec S_ 1 :=
  let main_c_5 : IVec S_ 1 := constantI S_ 1 1#1
  let main_v17 : IVec S_ 1 := (fun x v => Host.reduce IntOp.andi x v reducesTo_S2x64x1_S_d0_1_2 h_S_) main_v16 main_c_5
  let main_v18 : IVec S_ 1 := andi main_v13 main_v17
  main_v18

def fn {F : FTy → Type} [FloatOps F] (main_arg0 : FVec F S8192x256 .f32) (main_arg1 : FVec F S8192x8192 .f32) (main_arg2 : FVec F S64x256 .f32) (main_arg3 : FVec F S2x64x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S2x64x1 .f32 := Host.absf main_arg3
  let main_cst_4 : FVec F S_ .f32 := constant S_ .f32 0x7F800000#32
  let main_v15 : FVec F S2x64x1 .f32 := broadcastInDim S2x64x1 ![] bcast_S_S2x64x1 main_cst_4
  let main_v16 : IVec S2x64x1 1 := cmpf .olt main_v14 main_v15
  fn_part1 (F := F) main_v13 main_v16
-- ==== Kernel.lean ====
abbrev S8192x256 : Shape := ⟨2, ![8192, 256]⟩
abbrev S8192x8192 : Shape := ⟨2, ![8192, 8192]⟩
abbrev S64x256 : Shape := ⟨2, ![64, 256]⟩
abbrev S2x64x1 : Shape := ⟨3, ![2, 64, 1]⟩
abbrev S8192x64 : Shape := ⟨2, ![8192, 64]⟩
abbrev S8192x1 : Shape := ⟨2, ![8192, 1]⟩
abbrev S1024x256 : Shape := ⟨2, ![1024, 256]⟩
abbrev S1024x64 : Shape := ⟨2, ![1024, 64]⟩
abbrev S1024x1 : Shape := ⟨2, ![1024, 1]⟩
abbrev S256x64 : Shape := ⟨2, ![256, 64]⟩
abbrev S1x64x1 : Shape := ⟨3, ![1, 64, 1]⟩
abbrev S64x1 : Shape := ⟨2, ![64, 1]⟩
abbrev S1x8192 : Shape := ⟨2, ![1, 8192]⟩
abbrev S1024x2048 : Shape := ⟨2, ![1024, 2048]⟩
abbrev S1x2048 : Shape := ⟨2, ![1, 2048]⟩
abbrev S2048 : Shape := ⟨1, ![2048]⟩
abbrev S2048x64 : Shape := ⟨2, ![2048, 64]⟩

abbrev nBuf : Space → Nat
  | .hbm => 11
  | .vmem => 37
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S64x256, .f32⟩
  | .hbm, ⟨3, _⟩ => ⟨S2x64x1, .f32⟩
  | .hbm, ⟨4, _⟩ => ⟨S8192x64, .f32⟩
  | .hbm, ⟨5, _⟩ => ⟨S8192x1, .f32⟩
  | .hbm, ⟨6, _⟩ => ⟨S8192x1, .f32⟩
  | .hbm, ⟨7, _⟩ => ⟨S1x8192, .f32⟩
  | .hbm, ⟨8, _⟩ => ⟨S1x8192, .f32⟩
  | .hbm, ⟨9, _⟩ => ⟨S1x8192, .f32⟩
  | .hbm, ⟨10, _⟩ => ⟨S8192x64, .f32⟩
  | .local _ .vmem, ⟨0, _⟩ => ⟨S1024x256, .f32⟩
  | .local _ .vmem, ⟨1, _⟩ => ⟨S1024x256, .f32⟩
  | .local _ .vmem, ⟨2, _⟩ => ⟨S64x256, .f32⟩
  | .local _ .vmem, ⟨3, _⟩ => ⟨S2x64x1, .f32⟩
  | .local _ .vmem, ⟨4, _⟩ => ⟨S1024x64, .f32⟩
  | .local _ .vmem, ⟨5, _⟩ => ⟨S1024x64, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x2048, .f32⟩
  | .local _ .vmem, ⟨11, _⟩ => ⟨S1024x2048, .f32⟩
  | .local _ .vmem, ⟨12, _⟩ => ⟨S1024x1, .f32⟩
  | .local _ .vmem, ⟨13, _⟩ => ⟨S1024x1, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1024x2048, .f32⟩
  | .local _ .vmem, ⟨23, _⟩ => ⟨S1024x2048, .f32⟩
  | .local _ .vmem, ⟨24, _⟩ => ⟨S1024x1, .f32⟩
  | .local _ .vmem, ⟨25, _⟩ => ⟨S1024x1, .f32⟩
  | .local _ .vmem, ⟨26, _⟩ => ⟨S1x2048, .f32⟩
  | .local _ .vmem, ⟨27, _⟩ => ⟨S1x2048, .f32⟩
  | .local _ .vmem, ⟨28, _⟩ => ⟨S1x2048, .f32⟩
  | .local _ .vmem, ⟨29, _⟩ => ⟨S1x2048, .f32⟩
  | .local _ .vmem, ⟨30, _⟩ => ⟨S1x2048, .f32⟩
  | .local _ .vmem, ⟨31, _⟩ => ⟨S1x2048, .f32⟩
  | .local _ .vmem, ⟨32, _⟩ => ⟨S2048x64, .f32⟩
  | .local _ .vmem, ⟨33, _⟩ => ⟨S2048x64, .f32⟩
  | .local _ .vmem, ⟨34, _⟩ => ⟨S1024x64, .f32⟩
  | .local _ .vmem, ⟨35, _⟩ => ⟨S1024x64, .f32⟩
  | .local _ .vmem, ⟨36, _⟩ => ⟨S1024x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_19 : BitVec 32 := 0#32
  let v43 : BitVec 1 := Scalar.cmpi .ne v42 c0_i32_19
  v43

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_20 : BitVec 32 := 0#32
  let v40 : BitVec 1 := Scalar.cmpi .ne v39 c0_i32_20
  v40

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1024x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  inb_S1024x256_S1024x256_0_0 : ∀ a, (![0, 0] : Fin 2 → Nat) a + S1024x256.size a ≤ S1024x256.size a
  h_S1024x256 : 0 < S1024x256.numel
  inb_S64x256_S64x256_0_0 : ∀ a, (![0, 0] : Fin 2 → Nat) a + S64x256.size a ≤ S64x256.size a
  h_S64x256 : 0 < S64x256.numel
  transposes_S64x256_p1_0_S256x64 : S64x256.Transposes [1, 0] S256x64
  inb_S2x64x1_S1x64x1_0_0_0 : ∀ a, (![0, 0, 0] : Fin 3 → Nat) a + S1x64x1.size a ≤ S2x64x1.size a
  h_S1x64x1 : 0 < S1x64x1.numel
  shapeCasts_S1x64x1_S64x1 : S1x64x1.ShapeCasts S64x1
  inb_S2x64x1_S1x64x1_1_0_0 : ∀ a, (![1, 0, 0] : Fin 3 → Nat) a + S1x64x1.size a ≤ S2x64x1.size a
  inb_S1024x1_S1024x1_0_0 : ∀ a, (![0, 0] : Fin 2 → Nat) a + S1024x1.size a ≤ S1024x1.size a
  h_S1024x1 : 0 < S1024x1.numel
  inb_S1024x64_S1024x64_0_0 : ∀ a, (![0, 0] : Fin 2 → Nat) a + S1024x64.size a ≤ S1024x64.size a
  h_S1024x64 : 0 < S1024x64.numel
  shapeCasts_S8192x1_S1x8192 : S8192x1.ShapeCasts S1x8192
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  shapeCasts_S1024x1_S1024x1 : S1024x1.ShapeCasts S1024x1
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  dot_S1024x256_S256x64_S1024x64_1_0_0_1_n_n_wf : DotDims.WF S1024x256 S256x64 S1024x64 [1] [0] [0] [1] [] []
  dot_S1024x64_S64x1_S1024x1_1_0_0_1_n_n_wf : DotDims.WF S1024x64 S64x1 S1024x1 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64x1.size a ≤ S2x64x1.size a
  hwx0_2 : ∀ i : grid0.Coords, EltTy.bits .f32 = 32 ∨ (Rect.block (s := S2x64x1) S2x64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x8192.size a
  hwx1_3 : ∀ i : grid1.Coords, EltTy.bits .f32 = 32 ∨ (Rect.block (s := S1x8192) S1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x8192.size a
  hwx1_4 : ∀ i : grid1.Coords, EltTy.bits .f32 = 32 ∨ (Rect.block (s := S1x8192) S1x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S8192x1.size a
  hwx2_1 : ∀ i : grid2.Coords, EltTy.bits .f32 = 32 ∨ (Rect.block (s := S8192x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x8192.size a
  hwx2_2 : ∀ i : grid2.Coords, EltTy.bits .f32 = 32 ∨ (Rect.block (s := S1x8192) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x8192.size a
  hwx2_3 : ∀ i : grid2.Coords, EltTy.bits .f32 = 32 ∨ (Rect.block (s := S1x8192) S1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x8192.size a
  hwx2_4 : ∀ i : grid2.Coords, EltTy.bits .f32 = 32 ∨ (Rect.block (s := S1x8192) S1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x64.size a ≤ S8192x64.size a
  hwx2_5 : ∀ i : grid2.Coords, EltTy.bits .f32 = 32 ∨ (Rect.block (s := S8192x64) S2048x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x64.size a ≤ S8192x64.size a
  hwx2_6 : ∀ i : grid2.Coords, EltTy.bits .f32 = 32 ∨ (Rect.block (s := S8192x64) S1024x64.size (cc2_transform_6 i) (hinb2_6 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S1x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S1x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_0) S1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_1) S1x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v0_0) S2048x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v3) S1024x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S64x256 : Shape := ⟨2, ![64, 256]⟩
abbrev S2x64x1 : Shape := ⟨3, ![2, 64, 1]⟩
abbrev S256x64 : Shape := ⟨2, ![256, 64]⟩
abbrev S8192x64 : Shape := ⟨2, ![8192, 64]⟩
abbrev S1x64x1 : Shape := ⟨3, ![1, 64, 1]⟩
abbrev S64x1 : Shape := ⟨2, ![64, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S64x256, .f32⟩
  | .hbm, ⟨3, _⟩ => ⟨S2x64x1, .f32⟩
  | .hbm, ⟨4, _⟩ => ⟨S256x64, .f32⟩
  | .hbm, ⟨5, _⟩ => ⟨S8192x64, .f32⟩
  | .hbm, ⟨6, _⟩ => ⟨S1x64x1, .f32⟩
  | .hbm, ⟨7, _⟩ => ⟨S64x1, .f32⟩
  | .hbm, ⟨8, _⟩ => ⟨S8192x1, .f32⟩
  | .hbm, ⟨9, _⟩ => ⟨S1x64x1, .f32⟩
  | .hbm, ⟨10, _⟩ => ⟨S64x1, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .i1⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S1x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S1x8192, .f32⟩
  | .hbm, ⟨42, _⟩ => ⟨S8192x8192, .f32⟩
  | .hbm, ⟨43, _⟩ => ⟨S8192x8192, .f32⟩
  | .hbm, ⟨44, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  transposes_S64x256_S256x64_1_0 : S64x256.Transposes [1, 0] S256x64
  slices_S2x64x1_S1x64x1_0_0_0 : S2x64x1.Slices ![0, 0, 0] S1x64x1
  shapeCasts_S1x64x1_S64x1 : S1x64x1.ShapeCasts S64x1
  slices_S2x64x1_S1x64x1_1_0_0 : S2x64x1.Slices ![1, 0, 0] S1x64x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d0 : S8192x8192.ReducesTo [0] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  dot_S8192x256_S256x64_S8192x64_1_0_0_1_n_n_wf : DotDims.WF S8192x256 S256x64 S8192x64 [1] [0] [0] [1] [] []
  dot_S8192x64_S64x1_S8192x1_1_0_0_1_n_n_wf : DotDims.WF S8192x64 S64x1 S8192x1 [1] [0] [0] [1] [] []
  dot_S8192x8192_S8192x64_S8192x64_1_0_0_1_n_n_wf : DotDims.WF S8192x8192 S8192x64 S8192x64 [1] [0] [0] [1] [] []

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.BR0.lean ====
/- Region 0 of @main (the projection kernel, 8 row tiles): the frame-side proof data at the region-entry
   contents `V`, generic in the float interpretation. Each window's block at a point, what the body finds in
   each input window's buffer (its block, fetched there or not), what it leaves in each output window's buffer
   (one whole-buffer store each, so the store's payload), the body's triple, and the body obligation. -/
import proofs.«165041_j86423331930641_1_alg».proof.Proof.Gen.Kernel.Launch
import proofs.«165041_j86423331930641_1_alg».proof.Proof.Gen.Kernel.Skeleton
import proofs.«165041_j86423331930641_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row tile of X) holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (W, whole) is fetched at the first point only; at a later point its block index has not moved,
    so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (a, whole): likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x256 := Rect.unit (s := S1024x256) ![0, 0] S1024x256.size inb_S1024x256_S1024x256_0_0
abbrev r0_1 : Rect S64x256 := Rect.unit (s := S64x256) ![0, 0] S64x256.size inb_S64x256_S64x256_0_0
abbrev r0_2 : Rect S2x64x1 := Rect.unit (s := S2x64x1) ![0, 0, 0] S1x64x1.size inb_S2x64x1_S1x64x1_0_0_0
abbrev r0_3 : Rect S2x64x1 := Rect.unit (s := S2x64x1) ![1, 0, 0] S1x64x1.size inb_S2x64x1_S1x64x1_1_0_0
abbrev r0_4 : Rect S1024x1 := Rect.unit (s := S1024x1) ![0, 0] S1024x1.size inb_S1024x1_S1024x1_0_0
abbrev r0_5 : Rect S1024x64 := Rect.unit (s := S1024x64) ![0, 0] S1024x64.size inb_S1024x64_S1024x64_0_0

/-! ## What the body leaves in each output window's buffer -/

/-- Window 3 (the tile of X·Wᵀ) after the body: its one whole-buffer store. -/
def out0_3 (x0 : Vec F S1024x256 .f32) (x1 : Vec F S64x256 .f32) : Vec F S1024x64 .f32 :=
  View.canon [⟨r0_5, k0_pay1 (View.ld x0 r0_0) (View.ld x1 r0_1)⟩]
/-- Window 4 (the tile of (X·Wᵀ)·a[0]) after the body: its one whole-buffer store. -/
def out0_4 (x0 : Vec F S1024x256 .f32) (x1 : Vec F S64x256 .f32) (x2 : Vec F S2x64x1 .f32) : Vec F S1024x1 .f32 :=
  View.canon [⟨r0_4, k0_pay2 (View.ld x0 r0_0) (View.ld x1 r0_1) (View.ld x2 r0_2)⟩]
/-- Window 5 (the tile of (X·Wᵀ)·a[1]) after the body: its one whole-buffer store. -/
def out0_5 (x0 : Vec F S1024x256 .f32) (x1 : Vec F S64x256 .f32) (x2 : Vec F S2x64x1 .f32) : Vec F S1024x1 .f32 :=
  View.canon [⟨r0_4, k0_pay3 (View.ld x0 r0_0) (View.ld x1 r0_1) (View.ld x2 r0_3)⟩]

/-- A whole-buffer store covers the buffer. -/
theorem cover0_3 (p0 : Vec F S1024x64 .f32) (y : S1024x64.Idx) :
    ∃ pc ∈ ([⟨r0_5, p0⟩] : List (View.Piece (Elt F) S1024x64 .f32)), y ∈ pc.1.set :=
  View.cover_of_tiled [⟨r0_5, p0⟩] S1024x64.size (by rfl) y
theorem cover0_4 (p0 : Vec F S1024x1 .f32) (y : S1024x1.Idx) :
    ∃ pc ∈ ([⟨r0_4, p0⟩] : List (View.Piece (Elt F) S1024x1 .f32)), y ∈ pc.1.set :=
  View.cover_of_tiled [⟨r0_4, p0⟩] S1024x1.size (by rfl) y

/-! ## The body's triple -/

set_option maxHeartbeats 1000000 in
/-- The kernel body on whole staging memrefs, the inputs' at read contents `x0 x1 x2` and the outputs' at anything,
    runs to the continuation holding the inputs' as they were and each output's at `out0_W` of the inputs'. The
    body loads each output buffer before storing it; the loaded values are not used. -/
theorem sound_kernel0 (c : Dev nD) (E : Set ℕ) (i : grid0.Coords)
    (arg1 : Memref sig .tc .vmem S1024x256 .f32) (harg1 : arg1.IsWhole) (arg2 : Memref sig .tc .vmem S64x256 .f32) (harg2 : arg2.IsWhole)
    (arg3 : Memref sig .tc .vmem S2x64x1 .f32) (harg3 : arg3.IsWhole) (arg4 : Memref sig .tc .vmem S1024x64 .f32) (harg4 : arg4.IsWhole)
    (arg5 : Memref sig .tc .vmem S1024x1 .f32) (harg5 : arg5.IsWhole) (arg6 : Memref sig .tc .vmem S1024x1 .f32) (harg6 : arg6.IsWhole)
    (x0 : Vec F S1024x256 .f32) (x1 : Vec F S64x256 .f32) (x2 : Vec F S2x64x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

/-! ## The pipeline's proof data -/

/-- The proof data of pipeline 0 on core `c`: the arrays as the region finds them (`V`); after the body at point
    `t` each input's buffer at its block and each output's at `out0_W` of the input blocks; the invariant the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The region is entered and left at the untouched rest. -/
theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Gen

end
-- ==== Proof.BR1D.lean ====
/- Region 1 (the column statistics: a running maximum and a running sum of exponentials per column, over the
   row tiles of one column tile): what the two carried accumulators hold after each grid point, the region
   invariant, and the pipeline's proof data, at the contents `V` the region is entered with. Definitions only. -/
import proofs.«165041_j86423331930641_1_alg».proof.Proof.Gen.Kernel.Launch
import proofs.«165041_j86423331930641_1_alg».proof.Proof.Gen.Kernel.Skeleton
import proofs.«165041_j86423331930641_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## One step of the two accumulators -/

/-- One row tile folded into the two accumulators: from the adjacency tile `x0`, the row terms `x1`, the column
    terms `x2`, the running column maximum `mp` and the running column sum `lp`, the new maximum (the old one
    against the tile's column maxima) and the new sum (the old one rescaled to the new maximum, plus the tile's
    column sums of exponentials taken at the new maximum). -/
def scrStep1 (x0 : Vec F S1024x2048 .f32) (x1 : Vec F S1024x1 .f32) (x2 : Vec F S1x2048 .f32)
    (mp lp : Vec F S1x2048 .f32) : Vec F S1x2048 .f32 × Vec F S1x2048 .f32 :=
  (k1_pay1 (k1_pay6 x1 x2 x0 mp), k1_pay2 (k1_pay7 x1 x2 x0 mp lp))

/-- THE ACCUMULATION. What the two carried accumulators (the running column maximum, the running column sum) hold
    after the body at position `n`: at the first row tile of a column tile (`n % 8 = 0`) one step from the reset
    values (`-∞`, `0`); elsewhere one step from what the position before left. -/
def scrAt1 (c : Dev nD) : (n : ℕ) → n < cfg1.N → Vec F S1x2048 .f32 × Vec F S1x2048 .f32
  | 0, hn => scrStep1 (iblk1 V c 0 ⟨0, hn⟩) (iblk1 V c 1 ⟨0, hn⟩) (iblk1 V c 2 ⟨0, hn⟩) (k1_pay3 (F := F)) (k1_pay4 (F := F))
  | n + 1, hn =>
    if (n + 1) % 8 = 0 then
      scrStep1 (iblk1 V c 0 ⟨n + 1, hn⟩) (iblk1 V c 1 ⟨n + 1, hn⟩) (iblk1 V c 2 ⟨n + 1, hn⟩) (k1_pay3 (F := F)) (k1_pay4 (F := F))
    else
      scrStep1 (iblk1 V c 0 ⟨n + 1, hn⟩) (iblk1 V c 1 ⟨n + 1, hn⟩) (iblk1 V c 2 ⟨n + 1, hn⟩)
        (scrAt1 c n (Nat.lt_of_succ_lt hn)).1 (scrAt1 c n (Nat.lt_of_succ_lt hn)).2

/-- At the first row tile of a column tile: one step from the reset values. -/
theorem scrAt1_zero (c : Dev nD) (t : Fin cfg1.N) (h : t.val % 8 = 0) :
    scrAt1 V c t.val t.isLt
      = (k1_pay1 (k1_pay6 (iblk1 V c 1 t) (iblk1 V c 2 t) (iblk1 V c 0 t) (k1_pay3 (F := F))),
         k1_pay2 (k1_pay7 (iblk1 V c 1 t) (iblk1 V c 2 t) (iblk1 V c 0 t) (k1_pay3 (F := F)) (k1_pay4 (F := F)))) := by
  obtain ⟨n, hn⟩ := t
  cases n with
  | zero => rfl
  | succ n => exact (if_pos h).trans rfl

/-- At any other row tile: one step from what the position before left. -/
theorem scrAt1_succ (c : Dev nD) (t : Fin cfg1.N) (h : ¬t.val % 8 = 0) :
    scrAt1 V c t.val t.isLt
      = (k1_pay1 (k1_pay6 (iblk1 V c 1 t) (iblk1 V c 2 t) (iblk1 V c 0 t)
            (scrAt1 V c (t.val - 1) (Nat.lt_of_le_of_lt (Nat.sub_le _ _) t.isLt)).1),
         k1_pay2 (k1_pay7 (iblk1 V c 1 t) (iblk1 V c 2 t) (iblk1 V c 0 t)
            (scrAt1 V c (t.val - 1) (Nat.lt_of_le_of_lt (Nat.sub_le _ _) t.isLt)).1
            (scrAt1 V c (t.val - 1) (Nat.lt_of_le_of_lt (Nat.sub_le _ _) t.isLt)).2)) := by
  obtain ⟨n, hn⟩ := t
  cases n with
  | zero => exact absurd (Nat.zero_mod _) h
  | succ n => exact (if_neg h).trans rfl

/-! ## The region invariant -/

/-- The two accumulators: whole scoped buffers of the kernel's own, passed beside the windows. -/
abbrev scM1_0 : Memref sig .tc .vmem S1x2048 .f32 := Memref.whole cc1_scratch0
abbrev scM1_1 : Memref sig .tc .vmem S1x2048 .f32 := Memref.whole cc1_scratch1

/-- The region invariant before position `n`: before the first point what the launch hands the region (every scoped
    buffer that is no staging buffer at anything, the generator register at some state); afterwards the two
    accumulators at what the position before left in them, the other scoped buffers and the register as before. -/
def PhiS1 (c : Dev nD) : (n : ℕ) → n ≤ cfg1.N → sProp 𝕄
  | 0, _ => Pipeline.ΦA spec1 c
  | n + 1, hn =>
    iprop(iprop(iprop(owns (c : Thread nD τ) scM1_0 fullShare (scrAt1 V c n hn).1 ∗ owns (c : Thread nD τ) scM1_1 fullShare (scrAt1 V c n hn).2)
        ∗ Pipeline.scopedRestBut (Ix := Unit) (Name := ℕ) (U := UR sig nD τ) (Lvl := ℕ) (Val := Elt F) spec1 c [cc1_scratch0, cc1_scratch1])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(iprop(iprop(owns (c : Thread nD τ) scM1_0 fullShare (scrAt1 V c n hn).1 ∗ owns (c : Thread nD τ) scM1_1 fullShare (scrAt1 V c n hn).2)
          ∗ Pipeline.scopedRestBut (Ix := Unit) (Name := ℕ) (U := UR sig nD τ) (Lvl := ℕ) (Val := Elt F) spec1 c [cc1_scratch0, cc1_scratch1])
        ∗ (∃ r, prngReg c r)) := rfl

theorem PhiS1_pos (c : Dev nD) (n : ℕ) (h : n ≤ cfg1.N) (hz : n ≠ 0) :
    PhiS1 V c n h
      = iprop(iprop(iprop(owns (c : Thread nD τ) scM1_0 fullShare (scrAt1 V c (n - 1) (by omega)).1 ∗ owns (c : Thread nD τ) scM1_1 fullShare (scrAt1 V c (n - 1) (by omega)).2)
          ∗ Pipeline.scopedRestBut (Ix := Unit) (Name := ℕ) (U := UR sig nD τ) (Lvl := ℕ) (Val := Elt F) spec1 c [cc1_scratch0, cc1_scratch1])
        ∗ (∃ r, prngReg c r)) := by
  cases n with
  | zero => exact absurd rfl hz
  | succ n => rfl

/-! ## The pipeline's proof data -/

/-- The proof data of region 1 on core `c`: the arrays as the region finds them (`V`); after the body at point `t`
    each input's buffer at its block and the two outputs' at the two accumulators' contents (what the body copies
    into them at the last row tile of a column tile; at the other points the outputs are idle and not written back,
    and the value is not consulted); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (scrAt1 V c t.val t.isLt).1
    | ⟨4, _⟩ => (scrAt1 V c t.val t.isLt).2
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (scrAt1 V c t.val t.isLt).1 := by dsimp only [dat1]
theorem after1_4 (c : Dev nD) (t : Fin cfg1.N) : (dat1 V c).after 4 t = (scrAt1 V c t.val t.isLt).2 := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Gen

end
-- ==== Proof.BR2D.lean ====
/- Region 2 (the aggregation: for each row tile, the weighted sum of the features over the four column tiles): what the
   carried accumulator holds after each grid point — zero plus the first column tile's product at the first column
   tile of a row tile, the previous point's contents plus this tile's product otherwise —, the region invariant, and
   the pipeline's proof data, at the contents `V` the region is entered with. Definitions only. -/
import proofs.«165041_j86423331930641_1_alg».proof.Proof.Gen.Kernel.Launch
import proofs.«165041_j86423331930641_1_alg».proof.Proof.Gen.Kernel.Skeleton
import proofs.«165041_j86423331930641_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the aggregation over column tiles. The grid is 8 row tiles by 4 column tiles, point t = 4·i + j.
One accumulator of the block's shape is carried from point to point: zeroed at the first column tile of a row tile,
increased by the tile's weighted sum at every column tile, copied to the output block at the last column tile. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at point `t`, from what it held when the point's accumulation starts (`prev`):
    `prev` plus the tile's contribution (attention weights of the tile times the tile's feature rows). -/
abbrev step2 (c : Dev nD) (t : Fin cfg2.N) (prev : Vec F S1024x64 .f32) : Vec F S1024x64 .f32 :=
  k2_pay1 (k2_pay3 (iblk2 V c 1 t) (iblk2 V c 2 t) (iblk2 V c 0 t) (iblk2 V c 3 t) (iblk2 V c 4 t) (iblk2 V c 5 t) prev)

/-- THE ACCUMULATION. What the carried accumulator holds after the body at position `n`: at the first column tile of a
    row tile (n ≡ 0 mod 4) the step from the zero block, otherwise the step from what the point before left. -/
def accAt2 (c : Dev nD) : (n : ℕ) → n < cfg2.N → Vec F S1024x64 .f32
  | 0, hn => step2 V c ⟨0, hn⟩ (k2_pay2 (F := F))
  | n + 1, hn =>
    if (n + 1) % 4 = 0 then step2 V c ⟨n + 1, hn⟩ (k2_pay2 (F := F))
    else step2 V c ⟨n + 1, hn⟩ (accAt2 c n (Nat.lt_of_succ_lt hn))

/-- At a first column tile: the step from zero. -/
theorem accAt2_reset (c : Dev nD) (t : Fin cfg2.N) (h0 : t.val % 4 = 0) :
    accAt2 V c t.val t.isLt = step2 V c t (k2_pay2 (F := F)) := by
  obtain ⟨n, hn⟩ := t
  cases n with
  | zero => rfl
  | succ n => exact if_pos h0

/-- At a later column tile: the step from what the point before left. -/
theorem accAt2_acc (c : Dev nD) (t : Fin cfg2.N) (h0 : ¬t.val % 4 = 0) :
    accAt2 V c t.val t.isLt = step2 V c t (accAt2 V c (t.val - 1) (Nat.lt_of_le_of_lt (Nat.sub_le _ _) t.isLt)) := by
  obtain ⟨n, hn⟩ := t
  cases n with
  | zero => exact absurd (Nat.zero_mod _) h0
  | succ n => exact if_neg h0

/-- The carried scratch operand: a whole scoped buffer of the kernel's own, passed beside the windows. -/
abbrev scM2_0 : Memref sig .tc .vmem S1024x64 .f32 := Memref.whole cc2_scratch0

/-- The core's scoped buffers other than this call's staging buffers and its scratch, each at some contents, unopened. -/
abbrev rest2 (c : Dev nD) : sProp 𝕄 :=
  Pipeline.scopedRestBut (Ix := Unit) (Name := ℕ) (U := UR sig nD τ) (Lvl := ℕ) (Val := Elt F) spec2 c [cc2_scratch0]

/-- The region invariant before position `n`: before the first point the launch's (every scoped buffer at anything, the
    generator register at some state); afterwards the carried scratch at what the point before left in it, the other
    scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (accAt2 V c n hn) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (accAt2 V c (n - 1) (by omega)) ∗ rest2 c) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at the accumulator; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = accAt2 V c t.val t.isLt := by dsimp only [dat2]

end Cert.Kernel.Gen

end
-- ==== Proof.BRunW.lean ====
/-
  The contents of every unscoped buffer at each boundary of the program — launch, after the projection region, after the
  host reshape of the column terms into a row, after the column-statistics region, after the aggregation region — folded
  from the launch memory: a region leaves its windows' arrays at what its write-backs fold to and every other buffer as it
  found it. Then, buffer by buffer, what each later region finds: the arguments are never written, the projection's three
  results reach the later regions unchanged (the column terms recast as a row), the statistics reach the aggregation.
-/
import proofs.«165041_j86423331930641_1_alg».proof.Proof.BR0
import proofs.«165041_j86423331930641_1_alg».proof.Proof.BR1D
import proofs.«165041_j86423331930641_1_alg».proof.Proof.BR2D
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The contents of every unscoped buffer at each boundary, folded from the launch memory -/

variable (m : (ℓ : Loc nD τ sig) → Buf (Elt F) ℓ)

/-- At launch. -/
abbrev Wk0 : Dev nD → Valuation τ sig (Elt F) := fun c b => m (c, b)
abbrev Vk0 : (c : Dev nD) → (b : Ref sig .tc) → Buf (Elt F) ((c : Thread nD τ).loc b) := fun c b => Wk0 m c b

/-- After region 0: its arrays at what the region's write-backs fold to, every other buffer as the region found it. -/
def Wk1 (c : Dev nD) : Valuation τ sig (Elt F) :=
  Pipeline.withArrays spec0 c (Wk0 m c) fun w => (dat0 (Vk0 m) c).arrAt w cfg0.N
theorem Wk1_arr (c : Dev nD) (w : Fin cfg0.W) :
    Wk1 m c (Proc.devRef .tc (Pipeline.arrRef spec0 w)) = (dat0 (Vk0 m) c).arrAt w cfg0.N := by
  unfold Wk1; exact Pipeline.withArrays_arr spec0 launch0.win.arr_inj c _ _ w
theorem Wk1_of_ne (c : Dev nD) (b : Ref sig .tc) (hb : ∀ w, Pipeline.arrRef spec0 w ≠ b) :
    Wk1 m c (Proc.devRef .tc b) = Wk0 m c (Proc.devRef .tc b) := by
  unfold Wk1; exact Pipeline.withArrays_of_ne spec0 c _ _ b hb
/-- The same contents read at the TensorCore's references. -/
abbrev Vk1 : (c : Dev nD) → (b : Ref sig .tc) → Buf (Elt F) ((c : Thread nD τ).loc b) := fun c b => Wk1 m c b
theorem hF0 (c : Dev nD) (w : Fin cfg0.W) : (dat0 (Vk0 m) c).arrAt w cfg0.N = Vk1 m c (Pipeline.arrRef spec0 w) :=
  (Wk1_arr m c w).symm
theorem hrest0 (c : Dev nD) : ∀ b, b ∉ Finset.univ.image (Pipeline.arrRef spec0) → Vk1 m c b = Vk0 m c b :=
  fun b hb => Wk1_of_ne m c b fun w e => hb (Finset.mem_image.mpr ⟨w, Finset.mem_univ _, e⟩)

/-- After the host reshape of the column terms into a row. -/
abbrev Wk2 : Dev nD → Valuation τ sig (Elt F) := fun c => StableHlo.after hostOps1 (Wk1 m c)
abbrev Vk2 : (c : Dev nD) → (b : Ref sig .tc) → Buf (Elt F) ((c : Thread nD τ).loc b) := fun c b => Wk2 m c b

/-- After region 1: its arrays at what the region's write-backs fold to, every other buffer as the region found it. -/
def Wk3 (c : Dev nD) : Valuation τ sig (Elt F) :=
  Pipeline.withArrays spec1 c (Wk2 m c) fun w => (dat1 (Vk2 m) c).arrAt w cfg1.N
theorem Wk3_arr (c : Dev nD) (w : Fin cfg1.W) :
    Wk3 m c (Proc.devRef .tc (Pipeline.arrRef spec1 w)) = (dat1 (Vk2 m) c).arrAt w cfg1.N := by
  unfold Wk3; exact Pipeline.withArrays_arr spec1 launch1.win.arr_inj c _ _ w
theorem Wk3_of_ne (c : Dev nD) (b : Ref sig .tc) (hb : ∀ w, Pipeline.arrRef spec1 w ≠ b) :
    Wk3 m c (Proc.devRef .tc b) = Wk2 m c (Proc.devRef .tc b) := by
  unfold Wk3; exact Pipeline.withArrays_of_ne spec1 c _ _ b hb
/-- The same contents read at the TensorCore's references. -/
abbrev Vk3 : (c : Dev nD) → (b : Ref sig .tc) → Buf (Elt F) ((c : Thread nD τ).loc b) := fun c b => Wk3 m c b
theorem hF1 (c : Dev nD) (w : Fin cfg1.W) : (dat1 (Vk2 m) c).arrAt w cfg1.N = Vk3 m c (Pipeline.arrRef spec1 w) :=
  (Wk3_arr m c w).symm
theorem hrest1 (c : Dev nD) : ∀ b, b ∉ Finset.univ.image (Pipeline.arrRef spec1) → Vk3 m c b = Vk2 m c b :=
  fun b hb => Wk3_of_ne m c b fun w e => hb (Finset.mem_image.mpr ⟨w, Finset.mem_univ _, e⟩)

/-- After region 2: its arrays at what the region's write-backs fold to, every other buffer as the region found it. -/
def Wk4 (c : Dev nD) : Valuation τ sig (Elt F) :=
  Pipeline.withArrays spec2 c (Wk3 m c) fun w => (dat2 (Vk3 m) c).arrAt w cfg2.N
theorem Wk4_arr (c : Dev nD) (w : Fin cfg2.W) :
    Wk4 m c (Proc.devRef .tc (Pipeline.arrRef spec2 w)) = (dat2 (Vk3 m) c).arrAt w cfg2.N := by
  unfold Wk4; exact Pipeline.withArrays_arr spec2 launch2.win.arr_inj c _ _ w
theorem Wk4_of_ne (c : Dev nD) (b : Ref sig .tc) (hb : ∀ w, Pipeline.arrRef spec2 w ≠ b) :
    Wk4 m c (Proc.devRef .tc b) = Wk3 m c (Proc.devRef .tc b) := by
  unfold Wk4; exact Pipeline.withArrays_of_ne spec2 c _ _ b hb
/-- The same contents read at the TensorCore's references. -/
abbrev Vk4 : (c : Dev nD) → (b : Ref sig .tc) → Buf (Elt F) ((c : Thread nD τ).loc b) := fun c b => Wk4 m c b
theorem hF2 (c : Dev nD) (w : Fin cfg2.W) : (dat2 (Vk3 m) c).arrAt w cfg2.N = Vk4 m c (Pipeline.arrRef spec2 w) :=
  (Wk4_arr m c w).symm
theorem hrest2 (c : Dev nD) : ∀ b, b ∉ Finset.univ.image (Pipeline.arrRef spec2) → Vk4 m c b = Vk3 m c b :=
  fun b hb => Wk4_of_ne m c b fun w e => hb (Finset.mem_image.mpr ⟨w, Finset.mem_univ _, e⟩)

/-! ## Each boundary's contents, buffer by buffer -/

section Trace
variable (c : Dev nD)

/-- The host reshape writes only the row of column terms. -/
theorem host_keep (b : Ref sig .tc) (hb : b ≠ main_v1) : Wk2 m c (Proc.devRef .tc b) = Wk1 m c (Proc.devRef .tc b) :=
  StableHlo.after_of_forall_not_mem (b := Proc.devRef .tc b) _ _ (by
    intro op hop
    simp only [hostOps1, List.mem_singleton] at hop
    subst hop
    rw [StableHlo.reshape_writes, Finset.mem_singleton]
    exact StableHlo.devRef_ne_of_ne hb)

theorem Wk4_main_arg0 : Wk4 m c (Proc.devRef .tc main_arg0) = m ((c : Thread nD τ).loc main_arg0) :=
  calc Wk4 m c (Proc.devRef .tc main_arg0)
    _ = Wk3 m c (Proc.devRef .tc main_arg0) := Wk4_of_ne m c main_arg0 (by decide)
    _ = Wk2 m c (Proc.devRef .tc main_arg0) := Wk3_of_ne m c main_arg0 (by decide)
    _ = Wk1 m c (Proc.devRef .tc main_arg0) := host_keep m c main_arg0 (by decide)
    _ = Wk0 m c (Proc.devRef .tc main_arg0) := (Wk1_arr m c 0).trans (((dat0 (Vk0 m) c).arrAt_in 0 rfl _).trans (A_eq0 (Vk0 m) c 0))
    _ = m ((c : Thread nD τ).loc main_arg0) := rfl
theorem Wk4_main_arg2 : Wk4 m c (Proc.devRef .tc main_arg2) = m ((c : Thread nD τ).loc main_arg2) :=
  calc Wk4 m c (Proc.devRef .tc main_arg2)
    _ = Wk3 m c (Proc.devRef .tc main_arg2) := Wk4_of_ne m c main_arg2 (by decide)
    _ = Wk2 m c (Proc.devRef .tc main_arg2) := Wk3_of_ne m c main_arg2 (by decide)
    _ = Wk1 m c (Proc.devRef .tc main_arg2) := host_keep m c main_arg2 (by decide)
    _ = Wk0 m c (Proc.devRef .tc main_arg2) := (Wk1_arr m c 1).trans (((dat0 (Vk0 m) c).arrAt_in 1 rfl _).trans (A_eq0 (Vk0 m) c 1))
    _ = m ((c : Thread nD τ).loc main_arg2) := rfl
theorem Wk4_main_arg3 : Wk4 m c (Proc.devRef .tc main_arg3) = m ((c : Thread nD τ).loc main_arg3) :=
  calc Wk4 m c (Proc.devRef .tc main_arg3)
    _ = Wk3 m c (Proc.devRef .tc main_arg3) := Wk4_of_ne m c main_arg3 (by decide)
    _ = Wk2 m c (Proc.devRef .tc main_arg3) := Wk3_of_ne m c main_arg3 (by decide)
    _ = Wk1 m c (Proc.devRef .tc main_arg3) := host_keep m c main_arg3 (by decide)
    _ = Wk0 m c (Proc.devRef .tc main_arg3) := (Wk1_arr m c 2).trans (((dat0 (Vk0 m) c).arrAt_in 2 rfl _).trans (A_eq0 (Vk0 m) c 2))
    _ = m ((c : Thread nD τ).loc main_arg3) := rfl
/-- The adjacency is an input window of the second and third regions and untouched elsewhere. -/
theorem Vk2_main_arg1 : Vk2 m c main_arg1 = m ((c : Thread nD τ).loc main_arg1) :=
  (host_keep m c main_arg1 (by decide)).trans (Wk1_of_ne m c main_arg1 (by decide))
theorem Vk3_main_arg1 : Vk3 m c main_arg1 = m ((c : Thread nD τ).loc main_arg1) :=
  (Wk3_arr m c 0).trans ((((dat1 (Vk2 m) c).arrAt_in 0 rfl _).trans (A_eq1 (Vk2 m) c 0)).trans (Vk2_main_arg1 m c))
theorem Wk4_main_arg1 : Wk4 m c (Proc.devRef .tc main_arg1) = m ((c : Thread nD τ).loc main_arg1) :=
  (Wk4_arr m c 0).trans ((((dat2 (Vk3 m) c).arrAt_in 0 rfl _).trans (A_eq2 (Vk3 m) c 0)).trans (Vk3_main_arg1 m c))

/-- The row terms as the second and third regions find them: what the first region wrote. -/
theorem Vk2_main_v0_1 : Vk2 m c main_v0_1 = (dat0 (Vk0 m) c).arrAt 4 cfg0.N :=
  (host_keep m c main_v0_1 (by decide)).trans (Wk1_arr m c 4)
theorem Vk3_main_v0_1 : Vk3 m c main_v0_1 = (dat0 (Vk0 m) c).arrAt 4 cfg0.N :=
  (Wk3_arr m c 1).trans ((((dat1 (Vk2 m) c).arrAt_in 1 rfl _).trans (A_eq1 (Vk2 m) c 1)).trans (Vk2_main_v0_1 m c))
/-- The features as the third region finds them. -/
theorem Vk3_main_v0_0 : Vk3 m c main_v0_0 = (dat0 (Vk0 m) c).arrAt 3 cfg0.N :=
  (Wk3_of_ne m c main_v0_0 (by decide)).trans ((host_keep m c main_v0_0 (by decide)).trans (Wk1_arr m c 3))
/-- The row of column terms: the first region's column, recast. -/
theorem Vk2_main_v1 : Vk2 m c main_v1 = fun i => shapeCast S1x8192 ((dat0 (Vk0 m) c).arrAt 5 cfg0.N) shapeCasts_S8192x1_S1x8192 i := by
  have h : Wk1 m c (Proc.devRef .tc main_v0_2) = (dat0 (Vk0 m) c).arrAt 5 cfg0.N := Wk1_arr m c 5
  show StableHlo.after hostOps1 (Wk1 m c) (Proc.devRef .tc main_v1) = _
  rw [← h]
  after_results
  rfl
theorem Vk3_main_v1 : Vk3 m c main_v1 = Vk2 m c main_v1 :=
  (Wk3_arr m c 2).trans (((dat1 (Vk2 m) c).arrAt_in 2 rfl _).trans (A_eq1 (Vk2 m) c 2))
/-- The column statistics as the third region finds them, and the result at the end. -/
theorem Vk3_main_v2_0 : Vk3 m c main_v2_0 = (dat1 (Vk2 m) c).arrAt 3 cfg1.N := Wk3_arr m c 3
theorem Vk3_main_v2_1 : Vk3 m c main_v2_1 = (dat1 (Vk2 m) c).arrAt 4 cfg1.N := Wk3_arr m c 4
theorem Wk4_main_v3 : Wk4 m c (Proc.devRef .tc main_v3) = (dat2 (Vk3 m) c).arrAt 6 cfg2.N := Wk4_arr m c 6

end Trace

end Cert.Kernel.Gen

end
-- ==== Proof.BR1.lean ====
/- Region 1 (the column statistics), the body's side: the body's triple in each of the three cases of the row-tile
   coordinate (first row tile: the two accumulators reset, then one step; a middle one: one step; the last: one step,
   then the accumulators copied to the two outputs), what the inputs' buffers hold when the body is called, where the
   outputs are idle, the body obligation at every point, and the invariant's two ends. -/
import proofs.«165041_j86423331930641_1_alg».proof.Proof.BR1D
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the row-tile coordinate -/

/-- The condition of the body's first conditional (the accumulators are reset): the row-tile coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the accumulators are copied out): the row-tile coordinate is 7. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Whole-buffer loads and stores read back -/

theorem zeros2 : (![0, 0] : Fin 2 → Nat) = fun _ => 0 := funext fun a => by fin_cases a <;> rfl

/-- What a buffer reads after a list of stores whose LAST covers it whole: that store's payload. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load of the whole buffer reads its contents. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

/-! ## The body's triple, case by case -/

set_option maxHeartbeats 4000000 in
/-- The body at a first row tile (the reset taken, the copy-out not): the three inputs and the two idle outputs are
    handed back as found; the two accumulators, found at anything, are left at one step from the reset values. -/
theorem sound_kernel1_A (c : Dev nD) (E : Set ℕ) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (hc0 : cond1_0 i) (hc1 : ¬cond1_1 i)
    (x0 : Vec F S1024x2048 .f32) (x1 : Vec F S1024x1 .f32) (x2 : Vec F S1x2048 .f32) (xi3 xi4 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xi4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare (scrStep1 x0 x1 x2 (k1_pay3 (F := F)) (k1_pay4 (F := F))).1
            ∗ owns (c : Thread nD τ) arg8 fullShare (scrStep1 x0 x1 x2 (k1_pay3 (F := F)) (k1_pay4 (F := F))).2) -∗ K ⟨⟩))
      ⊢ wp frame (wpE (defs₀ (F := F)) Variants.none c none) E (cc1__stats_kernel i arg2 harg2 arg3 harg3 arg4 harg4 arg5 harg5 arg6 harg6 arg7 harg7 arg8 harg8) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  subst hf0; subst hf1; subst hf2; subst hf3; subst hf4
  sl_exec (disch := first | exact hc0 | exact hc1)
  sl_step
  have e0 := readAt_whole (F := F) arg2.view f0 zeros2 inb_S1024x2048_S1024x2048_0_0
  have e1 := readAt_whole (F := F) arg3.view f1 zeros2 inb_S1024x1_S1024x1_0_0
  have e2 := readAt_whole (F := F) arg4.view f2 zeros2 inb_S1x2048_S1x2048_0_0
  have em : sound_kernel1_A.sl.v23 (F := F) c arg7 = k1_pay3 := View.readCov_unit_zero (S := S1x2048) _ zeros2 _ _
  have el : sound_kernel1_A.sl.v30 (F := F) c arg8 = k1_pay4 := View.readCov_unit_zero (S := S1x2048) _ zeros2 _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    refine (read_writes_whole (S := S1x2048) _ _ zeros2 _ _ _).trans ?_
    show k1_pay1 (k1_pay6 _ _ _ _) = k1_pay1 (k1_pay6 _ _ _ _)
    rw [e0, e1, e2, em]
  iexists _; isplitr
  swap; · iexact HS1
  ipureintro
  refine (read_writes_whole (S := S1x2048) _ _ zeros2 _ _ _).trans ?_
  show k1_pay2 (k1_pay7 _ _ _ _ _) = k1_pay2 (k1_pay7 _ _ _ _ _)
  rw [e0, e1, e2, em, el]

set_option maxHeartbeats 4000000 in
/-- The body at a middle row tile (neither conditional taken): the three inputs and the two idle outputs are handed
    back as found; the two accumulators, found at `xs0`, `xs1`, are left at one step from them. -/
theorem sound_kernel1_B (c : Dev nD) (E : Set ℕ) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (hc0 : ¬cond1_0 i) (hc1 : ¬cond1_1 i)
    (x0 : Vec F S1024x2048 .f32) (x1 : Vec F S1024x1 .f32) (x2 : Vec F S1x2048 .f32) (xi3 xi4 : Vec F S1x2048 .f32)
    (xs0 xs1 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xi4
        ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare (scrStep1 x0 x1 x2 xs0 xs1).1
            ∗ owns (c : Thread nD τ) arg8 fullShare (scrStep1 x0 x1 x2 xs0 xs1).2) -∗ K ⟨⟩))
      ⊢ wp frame (wpE (defs₀ (F := F)) Variants.none c none) E (cc1__stats_kernel i arg2 harg2 arg3 harg3 arg4 harg4 arg5 harg5 arg6 harg6 arg7 harg7 arg8 harg8) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0; subst hf1; subst hf2; subst hf3; subst hf4; subst hfs0; subst hfs1
  sl_exec (disch := first | exact hc0 | exact hc1)
  sl_step
  have e0 := readAt_whole (F := F) arg2.view f0 zeros2 inb_S1024x2048_S1024x2048_0_0
  have e1 := readAt_whole (F := F) arg3.view f1 zeros2 inb_S1024x1_S1024x1_0_0
  have e2 := readAt_whole (F := F) arg4.view f2 zeros2 inb_S1x2048_S1x2048_0_0
  have em := readAt_whole (F := F) arg7.view fs0 zeros2 inb_S1x2048_S1x2048_0_0
  have el := readAt_whole (F := F) arg8.view fs1 zeros2 inb_S1x2048_S1x2048_0_0
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    refine (read_writes_whole (S := S1x2048) _ _ zeros2 _ _ _).trans ?_
    show k1_pay1 (k1_pay6 _ _ _ _) = k1_pay1 (k1_pay6 _ _ _ _)
    rw [e0, e1, e2, em]
  iexists _; isplitr
  swap; · iexact HS1
  ipureintro
  refine (read_writes_whole (S := S1x2048) _ _ zeros2 _ _ _).trans ?_
  show k1_pay2 (k1_pay7 _ _ _ _ _) = k1_pay2 (k1_pay7 _ _ _ _ _)
  rw [e0, e1, e2, em, el]

set_option maxHeartbeats 4000000 in
/-- The body at a last row tile (the reset not taken, the copy-out taken): the three inputs are handed back as found;
    the two accumulators, found at `xs0`, `xs1`, are left at one step from them, and the two outputs, found at
    anything, at copies of them. -/
theorem sound_kernel1_C (c : Dev nD) (E : Set ℕ) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (hc0 : ¬cond1_0 i) (hc1 : cond1_1 i)
    (x0 : Vec F S1024x2048 .f32) (x1 : Vec F S1024x1 .f32) (x2 : Vec F S1x2048 .f32)
    (xs0 xs1 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare (scrStep1 x0 x1 x2 xs0 xs1).1 ∗ owns (c : Thread nD τ) arg6 fullShare (scrStep1 x0 x1 x2 xs0 xs1).2
            ∗ owns (c : Thread nD τ) arg7 fullShare (scrStep1 x0 x1 x2 xs0 xs1).1
            ∗ owns (c : Thread nD τ) arg8 fullShare (scrStep1 x0 x1 x2 xs0 xs1).2) -∗ K ⟨⟩))
      ⊢ wp frame (wpE (defs₀ (F := F)) Variants.none c none) E (cc1__stats_kernel i arg2 harg2 arg3 harg3 arg4 harg4 arg5 harg5 arg6 harg6 arg7 harg7 arg8 harg8) K := by
  simp only [cc1__stats_kernel_eq_skeleton]; unfold cc1__stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  subst hf0; subst hf1; subst hf2; subst hfs0; subst hfs1
  sl_exec (disch := first | exact hc0 | exact hc1)
  sl_step
  have e0 := readAt_whole (F := F) arg2.view f0 zeros2 inb_S1024x2048_S1024x2048_0_0
  have e1 := readAt_whole (F := F) arg3.view f1 zeros2 inb_S1024x1_S1024x1_0_0
  have e2 := readAt_whole (F := F) arg4.view f2 zeros2 inb_S1x2048_S1x2048_0_0
  have em := readAt_whole (F := F) arg7.view fs0 zeros2 inb_S1x2048_S1x2048_0_0
  have el := readAt_whole (F := F) arg8.view fs1 zeros2 inb_S1x2048_S1x2048_0_0
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_whole (S := S1x2048) _ _ zeros2 _ _ _).trans ?_
    refine (View.readCov_unit_zero (S := S1x2048) _ zeros2 _ _).trans ?_
    show k1_pay1 (k1_pay6 _ _ _ _) = k1_pay1 (k1_pay6 _ _ _ _)
    rw [e0, e1, e2, em]
  isplitl [H4]
  · iexists _; isplitr
    swap; · iexact H4
    ipureintro
    refine (read_writes_whole (S := S1x2048) _ _ zeros2 _ _ _).trans ?_
    refine (View.readCov_unit_zero (S := S1x2048) _ zeros2 _ _).trans ?_
    show k1_pay2 (k1_pay7 _ _ _ _ _) = k1_pay2 (k1_pay7 _ _ _ _ _)
    rw [e0, e1, e2, em, el]
  isplitl [HS0]
  · iexists _; isplitr
    swap; · iexact HS0
    ipureintro
    refine (read_writes_whole (S := S1x2048) _ _ zeros2 _ _ _).trans ?_
    show k1_pay1 (k1_pay6 _ _ _ _) = k1_pay1 (k1_pay6 _ _ _ _)
    rw [e0, e1, e2, em]
  iexists _; isplitr
  swap; · iexact HS1
  ipureintro
  refine (read_writes_whole (S := S1x2048) _ _ zeros2 _ _ _).trans ?_
  show k1_pay2 (k1_pay7 _ _ _ _ _) = k1_pay2 (k1_pay7 _ _ _ _ _)
  rw [e0, e1, e2, em, el]

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last row tile the two outputs are idle (the body stores nothing into them) and are not written back. -/
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 (t : Fin cfg1.N) (h : ¬cond1_1 (grid1.coords t)) : (cfg1.win 3).flush t = false :=
  Bool.eq_false_iff.mpr fun hf => h ((hcond1_1 t).mpr ((flush1_3 t).mp hf))
theorem noFlush1_4 (t : Fin cfg1.N) (h : ¬cond1_1 (grid1.coords t)) : (cfg1.win 4).flush t = false :=
  Bool.eq_false_iff.mpr fun hf => h ((hcond1_1 t).mpr ((flush1_4 t).mp hf))
/-- At the last row tile they are live: the body stores into them. -/
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

variable (V : (c : Dev nD) → (b : Ref sig .tc) → Buf (Elt F) ((c : Thread nD τ).loc b))

/-! ## What the inputs' staging buffers hold when the body is called -/

/-- Each input's current staging buffer holds its block at every point, fetched there or not (the column terms are
    fetched only at the first row tile of a column tile: unfetched, the block index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The invariant, opened -/

/-- What the launch hands the region, with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
        ∗ (∃ r, prngReg c r)) := by
  unfold Pipeline.ΦA; rw [scopedRest1_split]; simp only [scM1_0, scM1_1, owns_whole]; try rfl

/-- The accumulators after a point, as one step. -/
theorem scrAt1_A (c : Dev nD) (t : Fin cfg1.N) (h : t.val % 8 = 0) :
    scrAt1 V c t.val t.isLt = scrStep1 (iblk1 V c 0 t) (iblk1 V c 1 t) (iblk1 V c 2 t) (k1_pay3 (F := F)) (k1_pay4 (F := F)) :=
  scrAt1_zero V c t h
theorem scrAt1_B (c : Dev nD) (t : Fin cfg1.N) (h : ¬t.val % 8 = 0) :
    scrAt1 V c t.val t.isLt = scrStep1 (iblk1 V c 0 t) (iblk1 V c 1 t) (iblk1 V c 2 t)
      (scrAt1 V c (t.val - 1) (Nat.lt_of_le_of_lt (Nat.sub_le _ _) t.isLt)).1
      (scrAt1 V c (t.val - 1) (Nat.lt_of_le_of_lt (Nat.sub_le _ _) t.isLt)).2 :=
  scrAt1_succ V c t h

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the row-tile coordinate says which of the three
    cases the point is in; the invariant hands the body the two accumulators at what the point before left (at
    anything at a first row tile) and takes them back at this point's contents; off the last row tile the two outputs
    pass through untouched, at it they are left at copies of the accumulators; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 32 := lt_of_lt_of_eq t.isLt (show cfg1.N = 32 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [Dat.leavesExact_idle (dat1 V c) 4 t (idleAt1_4 t (fun h => h1 ((hcond1_1 t).mp h))) (noFlush1_4 t (fun h => h1 ((hcond1_1 t).mp h)))]
    rw [scrAt1_A V c t h0]
    by_cases hz : t.val = 0
    · rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexists _; iexact H3
      iexists _; iexact H4
    · rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    by_cases h1 : t.val % 8 = 7
    · rw [show (dat1 V c).leavesExact 3 t = owns (c : Thread nD τ) (st1_3 t) fullShare ((dat1 V c).after 3 t) from by
        unfold Dat.leavesExact; rw [liveAt1_3 t ((hcond1_1 t).mpr h1)], after1_3]
      rw [show (dat1 V c).leavesExact 4 t = owns (c : Thread nD τ) (st1_4 t) fullShare ((dat1 V c).after 4 t) from by
        unfold Dat.leavesExact; rw [liveAt1_4 t ((hcond1_1 t).mpr h1)], after1_4]
      rw [scrAt1_B V c t h0]
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ _ _ (fun h => h0 ((hcond1_0 t).mp h)) ((hcond1_1 t).mpr h1) (iblk1 V c 0 t) (iblk1 V c 1 t) (iblk1 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 3 t (idleAt1_3 t (fun h => h1 ((hcond1_1 t).mp h))) (noFlush1_3 t (fun h => h1 ((hcond1_1 t).mp h)))]
      rw [Dat.leavesExact_idle (dat1 V c) 4 t (idleAt1_4 t (fun h => h1 ((hcond1_1 t).mp h))) (noFlush1_4 t (fun h => h1 ((hcond1_1 t).mp h)))]
      rw [scrAt1_B V c t h0]
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Gen

end
-- ==== Proof.BR2.lean ====
/- Region 2 (the aggregation), the body's side: the body's triple in each of the three cases of the column-tile
   coordinate (first column tile: the accumulator zeroed, then one step; a middle one: one step; the last: one step,
   then the accumulator copied to the output), what the inputs' buffers hold when the body is called, where the output
   is idle, the body obligation at every point, and the invariant's two ends. -/
import proofs.«165041_j86423331930641_1_alg».proof.Proof.BR2D
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2, the frame side: the body's triple in each of its three cases, the body obligation at every point, and
the invariant's two ends. -/

theorem hz2 : (![0, 0] : Fin 2 → Nat) = fun _ => 0 := funext fun a => by fin_cases a <;> rfl

/-- The condition of the body's first `scf.if` (the column-tile coordinate is 0), from the grid coordinates. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The condition of the body's second `scf.if` (the column-tile coordinate is 3). -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## The body in its three cases

The two conditions are on the column-tile coordinate j: "j = 0" and "j = 3". Case A (j = 0): the accumulator is zeroed,
then increased; the output block is not touched. Case B (j = 1, 2): the accumulator is increased; the output block is
not touched. Case C (j = 3): the accumulator is increased, then copied to the output block. No point has both. -/

set_option maxHeartbeats 2000000 in
/-- Case A: from the inputs' blocks, the output's buffer at any contents `xi6` (handed back untouched) and the
    accumulator at anything, the body leaves the accumulator at the step from the zero block. -/
theorem runA2 (c : Dev nD) (E : Set ℕ) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x64 .f32) (harg7 : arg7.IsWhole) (arg8 : Memref sig .tc .vmem S1024x64 .f32) (harg8 : arg8.IsWhole) (arg9 : Memref sig .tc .vmem S1024x64 .f32) (harg9 : arg9.IsWhole) (hc0 : cond2_0 i) (hc1 : ¬cond2_1 i)
    (x0 : Vec F S1024x2048 .f32) (x1 : Vec F S1024x1 .f32) (x2 : Vec F S1x2048 .f32) (x3 : Vec F S1x2048 .f32) (x4 : Vec F S1x2048 .f32) (x5 : Vec F S2048x64 .f32) (xi6 : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare (k2_pay1 (k2_pay3 x1 x2 x0 x3 x4 x5 (k2_pay2 (F := F))))) -∗ K ⟨⟩))
      ⊢ wp frame (wpE (defs₀ (F := F)) Variants.none c none) E (cc2__out_kernel i arg2 harg2 arg3 harg3 arg4 harg4 arg5 harg5 arg6 harg6 arg7 harg7 arg8 harg8 arg9 harg9) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact HS
  ipureintro
  sl_unfold_run_names
  rw [View.read_writes_eq_canon _ _ _ (fun y => ⟨_, List.mem_cons_self, View.mem_set_unit_zero hz2 inb_S1024x64_S1024x64_0_0 y⟩)]
  rw [View.canon_cons_unit_zero (S := S1024x64) hz2]
  (try dsimp only)
  sl_unfold_run_names
  rw [View.readCov_unit_zero (S := S1024x64) _ hz2]
  simp only [View.readAt_eq_ld, harg2.read_unread, harg3.read_unread, harg4.read_unread, harg5.read_unread, harg6.read_unread, harg7.read_unread, harg9.read_unread, View.ld_unit_zero (S := S1024x2048) hz2, View.ld_unit_zero (S := S1024x1) hz2, View.ld_unit_zero (S := S1x2048) hz2, View.ld_unit_zero (S := S2048x64) hz2, View.ld_unit_zero (S := S1024x64) hz2]

set_option maxHeartbeats 2000000 in
/-- Case B: from the inputs' blocks, the output's buffer at any contents `xi6` (handed back untouched) and the
    accumulator at `xs`, the body leaves the accumulator at the step from `xs`. -/
theorem runB2 (c : Dev nD) (E : Set ℕ) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x64 .f32) (harg7 : arg7.IsWhole) (arg8 : Memref sig .tc .vmem S1024x64 .f32) (harg8 : arg8.IsWhole) (arg9 : Memref sig .tc .vmem S1024x64 .f32) (harg9 : arg9.IsWhole) (hc0 : ¬cond2_0 i) (hc1 : ¬cond2_1 i)
    (x0 : Vec F S1024x2048 .f32) (x1 : Vec F S1024x1 .f32) (x2 : Vec F S1x2048 .f32) (x3 : Vec F S1x2048 .f32) (x4 : Vec F S1x2048 .f32) (x5 : Vec F S2048x64 .f32) (xi6 : Vec F S1024x64 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare (k2_pay1 (k2_pay3 x1 x2 x0 x3 x4 x5 xs))) -∗ K ⟨⟩))
      ⊢ wp frame (wpE (defs₀ (F := F)) Variants.none c none) E (cc2__out_kernel i arg2 harg2 arg3 harg3 arg4 harg4 arg5 harg5 arg6 harg6 arg7 harg7 arg8 harg8 arg9 harg9) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact HS
  ipureintro
  sl_unfold_run_names
  rw [View.read_writes_eq_canon _ _ _ (fun y => ⟨_, List.mem_cons_self, View.mem_set_unit_zero hz2 inb_S1024x64_S1024x64_0_0 y⟩)]
  rw [View.canon_cons_unit_zero (S := S1024x64) hz2]
  (try dsimp only)
  simp only [View.readAt_eq_ld, harg2.read_unread, harg3.read_unread, harg4.read_unread, harg5.read_unread, harg6.read_unread, harg7.read_unread, harg9.read_unread, View.ld_unit_zero (S := S1024x2048) hz2, View.ld_unit_zero (S := S1024x1) hz2, View.ld_unit_zero (S := S1x2048) hz2, View.ld_unit_zero (S := S2048x64) hz2, View.ld_unit_zero (S := S1024x64) hz2]

set_option maxHeartbeats 2000000 in
/-- Case C: from the inputs' blocks, the output's buffer at anything and the accumulator at `xs`, the body leaves the
    accumulator and the output's buffer at the step from `xs`. -/
theorem runC2 (c : Dev nD) (E : Set ℕ) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x64 .f32) (harg7 : arg7.IsWhole) (arg8 : Memref sig .tc .vmem S1024x64 .f32) (harg8 : arg8.IsWhole) (arg9 : Memref sig .tc .vmem S1024x64 .f32) (harg9 : arg9.IsWhole) (hc0 : ¬cond2_0 i) (hc1 : cond2_1 i)
    (x0 : Vec F S1024x2048 .f32) (x1 : Vec F S1024x1 .f32) (x2 : Vec F S1x2048 .f32) (x3 : Vec F S1x2048 .f32) (x4 : Vec F S1x2048 .f32) (x5 : Vec F S2048x64 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k2_pay1 (k2_pay3 x1 x2 x0 x3 x4 x5 xs)) ∗ owns (c : Thread nD τ) arg9 fullShare (k2_pay1 (k2_pay3 x1 x2 x0 x3 x4 x5 xs))) -∗ K ⟨⟩))
      ⊢ wp frame (wpE (defs₀ (F := F)) Variants.none c none) E (cc2__out_kernel i arg2 harg2 arg3 harg3 arg4 harg4 arg5 harg5 arg6 harg6 arg7 harg7 arg8 harg8 arg9 harg9) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    rw [View.read_writes_eq_canon _ _ _ (fun y => ⟨_, List.mem_cons_self, View.mem_set_unit_zero hz2 inb_S1024x64_S1024x64_0_0 y⟩)]
    rw [View.canon_cons_unit_zero (S := S1024x64) hz2]
    (try dsimp only)
    sl_unfold_run_names
    rw [View.readCov_unit_zero (S := S1024x64) _ hz2]
    (try dsimp only)
    simp only [View.readAt_eq_ld, harg2.read_unread, harg3.read_unread, harg4.read_unread, harg5.read_unread, harg6.read_unread, harg7.read_unread, harg9.read_unread, View.ld_unit_zero (S := S1024x2048) hz2, View.ld_unit_zero (S := S1024x1) hz2, View.ld_unit_zero (S := S1x2048) hz2, View.ld_unit_zero (S := S2048x64) hz2, View.ld_unit_zero (S := S1024x64) hz2]
  iexists _; isplitr
  swap; · iexact HS
  ipureintro
  sl_unfold_run_names
  rw [View.read_writes_eq_canon _ _ _ (fun y => ⟨_, List.mem_cons_self, View.mem_set_unit_zero hz2 inb_S1024x64_S1024x64_0_0 y⟩)]
  rw [View.canon_cons_unit_zero (S := S1024x64) hz2]
  (try dsimp only)
  simp only [View.readAt_eq_ld, harg2.read_unread, harg3.read_unread, harg4.read_unread, harg5.read_unread, harg6.read_unread, harg7.read_unread, harg9.read_unread, View.ld_unit_zero (S := S1024x2048) hz2, View.ld_unit_zero (S := S1024x1) hz2, View.ld_unit_zero (S := S1x2048) hz2, View.ld_unit_zero (S := S2048x64) hz2, View.ld_unit_zero (S := S1024x64) hz2]

/-! ## The inputs' buffers hold their blocks at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_5 (c : Dev nD) (t : Fin cfg2.N) (d) : (dat2 V c).before 5 t d = iblk2 V c 5 t :=
  before2_5_of V (dat2 V c) (A_eq2 V c 5) (after2_5 V c) t d

/-! ## Where the output window is idle: exactly off the last column tile -/

theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-- The launch's invariant with the carried scratch split off the other scoped buffers. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA
  rw [Pipeline.scopedRest_split_of_list spec2 c [cc2_scratch0] (by decide) (by decide)]
  simp only [scM2_0, owns_whole]; try rfl

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' buffers hold their blocks; the closed forms of the two conditions say which
    case the point is in; the invariant hands the body the accumulator at what the point before left (at anything at
    the first point) and takes it back at this point's contents; the output's buffer is handed back untouched off the
    last column tile and holds the accumulator there; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [show (dat2 V c).leavesExact 2 t = owns (c : Thread nD τ) (st2_2 t) fullShare ((dat2 V c).after 2 t) from rfl, after2_2]
  rw [show (dat2 V c).leavesExact 3 t = owns (c : Thread nD τ) (st2_3 t) fullShare ((dat2 V c).after 3 t) from rfl, after2_3]
  rw [show (dat2 V c).leavesExact 4 t = owns (c : Thread nD τ) (st2_4 t) fullShare ((dat2 V c).after 4 t) from rfl, after2_4]
  rw [show (dat2 V c).leavesExact 5 t = owns (c : Thread nD τ) (st2_5 t) fullShare ((dat2 V c).after 5 t) from rfl, after2_5]
  have hN : t.val < 32 := lt_of_lt_of_eq t.isLt (show cfg2.N = 32 from N_2)
  by_cases h0 : t.val % 4 = 0
  · have h1 : ¬t.val % 4 = 3 := by omega
    rw [Dat.leavesExact_idle (dat2 V c) 6 t (idleAt2_6 t (fun h => h1 ((hcond2_1 t).mp h))) (noFlush2_6 t (fun h => h1 ((hcond2_1 t).mp h)))]
    rw [accAt2_reset V c t h0]
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (runA2 c Set.univ (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (runA2 c Set.univ (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [PhiS2_castSucc V c t, PhiS2_pos V c _ _ hz]
    rw [accAt2_acc V c t h0]
    by_cases h1 : t.val % 4 = 3
    · rw [show (dat2 V c).leavesExact 6 t = owns (c : Thread nD τ) (st2_6 t) fullShare ((dat2 V c).after 6 t) from by
        unfold Dat.leavesExact; rw [liveAt2_6 t ((hcond2_1 t).mpr h1)], after2_6]
      rw [accAt2_acc V c t h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (runC2 c Set.univ (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat2 V c) 6 t (idleAt2_6 t (fun h => h1 ((hcond2_1 t).mp h))) (noFlush2_6 t (fun h => h1 ((hcond2_1 t).mp h)))]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (runB2 c Set.univ (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hrest⟩, Hg⟩
  isplitl [HS Hrest]
  · isplitl [HS]
    · iexists _; iexact HS
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.Kernel.Gen

end
-- ==== Proof.BRun.lean ====
/-
  The whole program as a list of segments — the projection region, the host reshape, the column-statistics region, the
  aggregation region — each region entered with every unscoped buffer at the boundary's contents and left with its
  arrays at what its write-backs fold to; the launch over the segments; the frame (the argument arrays end as
  launched) and the same run with the result array named.
-/
import proofs.«165041_j86423331930641_1_alg».proof.Proof.BRunW
import proofs.«165041_j86423331930641_1_alg».proof.Proof.BR1
import proofs.«165041_j86423331930641_1_alg».proof.Proof.BR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and what rides beside the buffers -/

abbrev padm : (p : Fin 3) → (pcfgs (F := F) p).Adm := fun p => (cfgs p).toPCfg_adm
/-- Each region's proof data at the contents it is entered with. -/
def pdats : (p : Fin 3) → (c : Dev nD) → Dat τ (Elt F) Unit ℕ (UR sig nD τ) ℕ (Pipeline.pin (pcfgs (F := F)) padm p) c
  | ⟨0, _⟩ => fun c => dat0 (Vk0 m) c
  | ⟨1, _⟩ => fun c => dat1 (Vk2 m) c
  | ⟨2, _⟩ => fun c => dat2 (Vk3 m) c
abbrev 𝒱r : Variants := Variants.none
abbrev Lr : GSem nD τ sig → Finset Unit := fun _ => ∅
abbrev lvr : GSem nD τ sig → Unit → ℕ := fun _ _ => 0
/-- Beside the buffers through every segment: the generator register at some state, and nothing owed. -/
abbrev Rr (c : Dev nD) : sProp 𝕄 := iprop((∃ r, prngReg c r) ∗ ∃ W, owes (c : Thread nD τ) (0 : CellTallies nD τ sig Unit) W)
theorem hostOps1_fresh' : (hostOps1 : List (HloOp τ sig (Elt F))).Forall fun op => op.fresh = ∅ := by
  simp only [List.Forall]; repeat' constructor
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc' (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tfin (c : Dev nD) : sProp 𝕄 := iprop(StableHlo.held (c : Thread nD τ) (Pipeline.ucRefs τ sig) (Wk4 m c) ∗ ∃ r, prngReg c r)

/-! ## The regions as segments -/

set_option backward.isDefEq.respectTransparency.types false in
/-- Region 0 as a segment: entered with every unscoped buffer at the contents before it, left with the region's arrays at
    what its write-backs fold to and every other buffer as entered; the generator register goes into the region's
    invariant and comes back; nothing is owed; the kernel has no semaphore of its own. -/
def rseg0 : Pipeline.RegionSeg (pcfgs (F := F)) padm (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (Vk0 m) c).loose
  hwaits := Pipeline.hwaits_of_owed_zero _ _ _ _ Lr lvr 0 fun _ _ => rfl
  pre c := iprop(StableHlo.held (c : Thread nD τ) (Pipeline.ucRefs τ sig) (Wk0 m c) ∗ Rr c)
  post c := iprop(StableHlo.held (c : Thread nD τ) (Pipeline.ucRefs τ sig) (Wk1 m c) ∗ Rr c)
  X c := iprop(∃ r, prngReg c r)
  Y c := iprop(∃ r, prngReg c r)
  Z c := Pipeline.unscopedRest (Ix := Unit) (Name := ℕ) (U := UR sig nD τ) (Lvl := ℕ) spec0 c (Vk0 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (Vk0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (padm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (hin0 (Vk0 m) c)
  hout c := by
    rw [Pipeline.ownSems0_none]
    have h1 : (Pipeline.ΦA spec0 c : sProp 𝕄)
        ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (hout0 (Vk0 m) c).trans h1
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (Vk0 m c) (Vk1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's arrays at
    what its write-backs fold to and every other buffer as entered; the generator register goes into the region's
    invariant and comes back; nothing is owed; the kernel has no semaphore of its own. -/
def rseg1 : Pipeline.RegionSeg (pcfgs (F := F)) padm (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (Vk2 m) c).loose
  hwaits := Pipeline.hwaits_of_owed_zero _ _ _ _ Lr lvr 1 fun _ _ => rfl
  pre c := iprop(StableHlo.held (c : Thread nD τ) (Pipeline.ucRefs τ sig) (Wk2 m c) ∗ Rr c)
  post c := iprop(StableHlo.held (c : Thread nD τ) (Pipeline.ucRefs τ sig) (Wk3 m c) ∗ Rr c)
  X c := iprop(∃ r, prngReg c r)
  Y c := iprop(∃ r, prngReg c r)
  Z c := Pipeline.unscopedRest (Ix := Unit) (Name := ℕ) (U := UR sig nD τ) (Lvl := ℕ) spec1 c (Vk2 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (Vk2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (padm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (Vk2 m) c)
  hout c := by
    rw [Pipeline.ownSems0_none]
    have h1 : (Pipeline.ΦA spec1 c : sProp 𝕄)
        ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (Vk2 m) c).trans h1
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (Vk2 m c) (Vk3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with the region's arrays at
    what its write-backs fold to and every other buffer as entered; the generator register goes into the region's
    invariant and comes back; nothing is owed; the kernel has no semaphore of its own. -/
def rseg2 : Pipeline.RegionSeg (pcfgs (F := F)) padm (pdats m) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (Vk3 m) c).loose
  hwaits := Pipeline.hwaits_of_owed_zero _ _ _ _ Lr lvr 2 fun _ _ => rfl
  pre c := iprop(StableHlo.held (c : Thread nD τ) (Pipeline.ucRefs τ sig) (Wk3 m c) ∗ Rr c)
  post c := iprop(Tfin m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vk3 m c)
  hentry c := by
    rw [Pipeline.ownSems0_none]
    have hsplit := Pipeline.arrays_of_unscopedBufs (p := 2) (pcfgs (F := F)) padm (pdats m) launch2.win launch2.arr_whole c
      ((pdats m 2 c).share_full fun _ => rfl) (Vk3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 2).pre c (fun _ => fullShare) (padm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h1.trans (hin2 (Vk3 m) c)
  hout c := by
    rw [Pipeline.ownSems0_none]
    have h1 : (Pipeline.ΦA spec2 c : sProp 𝕄)
        ⊢ iprop((∃ r, prngReg c r) ∗ emp ∗ Pipeline.scopedRest spec2 c) := by
      unfold Pipeline.ΦA
      iintro ⟨Hr, Hp⟩
      isplitl [Hp]; · iexact Hp
      isplitr; · iempintro
      iexact Hr
    exact (hout2 (Vk3 m) c).trans h1
  hexit c := by
    have hjoin := Pipeline.unscopedBufs_of_arrays (p := 2) (pcfgs (F := F)) padm (Ix := Unit) (Name := ℕ) (U := UR sig nD τ) (Lvl := ℕ)
      launch2.win launch2.arr_whole c (pdats m) ((pdats m 2 c).share_full fun _ => rfl)
      (Vk3 m c) (Vk4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

abbrev allSegs : List (Pipeline.Seg (pcfgs (F := F)) padm (pdats m) () defs₀ 𝒱r Lr lvr) :=
  [ .region (rseg0 m),
    .host (hsegR hostOps1 hostOps1_sub hostOps1_fresh' (Wk1 m)),
    .region (rseg1 m),
    .region (rseg2 m) ]
theorem main_run (c : Dev nD) : main (F := F) c = Pipeline.Seg.run (allSegs m) := (main_chain c).trans (by chain_rfl)

variable (ρ : Dev nD → PrngReg)

set_option backward.isDefEq.respectTransparency.types false in
/-- From any memory with zero counters every weakly fair execution of the program terminates without a fault, and in
    every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wk4 m c b) :=
  Pipeline.θ_run_regions_kit (pcfgs (F := F)) padm (pdats m) () cellOf_inj emb₁ defs₀ 𝒱r Lr lvr m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m c) ∗ Rr c)) (Tₙ := Tfin m)
    (hch := ⟨fun _ => .rfl, fun _ => .rfl, fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (Wk0 m c)
        from Pipeline.unscopedBufs_held c (Wk0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk4 m c b)
    (hfin := fun c s' => by
      iintro ⟨⟨Hh, -⟩, HSI⟩
      unfold StableHlo.held
      imodintro
      iapply (pointsTo_read_all (Pipeline.ucRefs τ sig) (fun b => (((c : Thread nD τ)).1, b)) (Wk4 m c) s')
      isplitl [Hh] <;> iassumption)
    (hQ := fun s h c => h c)

/-- The frame: every weakly fair execution terminates without a fault and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc' main_arg0 (by decide))).trans (Wk4_main_arg0 m c),
     (h c _ (mem_uc' main_arg1 (by decide))).trans (Wk4_main_arg1 m c),
     (h c _ (mem_uc' main_arg2 (by decide))).trans (Wk4_main_arg2 m c),
     (h c _ (mem_uc' main_arg3 (by decide))).trans (Wk4_main_arg3 m c)⟩) (run_main m ρ)

/-- The same run with the result array named as well. -/
theorem run_value : θ_run defs (onTc (τ := τ) (main (F := F))) ⟨m, fun _ => 0, ρ⟩ (fun r => ∀ c : Dev nD,
      r.2.mem ((c.tc : Thread nD τ).loc main_v3) = (dat2 (Vk3 m) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc' main_v3 (by decide))).trans (Wk4_main_v3 m c),
     (h c _ (mem_uc' main_arg0 (by decide))).trans (Wk4_main_arg0 m c),
     (h c _ (mem_uc' main_arg1 (by decide))).trans (Wk4_main_arg1 m c),
     (h c _ (mem_uc' main_arg2 (by decide))).trans (Wk4_main_arg2 m c),
     (h c _ (mem_uc' main_arg3 (by decide))).trans (Wk4_main_arg3 m c)⟩) (run_main m ρ)

end Cert.Kernel.Gen

end
-- ==== Proof.IR0.lean ====
/- Region 0 of @main (the projection kernel, 8 row tiles): the frame-side proof data at the region-entry
   contents `V`, generic in the float interpretation. Each window's block at a point, what the body finds in
   each input window's buffer (its block, fetched there or not), what it leaves in each output window's buffer
   (one whole-buffer store each, so the store's payload), the body's triple, and the body obligation. -/
import proofs.«165041_j86423331930641_1_alg».proof.Proof.Gen.KernelIdeal.Launch
import proofs.«165041_j86423331930641_1_alg».proof.Proof.Gen.KernelIdeal.Skeleton
import proofs.«165041_j86423331930641_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row tile of X) holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (W, whole) is fetched at the first point only; at a later point its block index has not moved,
    so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (a, whole): likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x256 := Rect.unit (s := S1024x256) ![0, 0] S1024x256.size inb_S1024x256_S1024x256_0_0
abbrev r0_1 : Rect S64x256 := Rect.unit (s := S64x256) ![0, 0] S64x256.size inb_S64x256_S64x256_0_0
abbrev r0_2 : Rect S2x64x1 := Rect.unit (s := S2x64x1) ![0, 0, 0] S1x64x1.size inb_S2x64x1_S1x64x1_0_0_0
abbrev r0_3 : Rect S2x64x1 := Rect.unit (s := S2x64x1) ![1, 0, 0] S1x64x1.size inb_S2x64x1_S1x64x1_1_0_0
abbrev r0_4 : Rect S1024x1 := Rect.unit (s := S1024x1) ![0, 0] S1024x1.size inb_S1024x1_S1024x1_0_0
abbrev r0_5 : Rect S1024x64 := Rect.unit (s := S1024x64) ![0, 0] S1024x64.size inb_S1024x64_S1024x64_0_0

/-! ## What the body leaves in each output window's buffer -/

/-- Window 3 (the tile of X·Wᵀ) after the body: its one whole-buffer store. -/
def out0_3 (x0 : Vec F S1024x256 .f32) (x1 : Vec F S64x256 .f32) : Vec F S1024x64 .f32 :=
  View.canon [⟨r0_5, k0_pay1 (View.ld x0 r0_0) (View.ld x1 r0_1)⟩]
/-- Window 4 (the tile of (X·Wᵀ)·a[0]) after the body: its one whole-buffer store. -/
def out0_4 (x0 : Vec F S1024x256 .f32) (x1 : Vec F S64x256 .f32) (x2 : Vec F S2x64x1 .f32) : Vec F S1024x1 .f32 :=
  View.canon [⟨r0_4, k0_pay2 (View.ld x0 r0_0) (View.ld x1 r0_1) (View.ld x2 r0_2)⟩]
/-- Window 5 (the tile of (X·Wᵀ)·a[1]) after the body: its one whole-buffer store. -/
def out0_5 (x0 : Vec F S1024x256 .f32) (x1 : Vec F S64x256 .f32) (x2 : Vec F S2x64x1 .f32) : Vec F S1024x1 .f32 :=
  View.canon [⟨r0_4, k0_pay3 (View.ld x0 r0_0) (View.ld x1 r0_1) (View.ld x2 r0_3)⟩]

/-- A whole-buffer store covers the buffer. -/
theorem cover0_3 (p0 : Vec F S1024x64 .f32) (y : S1024x64.Idx) :
    ∃ pc ∈ ([⟨r0_5, p0⟩] : List (View.Piece (Elt F) S1024x64 .f32)), y ∈ pc.1.set :=
  View.cover_of_tiled [⟨r0_5, p0⟩] S1024x64.size (by rfl) y
theorem cover0_4 (p0 : Vec F S1024x1 .f32) (y : S1024x1.Idx) :
    ∃ pc ∈ ([⟨r0_4, p0⟩] : List (View.Piece (Elt F) S1024x1 .f32)), y ∈ pc.1.set :=
  View.cover_of_tiled [⟨r0_4, p0⟩] S1024x1.size (by rfl) y

/-! ## The body's triple -/

set_option maxHeartbeats 1000000 in
/-- The kernel body on whole staging memrefs, the inputs' at read contents `x0 x1 x2` and the outputs' at anything,
    runs to the continuation holding the inputs' as they were and each output's at `out0_W` of the inputs'. The
    body loads each output buffer before storing it; the loaded values are not used. -/
theorem sound_kernel0 (c : Dev nD) (E : Set ℕ) (i : grid0.Coords)
    (arg1 : Memref sig .tc .vmem S1024x256 .f32) (harg1 : arg1.IsWhole) (arg2 : Memref sig .tc .vmem S64x256 .f32) (harg2 : arg2.IsWhole)
    (arg3 : Memref sig .tc .vmem S2x64x1 .f32) (harg3 : arg3.IsWhole) (arg4 : Memref sig .tc .vmem S1024x64 .f32) (harg4 : arg4.IsWhole)
    (arg5 : Memref sig .tc .vmem S1024x1 .f32) (harg5 : arg5.IsWhole) (arg6 : Memref sig .tc .vmem S1024x1 .f32) (harg6 : arg6.IsWhole)
    (x0 : Vec F S1024x256 .f32) (x1 : Vec F S64x256 .f32) (x2 : Vec F S2x64x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

/-! ## The pipeline's proof data -/

/-- The proof data of pipeline 0 on core `c`: the arrays as the region finds them (`V`); after the body at point
    `t` each input's buffer at its block and each output's at `out0_W` of the input blocks; the invariant the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The region is entered and left at the untouched rest. -/
theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Gen

end
-- ==== Proof.IR1D.lean ====
/- Region 1 (the column statistics: a running maximum and a running sum of exponentials per column, over the
   row tiles of one column tile): what the two carried accumulators hold after each grid point, the region
   invariant, and the pipeline's proof data, at the contents `V` the region is entered with. Definitions only. -/
import proofs.«165041_j86423331930641_1_alg».proof.Proof.Gen.KernelIdeal.Launch
import proofs.«165041_j86423331930641_1_alg».proof.Proof.Gen.KernelIdeal.Skeleton
import proofs.«165041_j86423331930641_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## One step of the two accumulators -/

/-- One row tile folded into the two accumulators: from the adjacency tile `x0`, the row terms `x1`, the column
    terms `x2`, the running column maximum `mp` and the running column sum `lp`, the new maximum (the old one
    against the tile's column maxima) and the new sum (the old one rescaled to the new maximum, plus the tile's
    column sums of exponentials taken at the new maximum). -/
def scrStep1 (x0 : Vec F S1024x2048 .f32) (x1 : Vec F S1024x1 .f32) (x2 : Vec F S1x2048 .f32)
    (mp lp : Vec F S1x2048 .f32) : Vec F S1x2048 .f32 × Vec F S1x2048 .f32 :=
  (k1_pay1 (k1_pay6 x1 x2 x0 mp), k1_pay2 (k1_pay7 x1 x2 x0 mp lp))

/-- THE ACCUMULATION. What the two carried accumulators (the running column maximum, the running column sum) hold
    after the body at position `n`: at the first row tile of a column tile (`n % 8 = 0`) one step from the reset
    values (`-∞`, `0`); elsewhere one step from what the position before left. -/
def scrAt1 (c : Dev nD) : (n : ℕ) → n < cfg1.N → Vec F S1x2048 .f32 × Vec F S1x2048 .f32
  | 0, hn => scrStep1 (iblk1 V c 0 ⟨0, hn⟩) (iblk1 V c 1 ⟨0, hn⟩) (iblk1 V c 2 ⟨0, hn⟩) (k1_pay3 (F := F)) (k1_pay4 (F := F))
  | n + 1, hn =>
    if (n + 1) % 8 = 0 then
      scrStep1 (iblk1 V c 0 ⟨n + 1, hn⟩) (iblk1 V c 1 ⟨n + 1, hn⟩) (iblk1 V c 2 ⟨n + 1, hn⟩) (k1_pay3 (F := F)) (k1_pay4 (F := F))
    else
      scrStep1 (iblk1 V c 0 ⟨n + 1, hn⟩) (iblk1 V c 1 ⟨n + 1, hn⟩) (iblk1 V c 2 ⟨n + 1, hn⟩)
        (scrAt1 c n (Nat.lt_of_succ_lt hn)).1 (scrAt1 c n (Nat.lt_of_succ_lt hn)).2

/-- At the first row tile of a column tile: one step from the reset values. -/
theorem scrAt1_zero (c : Dev nD) (t : Fin cfg1.N) (h : t.val % 8 = 0) :
    scrAt1 V c t.val t.isLt
      = (k1_pay1 (k1_pay6 (iblk1 V c 1 t) (iblk1 V c 2 t) (iblk1 V c 0 t) (k1_pay3 (F := F))),
         k1_pay2 (k1_pay7 (iblk1 V c 1 t) (iblk1 V c 2 t) (iblk1 V c 0 t) (k1_pay3 (F := F)) (k1_pay4 (F := F)))) := by
  obtain ⟨n, hn⟩ := t
  cases n with
  | zero => rfl
  | succ n => exact (if_pos h).trans rfl

/-- At any other row tile: one step from what the position before left. -/
theorem scrAt1_succ (c : Dev nD) (t : Fin cfg1.N) (h : ¬t.val % 8 = 0) :
    scrAt1 V c t.val t.isLt
      = (k1_pay1 (k1_pay6 (iblk1 V c 1 t) (iblk1 V c 2 t) (iblk1 V c 0 t)
            (scrAt1 V c (t.val - 1) (Nat.lt_of_le_of_lt (Nat.sub_le _ _) t.isLt)).1),
         k1_pay2 (k1_pay7 (iblk1 V c 1 t) (iblk1 V c 2 t) (iblk1 V c 0 t)
            (scrAt1 V c (t.val - 1) (Nat.lt_of_le_of_lt (Nat.sub_le _ _) t.isLt)).1
            (scrAt1 V c (t.val - 1) (Nat.lt_of_le_of_lt (Nat.sub_le _ _) t.isLt)).2)) := by
  obtain ⟨n, hn⟩ := t
  cases n with
  | zero => exact absurd (Nat.zero_mod _) h
  | succ n => exact (if_neg h).trans rfl

/-! ## The region invariant -/

/-- The two accumulators: whole scoped buffers of the kernel's own, passed beside the windows. -/
abbrev scM1_0 : Memref sig .tc .vmem S1x2048 .f32 := Memref.whole cc1_scratch0
abbrev scM1_1 : Memref sig .tc .vmem S1x2048 .f32 := Memref.whole cc1_scratch1

/-- The region invariant before position `n`: before the first point what the launch hands the region (every scoped
    buffer that is no staging buffer at anything, the generator register at some state); afterwards the two
    accumulators at what the position before left in them, the other scoped buffers and the register as before. -/
def PhiS1 (c : Dev nD) : (n : ℕ) → n ≤ cfg1.N → sProp 𝕄
  | 0, _ => Pipeline.ΦA spec1 c
  | n + 1, hn =>
    iprop(iprop(iprop(owns (c : Thread nD τ) scM1_0 fullShare (scrAt1 V c n hn).1 ∗ owns (c : Thread nD τ) scM1_1 fullShare (scrAt1 V c n hn).2)
        ∗ Pipeline.scopedRestBut (Ix := Unit) (Name := ℕ) (U := UR sig nD τ) (Lvl := ℕ) (Val := Elt F) spec1 c [cc1_scratch0, cc1_scratch1])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(iprop(iprop(owns (c : Thread nD τ) scM1_0 fullShare (scrAt1 V c n hn).1 ∗ owns (c : Thread nD τ) scM1_1 fullShare (scrAt1 V c n hn).2)
          ∗ Pipeline.scopedRestBut (Ix := Unit) (Name := ℕ) (U := UR sig nD τ) (Lvl := ℕ) (Val := Elt F) spec1 c [cc1_scratch0, cc1_scratch1])
        ∗ (∃ r, prngReg c r)) := rfl

theorem PhiS1_pos (c : Dev nD) (n : ℕ) (h : n ≤ cfg1.N) (hz : n ≠ 0) :
    PhiS1 V c n h
      = iprop(iprop(iprop(owns (c : Thread nD τ) scM1_0 fullShare (scrAt1 V c (n - 1) (by omega)).1 ∗ owns (c : Thread nD τ) scM1_1 fullShare (scrAt1 V c (n - 1) (by omega)).2)
          ∗ Pipeline.scopedRestBut (Ix := Unit) (Name := ℕ) (U := UR sig nD τ) (Lvl := ℕ) (Val := Elt F) spec1 c [cc1_scratch0, cc1_scratch1])
        ∗ (∃ r, prngReg c r)) := by
  cases n with
  | zero => exact absurd rfl hz
  | succ n => rfl

/-! ## The pipeline's proof data -/

/-- The proof data of region 1 on core `c`: the arrays as the region finds them (`V`); after the body at point `t`
    each input's buffer at its block and the two outputs' at the two accumulators' contents (what the body copies
    into them at the last row tile of a column tile; at the other points the outputs are idle and not written back,
    and the value is not consulted); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (scrAt1 V c t.val t.isLt).1
    | ⟨4, _⟩ => (scrAt1 V c t.val t.isLt).2
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (scrAt1 V c t.val t.isLt).1 := by dsimp only [dat1]
theorem after1_4 (c : Dev nD) (t : Fin cfg1.N) : (dat1 V c).after 4 t = (scrAt1 V c t.val t.isLt).2 := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Gen

end
-- ==== Proof.IR2D.lean ====
/- Region 2 (the aggregation: for each row tile, the weighted sum of the features over the four column tiles): what the
   carried accumulator holds after each grid point — zero plus the first column tile's product at the first column
   tile of a row tile, the previous point's contents plus this tile's product otherwise —, the region invariant, and
   the pipeline's proof data, at the contents `V` the region is entered with. Definitions only. -/
import proofs.«165041_j86423331930641_1_alg».proof.Proof.Gen.KernelIdeal.Launch
import proofs.«165041_j86423331930641_1_alg».proof.Proof.Gen.KernelIdeal.Skeleton
import proofs.«165041_j86423331930641_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the aggregation over column tiles. The grid is 8 row tiles by 4 column tiles, point t = 4·i + j.
One accumulator of the block's shape is carried from point to point: zeroed at the first column tile of a row tile,
increased by the tile's weighted sum at every column tile, copied to the output block at the last column tile. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the body at point `t`, from what it held when the point's accumulation starts (`prev`):
    `prev` plus the tile's contribution (attention weights of the tile times the tile's feature rows). -/
abbrev step2 (c : Dev nD) (t : Fin cfg2.N) (prev : Vec F S1024x64 .f32) : Vec F S1024x64 .f32 :=
  k2_pay1 (k2_pay3 (iblk2 V c 1 t) (iblk2 V c 2 t) (iblk2 V c 0 t) (iblk2 V c 3 t) (iblk2 V c 4 t) (iblk2 V c 5 t) prev)

/-- THE ACCUMULATION. What the carried accumulator holds after the body at position `n`: at the first column tile of a
    row tile (n ≡ 0 mod 4) the step from the zero block, otherwise the step from what the point before left. -/
def accAt2 (c : Dev nD) : (n : ℕ) → n < cfg2.N → Vec F S1024x64 .f32
  | 0, hn => step2 V c ⟨0, hn⟩ (k2_pay2 (F := F))
  | n + 1, hn =>
    if (n + 1) % 4 = 0 then step2 V c ⟨n + 1, hn⟩ (k2_pay2 (F := F))
    else step2 V c ⟨n + 1, hn⟩ (accAt2 c n (Nat.lt_of_succ_lt hn))

/-- At a first column tile: the step from zero. -/
theorem accAt2_reset (c : Dev nD) (t : Fin cfg2.N) (h0 : t.val % 4 = 0) :
    accAt2 V c t.val t.isLt = step2 V c t (k2_pay2 (F := F)) := by
  obtain ⟨n, hn⟩ := t
  cases n with
  | zero => rfl
  | succ n => exact if_pos h0

/-- At a later column tile: the step from what the point before left. -/
theorem accAt2_acc (c : Dev nD) (t : Fin cfg2.N) (h0 : ¬t.val % 4 = 0) :
    accAt2 V c t.val t.isLt = step2 V c t (accAt2 V c (t.val - 1) (Nat.lt_of_le_of_lt (Nat.sub_le _ _) t.isLt)) := by
  obtain ⟨n, hn⟩ := t
  cases n with
  | zero => exact absurd (Nat.zero_mod _) h0
  | succ n => exact if_neg h0

/-- The carried scratch operand: a whole scoped buffer of the kernel's own, passed beside the windows. -/
abbrev scM2_0 : Memref sig .tc .vmem S1024x64 .f32 := Memref.whole cc2_scratch0

/-- The core's scoped buffers other than this call's staging buffers and its scratch, each at some contents, unopened. -/
abbrev rest2 (c : Dev nD) : sProp 𝕄 :=
  Pipeline.scopedRestBut (Ix := Unit) (Name := ℕ) (U := UR sig nD τ) (Lvl := ℕ) (Val := Elt F) spec2 c [cc2_scratch0]

/-- The region invariant before position `n`: before the first point the launch's (every scoped buffer at anything, the
    generator register at some state); afterwards the carried scratch at what the point before left in it, the other
    scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ rest2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (accAt2 V c n hn) ∗ rest2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (accAt2 V c (n - 1) (by omega)) ∗ rest2 c) ∗ (∃ r, prngReg c r)) := by
  cases n with
  | zero => exact absurd rfl hz
  | succ n => rfl

/-! ## The pipeline's proof data -/

/-- The proof data of pipeline 2 on core `c`: the arrays as the region finds them; after the body at point `t` each
    input's buffer at its block and the output's at the accumulator; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = accAt2 V c t.val t.isLt := by dsimp only [dat2]

end Cert.KernelIdeal.Gen

end
-- ==== Proof.IRunW.lean ====
/-
  The contents of every unscoped buffer at each boundary of the program — launch, after the projection region, after the
  host reshape of the column terms into a row, after the column-statistics region, after the aggregation region — folded
  from the launch memory: a region leaves its windows' arrays at what its write-backs fold to and every other buffer as it
  found it. Then, buffer by buffer, what each later region finds: the arguments are never written, the projection's three
  results reach the later regions unchanged (the column terms recast as a row), the statistics reach the aggregation.
-/
import proofs.«165041_j86423331930641_1_alg».proof.Proof.IR0
import proofs.«165041_j86423331930641_1_alg».proof.Proof.IR1D
import proofs.«165041_j86423331930641_1_alg».proof.Proof.IR2D
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The contents of every unscoped buffer at each boundary, folded from the launch memory -/

variable (m : (ℓ : Loc nD τ sig) → Buf (Elt F) ℓ)

/-- At launch. -/
abbrev Wk0 : Dev nD → Valuation τ sig (Elt F) := fun c b => m (c, b)
abbrev Vk0 : (c : Dev nD) → (b : Ref sig .tc) → Buf (Elt F) ((c : Thread nD τ).loc b) := fun c b => Wk0 m c b

/-- After region 0: its arrays at what the region's write-backs fold to, every other buffer as the region found it. -/
def Wk1 (c : Dev nD) : Valuation τ sig (Elt F) :=
  Pipeline.withArrays spec0 c (Wk0 m c) fun w => (dat0 (Vk0 m) c).arrAt w cfg0.N
theorem Wk1_arr (c : Dev nD) (w : Fin cfg0.W) :
    Wk1 m c (Proc.devRef .tc (Pipeline.arrRef spec0 w)) = (dat0 (Vk0 m) c).arrAt w cfg0.N := by
  unfold Wk1; exact Pipeline.withArrays_arr spec0 launch0.win.arr_inj c _ _ w
theorem Wk1_of_ne (c : Dev nD) (b : Ref sig .tc) (hb : ∀ w, Pipeline.arrRef spec0 w ≠ b) :
    Wk1 m c (Proc.devRef .tc b) = Wk0 m c (Proc.devRef .tc b) := by
  unfold Wk1; exact Pipeline.withArrays_of_ne spec0 c _ _ b hb
/-- The same contents read at the TensorCore's references. -/
abbrev Vk1 : (c : Dev nD) → (b : Ref sig .tc) → Buf (Elt F) ((c : Thread nD τ).loc b) := fun c b => Wk1 m c b
theorem hF0 (c : Dev nD) (w : Fin cfg0.W) : (dat0 (Vk0 m) c).arrAt w cfg0.N = Vk1 m c (Pipeline.arrRef spec0 w) :=
  (Wk1_arr m c w).symm
theorem hrest0 (c : Dev nD) : ∀ b, b ∉ Finset.univ.image (Pipeline.arrRef spec0) → Vk1 m c b = Vk0 m c b :=
  fun b hb => Wk1_of_ne m c b fun w e => hb (Finset.mem_image.mpr ⟨w, Finset.mem_univ _, e⟩)

/-- After the host reshape of the column terms into a row. -/
abbrev Wk2 : Dev nD → Valuation τ sig (Elt F) := fun c => StableHlo.after hostOps1 (Wk1 m c)
abbrev Vk2 : (c : Dev nD) → (b : Ref sig .tc) → Buf (Elt F) ((c : Thread nD τ).loc b) := fun c b => Wk2 m c b

/-- After region 1: its arrays at what the region's write-backs fold to, every other buffer as the region found it. -/
def Wk3 (c : Dev nD) : Valuation τ sig (Elt F) :=
  Pipeline.withArrays spec1 c (Wk2 m c) fun w => (dat1 (Vk2 m) c).arrAt w cfg1.N
theorem Wk3_arr (c : Dev nD) (w : Fin cfg1.W) :
    Wk3 m c (Proc.devRef .tc (Pipeline.arrRef spec1 w)) = (dat1 (Vk2 m) c).arrAt w cfg1.N := by
  unfold Wk3; exact Pipeline.withArrays_arr spec1 launch1.win.arr_inj c _ _ w
theorem Wk3_of_ne (c : Dev nD) (b : Ref sig .tc) (hb : ∀ w, Pipeline.arrRef spec1 w ≠ b) :
    Wk3 m c (Proc.devRef .tc b) = Wk2 m c (Proc.devRef .tc b) := by
  unfold Wk3; exact Pipeline.withArrays_of_ne spec1 c _ _ b hb
/-- The same contents read at the TensorCore's references. -/
abbrev Vk3 : (c : Dev nD) → (b : Ref sig .tc) → Buf (Elt F) ((c : Thread nD τ).loc b) := fun c b => Wk3 m c b
theorem hF1 (c : Dev nD) (w : Fin cfg1.W) : (dat1 (Vk2 m) c).arrAt w cfg1.N = Vk3 m c (Pipeline.arrRef spec1 w) :=
  (Wk3_arr m c w).symm
theorem hrest1 (c : Dev nD) : ∀ b, b ∉ Finset.univ.image (Pipeline.arrRef spec1) → Vk3 m c b = Vk2 m c b :=
  fun b hb => Wk3_of_ne m c b fun w e => hb (Finset.mem_image.mpr ⟨w, Finset.mem_univ _, e⟩)

/-- After region 2: its arrays at what the region's write-backs fold to, every other buffer as the region found it. -/
def Wk4 (c : Dev nD) : Valuation τ sig (Elt F) :=
  Pipeline.withArrays spec2 c (Wk3 m c) fun w => (dat2 (Vk3 m) c).arrAt w cfg2.N
theorem Wk4_arr (c : Dev nD) (w : Fin cfg2.W) :
    Wk4 m c (Proc.devRef .tc (Pipeline.arrRef spec2 w)) = (dat2 (Vk3 m) c).arrAt w cfg2.N := by
  unfold Wk4; exact Pipeline.withArrays_arr spec2 launch2.win.arr_inj c _ _ w
theorem Wk4_of_ne (c : Dev nD) (b : Ref sig .tc) (hb : ∀ w, Pipeline.arrRef spec2 w ≠ b) :
    Wk4 m c (Proc.devRef .tc b) = Wk3 m c (Proc.devRef .tc b) := by
  unfold Wk4; exact Pipeline.withArrays_of_ne spec2 c _ _ b hb
/-- The same contents read at the TensorCore's references. -/
abbrev Vk4 : (c : Dev nD) → (b : Ref sig .tc) → Buf (Elt F) ((c : Thread nD τ).loc b) := fun c b => Wk4 m c b
theorem hF2 (c : Dev nD) (w : Fin cfg2.W) : (dat2 (Vk3 m) c).arrAt w cfg2.N = Vk4 m c (Pipeline.arrRef spec2 w) :=
  (Wk4_arr m c w).symm
theorem hrest2 (c : Dev nD) : ∀ b, b ∉ Finset.univ.image (Pipeline.arrRef spec2) → Vk4 m c b = Vk3 m c b :=
  fun b hb => Wk4_of_ne m c b fun w e => hb (Finset.mem_image.mpr ⟨w, Finset.mem_univ _, e⟩)

/-! ## Each boundary's contents, buffer by buffer -/

section Trace
variable (c : Dev nD)

/-- The host reshape writes only the row of column terms. -/
theorem host_keep (b : Ref sig .tc) (hb : b ≠ main_v1) : Wk2 m c (Proc.devRef .tc b) = Wk1 m c (Proc.devRef .tc b) :=
  StableHlo.after_of_forall_not_mem (b := Proc.devRef .tc b) _ _ (by
    intro op hop
    simp only [hostOps1, List.mem_singleton] at hop
    subst hop
    rw [StableHlo.reshape_writes, Finset.mem_singleton]
    exact StableHlo.devRef_ne_of_ne hb)

theorem Wk4_main_arg0 : Wk4 m c (Proc.devRef .tc main_arg0) = m ((c : Thread nD τ).loc main_arg0) :=
  calc Wk4 m c (Proc.devRef .tc main_arg0)
    _ = Wk3 m c (Proc.devRef .tc main_arg0) := Wk4_of_ne m c main_arg0 (by decide)
    _ = Wk2 m c (Proc.devRef .tc main_arg0) := Wk3_of_ne m c main_arg0 (by decide)
    _ = Wk1 m c (Proc.devRef .tc main_arg0) := host_keep m c main_arg0 (by decide)
    _ = Wk0 m c (Proc.devRef .tc main_arg0) := (Wk1_arr m c 0).trans (((dat0 (Vk0 m) c).arrAt_in 0 rfl _).trans (A_eq0 (Vk0 m) c 0))
    _ = m ((c : Thread nD τ).loc main_arg0) := rfl
theorem Wk4_main_arg2 : Wk4 m c (Proc.devRef .tc main_arg2) = m ((c : Thread nD τ).loc main_arg2) :=
  calc Wk4 m c (Proc.devRef .tc main_arg2)
    _ = Wk3 m c (Proc.devRef .tc main_arg2) := Wk4_of_ne m c main_arg2 (by decide)
    _ = Wk2 m c (Proc.devRef .tc main_arg2) := Wk3_of_ne m c main_arg2 (by decide)
    _ = Wk1 m c (Proc.devRef .tc main_arg2) := host_keep m c main_arg2 (by decide)
    _ = Wk0 m c (Proc.devRef .tc main_arg2) := (Wk1_arr m c 1).trans (((dat0 (Vk0 m) c).arrAt_in 1 rfl _).trans (A_eq0 (Vk0 m) c 1))
    _ = m ((c : Thread nD τ).loc main_arg2) := rfl
theorem Wk4_main_arg3 : Wk4 m c (Proc.devRef .tc main_arg3) = m ((c : Thread nD τ).loc main_arg3) :=
  calc Wk4 m c (Proc.devRef .tc main_arg3)
    _ = Wk3 m c (Proc.devRef .tc main_arg3) := Wk4_of_ne m c main_arg3 (by decide)
    _ = Wk2 m c (Proc.devRef .tc main_arg3) := Wk3_of_ne m c main_arg3 (by decide)
    _ = Wk1 m c (Proc.devRef .tc main_arg3) := host_keep m c main_arg3 (by decide)
    _ = Wk0 m c (Proc.devRef .tc main_arg3) := (Wk1_arr m c 2).trans (((dat0 (Vk0 m) c).arrAt_in 2 rfl _).trans (A_eq0 (Vk0 m) c 2))
    _ = m ((c : Thread nD τ).loc main_arg3) := rfl
/-- The adjacency is an input window of the second and third regions and untouched elsewhere. -/
theorem Vk2_main_arg1 : Vk2 m c main_arg1 = m ((c : Thread nD τ).loc main_arg1) :=
  (host_keep m c main_arg1 (by decide)).trans (Wk1_of_ne m c main_arg1 (by decide))
theorem Vk3_main_arg1 : Vk3 m c main_arg1 = m ((c : Thread nD τ).loc main_arg1) :=
  (Wk3_arr m c 0).trans ((((dat1 (Vk2 m) c).arrAt_in 0 rfl _).trans (A_eq1 (Vk2 m) c 0)).trans (Vk2_main_arg1 m c))
theorem Wk4_main_arg1 : Wk4 m c (Proc.devRef .tc main_arg1) = m ((c : Thread nD τ).loc main_arg1) :=
  (Wk4_arr m c 0).trans ((((dat2 (Vk3 m) c).arrAt_in 0 rfl _).trans (A_eq2 (Vk3 m) c 0)).trans (Vk3_main_arg1 m c))

/-- The row terms as the second and third regions find them: what the first region wrote. -/
theorem Vk2_main_v0_1 : Vk2 m c main_v0_1 = (dat0 (Vk0 m) c).arrAt 4 cfg0.N :=
  (host_keep m c main_v0_1 (by decide)).trans (Wk1_arr m c 4)
theorem Vk3_main_v0_1 : Vk3 m c main_v0_1 = (dat0 (Vk0 m) c).arrAt 4 cfg0.N :=
  (Wk3_arr m c 1).trans ((((dat1 (Vk2 m) c).arrAt_in 1 rfl _).trans (A_eq1 (Vk2 m) c 1)).trans (Vk2_main_v0_1 m c))
/-- The features as the third region finds them. -/
theorem Vk3_main_v0_0 : Vk3 m c main_v0_0 = (dat0 (Vk0 m) c).arrAt 3 cfg0.N :=
  (Wk3_of_ne m c main_v0_0 (by decide)).trans ((host_keep m c main_v0_0 (by decide)).trans (Wk1_arr m c 3))
/-- The row of column terms: the first region's column, recast. -/
theorem Vk2_main_v1 : Vk2 m c main_v1 = fun i => shapeCast S1x8192 ((dat0 (Vk0 m) c).arrAt 5 cfg0.N) shapeCasts_S8192x1_S1x8192 i := by
  have h : Wk1 m c (Proc.devRef .tc main_v0_2) = (dat0 (Vk0 m) c).arrAt 5 cfg0.N := Wk1_arr m c 5
  show StableHlo.after hostOps1 (Wk1 m c) (Proc.devRef .tc main_v1) = _
  rw [← h]
  after_results
  rfl
theorem Vk3_main_v1 : Vk3 m c main_v1 = Vk2 m c main_v1 :=
  (Wk3_arr m c 2).trans (((dat1 (Vk2 m) c).arrAt_in 2 rfl _).trans (A_eq1 (Vk2 m) c 2))
/-- The column statistics as the third region finds them, and the result at the end. -/
theorem Vk3_main_v2_0 : Vk3 m c main_v2_0 = (dat1 (Vk2 m) c).arrAt 3 cfg1.N := Wk3_arr m c 3
theorem Vk3_main_v2_1 : Vk3 m c main_v2_1 = (dat1 (Vk2 m) c).arrAt 4 cfg1.N := Wk3_arr m c 4
theorem Wk4_main_v3 : Wk4 m c (Proc.devRef .tc main_v3) = (dat2 (Vk3 m) c).arrAt 6 cfg2.N := Wk4_arr m c 6

end Trace

end Cert.KernelIdeal.Gen

end
-- ==== Proof.IR1.lean ====
/- Region 1 (the column statistics), the body's side: the body's triple in each of the three cases of the row-tile
   coordinate (first row tile: the two accumulators reset, then one step; a middle one: one step; the last: one step,
   then the accumulators copied to the two outputs), what the inputs' buffers hold when the body is called, where the
   outputs are idle, the body obligation at every point, and the invariant's two ends. -/
import proofs.«165041_j86423331930641_1_alg».proof.Proof.IR1D
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the row-tile coordinate -/

/-- The condition of the body's first conditional (the accumulators are reset): the row-tile coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (the accumulators are copied out): the row-tile coordinate is 7. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Whole-buffer loads and stores read back -/

theorem zeros2 : (![0, 0] : Fin 2 → Nat) = fun _ => 0 := funext fun a => by fin_cases a <;> rfl

/-- What a buffer reads after a list of stores whose LAST covers it whole: that store's payload. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- A load of the whole buffer reads its contents. -/
theorem readAt_whole {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f :=
  View.ld_unit_zero h inb _

/-! ## The body's triple, case by case -/

set_option maxHeartbeats 4000000 in
/-- The body at a first row tile (the reset taken, the copy-out not): the three inputs and the two idle outputs are
    handed back as found; the two accumulators, found at anything, are left at one step from the reset values. -/
theorem sound_kernel1_A (c : Dev nD) (E : Set ℕ) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (hc0 : cond1_0 i) (hc1 : ¬cond1_1 i)
    (x0 : Vec F S1024x2048 .f32) (x1 : Vec F S1024x1 .f32) (x2 : Vec F S1x2048 .f32) (xi3 xi4 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xi4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare (scrStep1 x0 x1 x2 (k1_pay3 (F := F)) (k1_pay4 (F := F))).1
            ∗ owns (c : Thread nD τ) arg8 fullShare (scrStep1 x0 x1 x2 (k1_pay3 (F := F)) (k1_pay4 (F := F))).2) -∗ K ⟨⟩))
      ⊢ wp frame (wpE (defs₀ (F := F)) Variants.none c none) E (cc1__stats_kernel i arg2 harg2 arg3 harg3 arg4 harg4 arg5 harg5 arg6 harg6 arg7 harg7 arg8 harg8) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  subst hf0; subst hf1; subst hf2; subst hf3; subst hf4
  sl_exec (disch := first | exact hc0 | exact hc1)
  sl_step
  have e0 := readAt_whole (F := F) arg2.view f0 zeros2 inb_S1024x2048_S1024x2048_0_0
  have e1 := readAt_whole (F := F) arg3.view f1 zeros2 inb_S1024x1_S1024x1_0_0
  have e2 := readAt_whole (F := F) arg4.view f2 zeros2 inb_S1x2048_S1x2048_0_0
  have em : sound_kernel1_A.sl.v23 (F := F) c arg7 = k1_pay3 := View.readCov_unit_zero (S := S1x2048) _ zeros2 _ _
  have el : sound_kernel1_A.sl.v30 (F := F) c arg8 = k1_pay4 := View.readCov_unit_zero (S := S1x2048) _ zeros2 _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    refine (read_writes_whole (S := S1x2048) _ _ zeros2 _ _ _).trans ?_
    show k1_pay1 (k1_pay6 _ _ _ _) = k1_pay1 (k1_pay6 _ _ _ _)
    rw [e0, e1, e2, em]
  iexists _; isplitr
  swap; · iexact HS1
  ipureintro
  refine (read_writes_whole (S := S1x2048) _ _ zeros2 _ _ _).trans ?_
  show k1_pay2 (k1_pay7 _ _ _ _ _) = k1_pay2 (k1_pay7 _ _ _ _ _)
  rw [e0, e1, e2, em, el]

set_option maxHeartbeats 4000000 in
/-- The body at a middle row tile (neither conditional taken): the three inputs and the two idle outputs are handed
    back as found; the two accumulators, found at `xs0`, `xs1`, are left at one step from them. -/
theorem sound_kernel1_B (c : Dev nD) (E : Set ℕ) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (hc0 : ¬cond1_0 i) (hc1 : ¬cond1_1 i)
    (x0 : Vec F S1024x2048 .f32) (x1 : Vec F S1024x1 .f32) (x2 : Vec F S1x2048 .f32) (xi3 xi4 : Vec F S1x2048 .f32)
    (xs0 xs1 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xi4
        ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare (scrStep1 x0 x1 x2 xs0 xs1).1
            ∗ owns (c : Thread nD τ) arg8 fullShare (scrStep1 x0 x1 x2 xs0 xs1).2) -∗ K ⟨⟩))
      ⊢ wp frame (wpE (defs₀ (F := F)) Variants.none c none) E (cc1__stats_kernel i arg2 harg2 arg3 harg3 arg4 harg4 arg5 harg5 arg6 harg6 arg7 harg7 arg8 harg8) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0; subst hf1; subst hf2; subst hf3; subst hf4; subst hfs0; subst hfs1
  sl_exec (disch := first | exact hc0 | exact hc1)
  sl_step
  have e0 := readAt_whole (F := F) arg2.view f0 zeros2 inb_S1024x2048_S1024x2048_0_0
  have e1 := readAt_whole (F := F) arg3.view f1 zeros2 inb_S1024x1_S1024x1_0_0
  have e2 := readAt_whole (F := F) arg4.view f2 zeros2 inb_S1x2048_S1x2048_0_0
  have em := readAt_whole (F := F) arg7.view fs0 zeros2 inb_S1x2048_S1x2048_0_0
  have el := readAt_whole (F := F) arg8.view fs1 zeros2 inb_S1x2048_S1x2048_0_0
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    refine (read_writes_whole (S := S1x2048) _ _ zeros2 _ _ _).trans ?_
    show k1_pay1 (k1_pay6 _ _ _ _) = k1_pay1 (k1_pay6 _ _ _ _)
    rw [e0, e1, e2, em]
  iexists _; isplitr
  swap; · iexact HS1
  ipureintro
  refine (read_writes_whole (S := S1x2048) _ _ zeros2 _ _ _).trans ?_
  show k1_pay2 (k1_pay7 _ _ _ _ _) = k1_pay2 (k1_pay7 _ _ _ _ _)
  rw [e0, e1, e2, em, el]

set_option maxHeartbeats 4000000 in
/-- The body at a last row tile (the reset not taken, the copy-out taken): the three inputs are handed back as found;
    the two accumulators, found at `xs0`, `xs1`, are left at one step from them, and the two outputs, found at
    anything, at copies of them. -/
theorem sound_kernel1_C (c : Dev nD) (E : Set ℕ) (i : grid1.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (hc0 : ¬cond1_0 i) (hc1 : cond1_1 i)
    (x0 : Vec F S1024x2048 .f32) (x1 : Vec F S1024x1 .f32) (x2 : Vec F S1x2048 .f32)
    (xs0 xs1 : Vec F S1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare (scrStep1 x0 x1 x2 xs0 xs1).1 ∗ owns (c : Thread nD τ) arg6 fullShare (scrStep1 x0 x1 x2 xs0 xs1).2
            ∗ owns (c : Thread nD τ) arg7 fullShare (scrStep1 x0 x1 x2 xs0 xs1).1
            ∗ owns (c : Thread nD τ) arg8 fullShare (scrStep1 x0 x1 x2 xs0 xs1).2) -∗ K ⟨⟩))
      ⊢ wp frame (wpE (defs₀ (F := F)) Variants.none c none) E (cc1__stats_kernel i arg2 harg2 arg3 harg3 arg4 harg4 arg5 harg5 arg6 harg6 arg7 harg7 arg8 harg8) K := by
  simp only [cc1__stats_kernel_eq_skeleton]; unfold cc1__stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  subst hf0; subst hf1; subst hf2; subst hfs0; subst hfs1
  sl_exec (disch := first | exact hc0 | exact hc1)
  sl_step
  have e0 := readAt_whole (F := F) arg2.view f0 zeros2 inb_S1024x2048_S1024x2048_0_0
  have e1 := readAt_whole (F := F) arg3.view f1 zeros2 inb_S1024x1_S1024x1_0_0
  have e2 := readAt_whole (F := F) arg4.view f2 zeros2 inb_S1x2048_S1x2048_0_0
  have em := readAt_whole (F := F) arg7.view fs0 zeros2 inb_S1x2048_S1x2048_0_0
  have el := readAt_whole (F := F) arg8.view fs1 zeros2 inb_S1x2048_S1x2048_0_0
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_whole (S := S1x2048) _ _ zeros2 _ _ _).trans ?_
    refine (View.readCov_unit_zero (S := S1x2048) _ zeros2 _ _).trans ?_
    show k1_pay1 (k1_pay6 _ _ _ _) = k1_pay1 (k1_pay6 _ _ _ _)
    rw [e0, e1, e2, em]
  isplitl [H4]
  · iexists _; isplitr
    swap; · iexact H4
    ipureintro
    refine (read_writes_whole (S := S1x2048) _ _ zeros2 _ _ _).trans ?_
    refine (View.readCov_unit_zero (S := S1x2048) _ zeros2 _ _).trans ?_
    show k1_pay2 (k1_pay7 _ _ _ _ _) = k1_pay2 (k1_pay7 _ _ _ _ _)
    rw [e0, e1, e2, em, el]
  isplitl [HS0]
  · iexists _; isplitr
    swap; · iexact HS0
    ipureintro
    refine (read_writes_whole (S := S1x2048) _ _ zeros2 _ _ _).trans ?_
    show k1_pay1 (k1_pay6 _ _ _ _) = k1_pay1 (k1_pay6 _ _ _ _)
    rw [e0, e1, e2, em]
  iexists _; isplitr
  swap; · iexact HS1
  ipureintro
  refine (read_writes_whole (S := S1x2048) _ _ zeros2 _ _ _).trans ?_
  show k1_pay2 (k1_pay7 _ _ _ _ _) = k1_pay2 (k1_pay7 _ _ _ _ _)
  rw [e0, e1, e2, em, el]

/-! ## Where the windows are idle -/

/-- The three inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last row tile the two outputs are idle (the body stores nothing into them) and are not written back. -/
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 (t : Fin cfg1.N) (h : ¬cond1_1 (grid1.coords t)) : (cfg1.win 3).flush t = false :=
  Bool.eq_false_iff.mpr fun hf => h ((hcond1_1 t).mpr ((flush1_3 t).mp hf))
theorem noFlush1_4 (t : Fin cfg1.N) (h : ¬cond1_1 (grid1.coords t)) : (cfg1.win 4).flush t = false :=
  Bool.eq_false_iff.mpr fun hf => h ((hcond1_1 t).mpr ((flush1_4 t).mp hf))
/-- At the last row tile they are live: the body stores into them. -/
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

variable (V : (c : Dev nD) → (b : Ref sig .tc) → Buf (Elt F) ((c : Thread nD τ).loc b))

/-! ## What the inputs' staging buffers hold when the body is called -/

/-- Each input's current staging buffer holds its block at every point, fetched there or not (the column terms are
    fetched only at the first row tile of a column tile: unfetched, the block index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The invariant, opened -/

/-- What the launch hands the region, with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
        ∗ (∃ r, prngReg c r)) := by
  unfold Pipeline.ΦA; rw [scopedRest1_split]; simp only [scM1_0, scM1_1, owns_whole]; try rfl

/-- The accumulators after a point, as one step. -/
theorem scrAt1_A (c : Dev nD) (t : Fin cfg1.N) (h : t.val % 8 = 0) :
    scrAt1 V c t.val t.isLt = scrStep1 (iblk1 V c 0 t) (iblk1 V c 1 t) (iblk1 V c 2 t) (k1_pay3 (F := F)) (k1_pay4 (F := F)) :=
  scrAt1_zero V c t h
theorem scrAt1_B (c : Dev nD) (t : Fin cfg1.N) (h : ¬t.val % 8 = 0) :
    scrAt1 V c t.val t.isLt = scrStep1 (iblk1 V c 0 t) (iblk1 V c 1 t) (iblk1 V c 2 t)
      (scrAt1 V c (t.val - 1) (Nat.lt_of_le_of_lt (Nat.sub_le _ _) t.isLt)).1
      (scrAt1 V c (t.val - 1) (Nat.lt_of_le_of_lt (Nat.sub_le _ _) t.isLt)).2 :=
  scrAt1_succ V c t h

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the row-tile coordinate says which of the three
    cases the point is in; the invariant hands the body the two accumulators at what the point before left (at
    anything at a first row tile) and takes them back at this point's contents; off the last row tile the two outputs
    pass through untouched, at it they are left at copies of the accumulators; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 32 := lt_of_lt_of_eq t.isLt (show cfg1.N = 32 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [Dat.leavesExact_idle (dat1 V c) 4 t (idleAt1_4 t (fun h => h1 ((hcond1_1 t).mp h))) (noFlush1_4 t (fun h => h1 ((hcond1_1 t).mp h)))]
    rw [scrAt1_A V c t h0]
    by_cases hz : t.val = 0
    · rw [PhiS1_castSucc V c t, PhiS1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexists _; iexact H3
      iexists _; iexact H4
    · rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) _ _ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    by_cases h1 : t.val % 8 = 7
    · rw [show (dat1 V c).leavesExact 3 t = owns (c : Thread nD τ) (st1_3 t) fullShare ((dat1 V c).after 3 t) from by
        unfold Dat.leavesExact; rw [liveAt1_3 t ((hcond1_1 t).mpr h1)], after1_3]
      rw [show (dat1 V c).leavesExact 4 t = owns (c : Thread nD τ) (st1_4 t) fullShare ((dat1 V c).after 4 t) from by
        unfold Dat.leavesExact; rw [liveAt1_4 t ((hcond1_1 t).mpr h1)], after1_4]
      rw [scrAt1_B V c t h0]
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ _ _ (fun h => h0 ((hcond1_0 t).mp h)) ((hcond1_1 t).mpr h1) (iblk1 V c 0 t) (iblk1 V c 1 t) (iblk1 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 3 t (idleAt1_3 t (fun h => h1 ((hcond1_1 t).mp h))) (noFlush1_3 t (fun h => h1 ((hcond1_1 t).mp h)))]
      rw [Dat.leavesExact_idle (dat1 V c) 4 t (idleAt1_4 t (fun h => h1 ((hcond1_1 t).mp h))) (noFlush1_4 t (fun h => h1 ((hcond1_1 t).mp h)))]
      rw [scrAt1_B V c t h0]
      rw [PhiS1_castSucc V c t, PhiS1_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Gen

end
-- ==== Proof.IR2.lean ====
/- Region 2 (the aggregation), the body's side: the body's triple in each of the three cases of the column-tile
   coordinate (first column tile: the accumulator zeroed, then one step; a middle one: one step; the last: one step,
   then the accumulator copied to the output), what the inputs' buffers hold when the body is called, where the output
   is idle, the body obligation at every point, and the invariant's two ends. -/
import proofs.«165041_j86423331930641_1_alg».proof.Proof.IR2D
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2, the frame side: the body's triple in each of its three cases, the body obligation at every point, and
the invariant's two ends. -/

theorem hz2 : (![0, 0] : Fin 2 → Nat) = fun _ => 0 := funext fun a => by fin_cases a <;> rfl

/-- The condition of the body's first `scf.if` (the column-tile coordinate is 0), from the grid coordinates. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The condition of the body's second `scf.if` (the column-tile coordinate is 3). -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## The body in its three cases

The two conditions are on the column-tile coordinate j: "j = 0" and "j = 3". Case A (j = 0): the accumulator is zeroed,
then increased; the output block is not touched. Case B (j = 1, 2): the accumulator is increased; the output block is
not touched. Case C (j = 3): the accumulator is increased, then copied to the output block. No point has both. -/

set_option maxHeartbeats 2000000 in
/-- Case A: from the inputs' blocks, the output's buffer at any contents `xi6` (handed back untouched) and the
    accumulator at anything, the body leaves the accumulator at the step from the zero block. -/
theorem runA2 (c : Dev nD) (E : Set ℕ) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x64 .f32) (harg7 : arg7.IsWhole) (arg8 : Memref sig .tc .vmem S1024x64 .f32) (harg8 : arg8.IsWhole) (arg9 : Memref sig .tc .vmem S1024x64 .f32) (harg9 : arg9.IsWhole) (hc0 : cond2_0 i) (hc1 : ¬cond2_1 i)
    (x0 : Vec F S1024x2048 .f32) (x1 : Vec F S1024x1 .f32) (x2 : Vec F S1x2048 .f32) (x3 : Vec F S1x2048 .f32) (x4 : Vec F S1x2048 .f32) (x5 : Vec F S2048x64 .f32) (xi6 : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare (k2_pay1 (k2_pay3 x1 x2 x0 x3 x4 x5 (k2_pay2 (F := F))))) -∗ K ⟨⟩))
      ⊢ wp frame (wpE (defs₀ (F := F)) Variants.none c none) E (cc2__out_kernel i arg2 harg2 arg3 harg3 arg4 harg4 arg5 harg5 arg6 harg6 arg7 harg7 arg8 harg8 arg9 harg9) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact HS
  ipureintro
  sl_unfold_run_names
  rw [View.read_writes_eq_canon _ _ _ (fun y => ⟨_, List.mem_cons_self, View.mem_set_unit_zero hz2 inb_S1024x64_S1024x64_0_0 y⟩)]
  rw [View.canon_cons_unit_zero (S := S1024x64) hz2]
  (try dsimp only)
  sl_unfold_run_names
  rw [View.readCov_unit_zero (S := S1024x64) _ hz2]
  simp only [View.readAt_eq_ld, harg2.read_unread, harg3.read_unread, harg4.read_unread, harg5.read_unread, harg6.read_unread, harg7.read_unread, harg9.read_unread, View.ld_unit_zero (S := S1024x2048) hz2, View.ld_unit_zero (S := S1024x1) hz2, View.ld_unit_zero (S := S1x2048) hz2, View.ld_unit_zero (S := S2048x64) hz2, View.ld_unit_zero (S := S1024x64) hz2]

set_option maxHeartbeats 2000000 in
/-- Case B: from the inputs' blocks, the output's buffer at any contents `xi6` (handed back untouched) and the
    accumulator at `xs`, the body leaves the accumulator at the step from `xs`. -/
theorem runB2 (c : Dev nD) (E : Set ℕ) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x64 .f32) (harg7 : arg7.IsWhole) (arg8 : Memref sig .tc .vmem S1024x64 .f32) (harg8 : arg8.IsWhole) (arg9 : Memref sig .tc .vmem S1024x64 .f32) (harg9 : arg9.IsWhole) (hc0 : ¬cond2_0 i) (hc1 : ¬cond2_1 i)
    (x0 : Vec F S1024x2048 .f32) (x1 : Vec F S1024x1 .f32) (x2 : Vec F S1x2048 .f32) (x3 : Vec F S1x2048 .f32) (x4 : Vec F S1x2048 .f32) (x5 : Vec F S2048x64 .f32) (xi6 : Vec F S1024x64 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare (k2_pay1 (k2_pay3 x1 x2 x0 x3 x4 x5 xs))) -∗ K ⟨⟩))
      ⊢ wp frame (wpE (defs₀ (F := F)) Variants.none c none) E (cc2__out_kernel i arg2 harg2 arg3 harg3 arg4 harg4 arg5 harg5 arg6 harg6 arg7 harg7 arg8 harg8 arg9 harg9) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  iexists _; isplitr
  swap; · iexact HS
  ipureintro
  sl_unfold_run_names
  rw [View.read_writes_eq_canon _ _ _ (fun y => ⟨_, List.mem_cons_self, View.mem_set_unit_zero hz2 inb_S1024x64_S1024x64_0_0 y⟩)]
  rw [View.canon_cons_unit_zero (S := S1024x64) hz2]
  (try dsimp only)
  simp only [View.readAt_eq_ld, harg2.read_unread, harg3.read_unread, harg4.read_unread, harg5.read_unread, harg6.read_unread, harg7.read_unread, harg9.read_unread, View.ld_unit_zero (S := S1024x2048) hz2, View.ld_unit_zero (S := S1024x1) hz2, View.ld_unit_zero (S := S1x2048) hz2, View.ld_unit_zero (S := S2048x64) hz2, View.ld_unit_zero (S := S1024x64) hz2]

set_option maxHeartbeats 2000000 in
/-- Case C: from the inputs' blocks, the output's buffer at anything and the accumulator at `xs`, the body leaves the
    accumulator and the output's buffer at the step from `xs`. -/
theorem runC2 (c : Dev nD) (E : Set ℕ) (i : grid2.Coords) (arg2 : Memref sig .tc .vmem S1024x2048 .f32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x64 .f32) (harg7 : arg7.IsWhole) (arg8 : Memref sig .tc .vmem S1024x64 .f32) (harg8 : arg8.IsWhole) (arg9 : Memref sig .tc .vmem S1024x64 .f32) (harg9 : arg9.IsWhole) (hc0 : ¬cond2_0 i) (hc1 : cond2_1 i)
    (x0 : Vec F S1024x2048 .f32) (x1 : Vec F S1024x1 .f32) (x2 : Vec F S1x2048 .f32) (x3 : Vec F S1x2048 .f32) (x4 : Vec F S1x2048 .f32) (x5 : Vec F S2048x64 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k2_pay1 (k2_pay3 x1 x2 x0 x3 x4 x5 xs)) ∗ owns (c : Thread nD τ) arg9 fullShare (k2_pay1 (k2_pay3 x1 x2 x0 x3 x4 x5 xs))) -∗ K ⟨⟩))
      ⊢ wp frame (wpE (defs₀ (F := F)) Variants.none c none) E (cc2__out_kernel i arg2 harg2 arg3 harg3 arg4 harg4 arg5 harg5 arg6 harg6 arg7 harg7 arg8 harg8 arg9 harg9) K := by
  simp only [cc2__out_kernel_eq_skeleton]; unfold cc2__out_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_run_names
    rw [View.read_writes_eq_canon _ _ _ (fun y => ⟨_, List.mem_cons_self, View.mem_set_unit_zero hz2 inb_S1024x64_S1024x64_0_0 y⟩)]
    rw [View.canon_cons_unit_zero (S := S1024x64) hz2]
    (try dsimp only)
    sl_unfold_run_names
    rw [View.readCov_unit_zero (S := S1024x64) _ hz2]
    (try dsimp only)
    simp only [View.readAt_eq_ld, harg2.read_unread, harg3.read_unread, harg4.read_unread, harg5.read_unread, harg6.read_unread, harg7.read_unread, harg9.read_unread, View.ld_unit_zero (S := S1024x2048) hz2, View.ld_unit_zero (S := S1024x1) hz2, View.ld_unit_zero (S := S1x2048) hz2, View.ld_unit_zero (S := S2048x64) hz2, View.ld_unit_zero (S := S1024x64) hz2]
  iexists _; isplitr
  swap; · iexact HS
  ipureintro
  sl_unfold_run_names
  rw [View.read_writes_eq_canon _ _ _ (fun y => ⟨_, List.mem_cons_self, View.mem_set_unit_zero hz2 inb_S1024x64_S1024x64_0_0 y⟩)]
  rw [View.canon_cons_unit_zero (S := S1024x64) hz2]
  (try dsimp only)
  simp only [View.readAt_eq_ld, harg2.read_unread, harg3.read_unread, harg4.read_unread, harg5.read_unread, harg6.read_unread, harg7.read_unread, harg9.read_unread, View.ld_unit_zero (S := S1024x2048) hz2, View.ld_unit_zero (S := S1024x1) hz2, View.ld_unit_zero (S := S1x2048) hz2, View.ld_unit_zero (S := S2048x64) hz2, View.ld_unit_zero (S := S1024x64) hz2]

/-! ## The inputs' buffers hold their blocks at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_2 (c : Dev nD) (t : Fin cfg2.N) (d) : (dat2 V c).before 2 t d = iblk2 V c 2 t :=
  before2_2_of V (dat2 V c) (A_eq2 V c 2) (after2_2 V c) t d

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_3 (c : Dev nD) (t : Fin cfg2.N) (d) : (dat2 V c).before 3 t d = iblk2 V c 3 t :=
  before2_3_of V (dat2 V c) (A_eq2 V c 3) (after2_3 V c) t d

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_4 (c : Dev nD) (t : Fin cfg2.N) (d) : (dat2 V c).before 4 t d = iblk2 V c 4 t :=
  before2_4_of V (dat2 V c) (A_eq2 V c 4) (after2_4 V c) t d

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_5 (c : Dev nD) (t : Fin cfg2.N) (d) : (dat2 V c).before 5 t d = iblk2 V c 5 t :=
  before2_5_of V (dat2 V c) (A_eq2 V c 5) (after2_5 V c) t d

/-! ## Where the output window is idle: exactly off the last column tile -/

theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-- The launch's invariant with the carried scratch split off the other scoped buffers. -/
theorem PhiA2_eq (c : Dev nD) :
    (Pipeline.ΦA spec2 c : sProp 𝕄)
      = iprop(iprop((∃ d, owns (c : Thread nD τ) scM2_0 fullShare d) ∗ rest2 c) ∗ (∃ r, prngReg c r)) := by
  unfold Pipeline.ΦA
  rw [Pipeline.scopedRest_split_of_list spec2 c [cc2_scratch0] (by decide) (by decide)]
  simp only [scM2_0, owns_whole]; try rfl

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' buffers hold their blocks; the closed forms of the two conditions say which
    case the point is in; the invariant hands the body the accumulator at what the point before left (at anything at
    the first point) and takes it back at this point's contents; the output's buffer is handed back untouched off the
    last column tile and holds the accumulator there; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [show (dat2 V c).leavesExact 2 t = owns (c : Thread nD τ) (st2_2 t) fullShare ((dat2 V c).after 2 t) from rfl, after2_2]
  rw [show (dat2 V c).leavesExact 3 t = owns (c : Thread nD τ) (st2_3 t) fullShare ((dat2 V c).after 3 t) from rfl, after2_3]
  rw [show (dat2 V c).leavesExact 4 t = owns (c : Thread nD τ) (st2_4 t) fullShare ((dat2 V c).after 4 t) from rfl, after2_4]
  rw [show (dat2 V c).leavesExact 5 t = owns (c : Thread nD τ) (st2_5 t) fullShare ((dat2 V c).after 5 t) from rfl, after2_5]
  have hN : t.val < 32 := lt_of_lt_of_eq t.isLt (show cfg2.N = 32 from N_2)
  by_cases h0 : t.val % 4 = 0
  · have h1 : ¬t.val % 4 = 3 := by omega
    rw [Dat.leavesExact_idle (dat2 V c) 6 t (idleAt2_6 t (fun h => h1 ((hcond2_1 t).mp h))) (noFlush2_6 t (fun h => h1 ((hcond2_1 t).mp h)))]
    rw [accAt2_reset V c t h0]
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (runA2 c Set.univ (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (runA2 c Set.univ (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [PhiS2_castSucc V c t, PhiS2_pos V c _ _ hz]
    rw [accAt2_acc V c t h0]
    by_cases h1 : t.val % 4 = 3
    · rw [show (dat2 V c).leavesExact 6 t = owns (c : Thread nD τ) (st2_6 t) fullShare ((dat2 V c).after 6 t) from by
        unfold Dat.leavesExact; rw [liveAt2_6 t ((hcond2_1 t).mpr h1)], after2_6]
      rw [accAt2_acc V c t h0]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (runC2 c Set.univ (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat2 V c) 6 t (idleAt2_6 t (fun h => h1 ((hcond2_1 t).mp h))) (noFlush2_6 t (fun h => h1 ((hcond2_1 t).mp h)))]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (runB2 c Set.univ (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hrest⟩, Hg⟩
  isplitl [HS Hrest]
  · isplitl [HS]
    · iexists _; iexact HS
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.KernelIdeal.Gen

end
-- ==== Proof.IRun.lean ====
/-
  The whole program as a list of segments — the projection region, the host reshape, the column-statistics region, the
  aggregation region — each region entered with every unscoped buffer at the boundary's contents and left with its
  arrays at what its write-backs fold to; the launch over the segments; the frame (the argument arrays end as
  launched) and the same run with the result array named.
-/
import proofs.«165041_j86423331930641_1_alg».proof.Proof.IRunW
import proofs.«165041_j86423331930641_1_alg».proof.Proof.IR1
import proofs.«165041_j86423331930641_1_alg».proof.Proof.IR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The proof data family and what rides beside the buffers -/

abbrev padm : (p : Fin 3) → (pcfgs (F := F) p).Adm := fun p => (cfgs p).toPCfg_adm
/-- Each region's proof data at the contents it is entered with. -/
def pdats : (p : Fin 3) → (c : Dev nD) → Dat τ (Elt F) Unit ℕ (UR sig nD τ) ℕ (Pipeline.pin (pcfgs (F := F)) padm p) c
  | ⟨0, _⟩ => fun c => dat0 (Vk0 m) c
  | ⟨1, _⟩ => fun c => dat1 (Vk2 m) c
  | ⟨2, _⟩ => fun c => dat2 (Vk3 m) c
abbrev 𝒱r : Variants := Variants.none
abbrev Lr : GSem nD τ sig → Finset Unit := fun _ => ∅
abbrev lvr : GSem nD τ sig → Unit → ℕ := fun _ _ => 0
/-- Beside the buffers through every segment: the generator register at some state, and nothing owed. -/
abbrev Rr (c : Dev nD) : sProp 𝕄 := iprop((∃ r, prngReg c r) ∗ ∃ W, owes (c : Thread nD τ) (0 : CellTallies nD τ sig Unit) W)
theorem hostOps1_fresh' : (hostOps1 : List (HloOp τ sig (Elt F))).Forall fun op => op.fresh = ∅ := by
  simp only [List.Forall]; repeat' constructor
abbrev hsegR (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc' (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tfin (c : Dev nD) : sProp 𝕄 := iprop(StableHlo.held (c : Thread nD τ) (Pipeline.ucRefs τ sig) (Wk4 m c) ∗ ∃ r, prngReg c r)

/-! ## The regions as segments -/

set_option backward.isDefEq.respectTransparency.types false in
/-- Region 0 as a segment: entered with every unscoped buffer at the contents before it, left with the region's arrays at
    what its write-backs fold to and every other buffer as entered; the generator register goes into the region's
    invariant and comes back; nothing is owed; the kernel has no semaphore of its own. -/
def rseg0 : Pipeline.RegionSeg (pcfgs (F := F)) padm (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (Vk0 m) c).loose
  hwaits := Pipeline.hwaits_of_owed_zero _ _ _ _ Lr lvr 0 fun _ _ => rfl
  pre c := iprop(StableHlo.held (c : Thread nD τ) (Pipeline.ucRefs τ sig) (Wk0 m c) ∗ Rr c)
  post c := iprop(StableHlo.held (c : Thread nD τ) (Pipeline.ucRefs τ sig) (Wk1 m c) ∗ Rr c)
  X c := iprop(∃ r, prngReg c r)
  Y c := iprop(∃ r, prngReg c r)
  Z c := Pipeline.unscopedRest (Ix := Unit) (Name := ℕ) (U := UR sig nD τ) (Lvl := ℕ) spec0 c (Vk0 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (Vk0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (padm (F := F) 0).1 ∗ Pipeline.scopedRest spec0 c)
        ⊢ (Pipeline.ΦA spec0 c : sProp 𝕄) := by
      unfold Pipeline.ΦA
      iintro ⟨Hp, -, Hr⟩
      isplitl [Hr]; · iexact Hr
      iexact Hp
    exact h1.trans (hin0 (Vk0 m) c)
  hout c := by
    rw [Pipeline.ownSems0_none]
    have h1 : (Pipeline.ΦA spec0 c : sProp 𝕄)
        ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact (hout0 (Vk0 m) c).trans h1
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (Vk0 m c) (Vk1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's arrays at
    what its write-backs fold to and every other buffer as entered; the generator register goes into the region's
    invariant and comes back; nothing is owed; the kernel has no semaphore of its own. -/
def rseg1 : Pipeline.RegionSeg (pcfgs (F := F)) padm (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (Vk2 m) c).loose
  hwaits := Pipeline.hwaits_of_owed_zero _ _ _ _ Lr lvr 1 fun _ _ => rfl
  pre c := iprop(StableHlo.held (c : Thread nD τ) (Pipeline.ucRefs τ sig) (Wk2 m c) ∗ Rr c)
  post c := iprop(StableHlo.held (c : Thread nD τ) (Pipeline.ucRefs τ sig) (Wk3 m c) ∗ Rr c)
  X c := iprop(∃ r, prngReg c r)
  Y c := iprop(∃ r, prngReg c r)
  Z c := Pipeline.unscopedRest (Ix := Unit) (Name := ℕ) (U := UR sig nD τ) (Lvl := ℕ) spec1 c (Vk2 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (Vk2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (padm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (Vk2 m) c)
  hout c := by
    rw [Pipeline.ownSems0_none]
    have h1 : (Pipeline.ΦA spec1 c : sProp 𝕄)
        ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (Vk2 m) c).trans h1
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (Vk2 m c) (Vk3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at the contents before it, left with the region's arrays at
    what its write-backs fold to and every other buffer as entered; the generator register goes into the region's
    invariant and comes back; nothing is owed; the kernel has no semaphore of its own. -/
def rseg2 : Pipeline.RegionSeg (pcfgs (F := F)) padm (pdats m) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (Vk3 m) c).loose
  hwaits := Pipeline.hwaits_of_owed_zero _ _ _ _ Lr lvr 2 fun _ _ => rfl
  pre c := iprop(StableHlo.held (c : Thread nD τ) (Pipeline.ucRefs τ sig) (Wk3 m c) ∗ Rr c)
  post c := iprop(Tfin m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vk3 m c)
  hentry c := by
    rw [Pipeline.ownSems0_none]
    have hsplit := Pipeline.arrays_of_unscopedBufs (p := 2) (pcfgs (F := F)) padm (pdats m) launch2.win launch2.arr_whole c
      ((pdats m 2 c).share_full fun _ => rfl) (Vk3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 2).pre c (fun _ => fullShare) (padm (F := F) 2).1 ∗ Pipeline.scopedRest spec2 c)
        ⊢ (Pipeline.ΦA spec2 c : sProp 𝕄) := by
      unfold Pipeline.ΦA
      iintro ⟨Hp, -, Hr⟩
      isplitl [Hr]; · iexact Hr
      iexact Hp
    exact h1.trans (hin2 (Vk3 m) c)
  hout c := by
    rw [Pipeline.ownSems0_none]
    have h1 : (Pipeline.ΦA spec2 c : sProp 𝕄)
        ⊢ iprop((∃ r, prngReg c r) ∗ emp ∗ Pipeline.scopedRest spec2 c) := by
      unfold Pipeline.ΦA
      iintro ⟨Hr, Hp⟩
      isplitl [Hp]; · iexact Hp
      isplitr; · iempintro
      iexact Hr
    exact (hout2 (Vk3 m) c).trans h1
  hexit c := by
    have hjoin := Pipeline.unscopedBufs_of_arrays (p := 2) (pcfgs (F := F)) padm (Ix := Unit) (Name := ℕ) (U := UR sig nD τ) (Lvl := ℕ)
      launch2.win launch2.arr_whole c (pdats m) ((pdats m 2 c).share_full fun _ => rfl)
      (Vk3 m c) (Vk4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the launch -/

abbrev allSegs : List (Pipeline.Seg (pcfgs (F := F)) padm (pdats m) () defs₀ 𝒱r Lr lvr) :=
  [ .region (rseg0 m),
    .host (hsegR hostOps1 hostOps1_sub hostOps1_fresh' (Wk1 m)),
    .region (rseg1 m),
    .region (rseg2 m) ]
theorem main_run (c : Dev nD) : main (F := F) c = Pipeline.Seg.run (allSegs m) := (main_chain c).trans (by chain_rfl)

variable (ρ : Dev nD → PrngReg)

set_option backward.isDefEq.respectTransparency.types false in
/-- From any memory with zero counters every weakly fair execution of the program terminates without a fault, and in
    every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wk4 m c b) :=
  Pipeline.θ_run_regions_kit (pcfgs (F := F)) padm (pdats m) () cellOf_inj emb₁ defs₀ 𝒱r Lr lvr m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m c) ∗ Rr c)) (Tₙ := Tfin m)
    (hch := ⟨fun _ => .rfl, fun _ => .rfl, fun _ => .rfl, fun _ => .rfl, fun _ => .rfl⟩)
    (hinit := by
      refine Pipeline.initEach Lr lvr fun c => ?_
      rw [show unscopedBufs c (fun b => m ((c : Thread nD τ).loc b)) = StableHlo.held (c : Thread nD τ) (Pipeline.ucRefs τ sig) (Wk0 m c)
        from Pipeline.unscopedBufs_held c (Wk0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk4 m c b)
    (hfin := fun c s' => by
      iintro ⟨⟨Hh, -⟩, HSI⟩
      unfold StableHlo.held
      imodintro
      iapply (pointsTo_read_all (Pipeline.ucRefs τ sig) (fun b => (((c : Thread nD τ)).1, b)) (Wk4 m c) s')
      isplitl [Hh] <;> iassumption)
    (hQ := fun s h c => h c)

/-- The frame: every weakly fair execution terminates without a fault and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc' main_arg0 (by decide))).trans (Wk4_main_arg0 m c),
     (h c _ (mem_uc' main_arg1 (by decide))).trans (Wk4_main_arg1 m c),
     (h c _ (mem_uc' main_arg2 (by decide))).trans (Wk4_main_arg2 m c),
     (h c _ (mem_uc' main_arg3 (by decide))).trans (Wk4_main_arg3 m c)⟩) (run_main m ρ)

/-- The same run with the result array named as well. -/
theorem run_value : θ_run defs (onTc (τ := τ) (main (F := F))) ⟨m, fun _ => 0, ρ⟩ (fun r => ∀ c : Dev nD,
      r.2.mem ((c.tc : Thread nD τ).loc main_v3) = (dat2 (Vk3 m) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc' main_v3 (by decide))).trans (Wk4_main_v3 m c),
     (h c _ (mem_uc' main_arg0 (by decide))).trans (Wk4_main_arg0 m c),
     (h c _ (mem_uc' main_arg1 (by decide))).trans (Wk4_main_arg1 m c),
     (h c _ (mem_uc' main_arg2 (by decide))).trans (Wk4_main_arg2 m c),
     (h c _ (mem_uc' main_arg3 (by decide))).trans (Wk4_main_arg3 m c)⟩) (run_main m ρ)

end Cert.KernelIdeal.Gen

end
-- ==== Proof.Spec.lean ====
/-
  The specification: graph-attention aggregation with a column-wise softmax, written once over the extended reals
  as plain functions of coordinates.

  From node features X [8192,256], a projection W [64,256] and two attention vectors a [2,64,1]:
    xf[i,d]   = Σ_k X[i,k]·W[d,k]                      (projected features)
    proj h i  = Σ_k xf[i,k]·a[h,k,0]                   (h = 0: the row term s, h = 1: the column term n)
    score     = leaky(s_i + n_j) + c·(1 − A[i,j])      (slope 0.2 below zero; c the large negative mask weight)
    colmax j  = sup_i score[i,j]         colsum j = Σ_i exp(score[i,j] − colmax j)
    out[i,d]  = Σ_j exp(score[i,j] − colmax j) / colsum j · xf[j,d]
  The float literals stay as their bit patterns: the same word on both sides is never evaluated.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev A2 (a b : Nat) : Type := (⟨2, ![a, b]⟩ : Shape).Idx → EReal
/-- A rank-3 array of extended reals. -/
abbrev A3 (a b c : Nat) : Type := (⟨3, ![a, b, c]⟩ : Shape).Idx → EReal

/-- The projected features: row i of X against row d of W. -/
def xf (X : A2 8192 256) (W : A2 64 256) (i : Fin 8192) (d : Fin 64) : EReal :=
  ∑ k : Fin 256, X (ix2 i k) * W (ix2 d k)

/-- The attention terms: the features of node i against attention vector h. -/
def proj (X : A2 8192 256) (W : A2 64 256) (a : A3 2 64 1) (h : Fin 2) (i : Fin 8192) : EReal :=
  ∑ k : Fin 64, xf X W i k * a (ix3 h k 0)

/-- One masked score: the leaky rectifier of s + n, plus the mask weight times (1 − adjacency). -/
def score (s n adj : EReal) : EReal :=
  Scalar.select (Ideal.cmp .ogt (s + n) (Ideal.ofBits .f32 0x00000000#32)) (s + n) (Ideal.ofBits .f32 0x3E4CCCCD#32 * (s + n))
    + Ideal.ofBits .f32 0xD01502F9#32 * (Ideal.ofBits .f32 0x3F800000#32 - adj)

/-- The masked score matrix from a row term, a column term and the adjacency. -/
def att (s n : Fin 8192 → EReal) (A : A2 8192 8192) (i j : Fin 8192) : EReal :=
  score (s i) (n j) (A (ix2 i j))

/-- The largest score of column j. -/
def colmax (s n : Fin 8192 → EReal) (A : A2 8192 8192) (j : Fin 8192) : EReal :=
  Finset.univ.sup fun i : Fin 8192 => att s n A i j

/-- The sum over column j of the exponentials of the scores taken relative to the column's largest. -/
def colsum (s n : Fin 8192 → EReal) (A : A2 8192 8192) (j : Fin 8192) : EReal :=
  ∑ i : Fin 8192, Ideal.exp (att s n A i j - colmax s n A j)

/-- The weighted aggregate for given column statistics M, L: row i of the normalised weights against column d of
    the features. -/
def agg (s n : Fin 8192 → EReal) (A : A2 8192 8192) (M L : Fin 8192 → EReal) (f : Fin 8192 → Fin 64 → EReal)
    (i : Fin 8192) (d : Fin 64) : EReal :=
  ∑ j : Fin 8192, Ideal.div (Ideal.exp (att s n A i j - M j)) (L j) * f j d

/-- The whole computation from the four inputs. -/
def out (X : A2 8192 256) (A : A2 8192 8192) (W : A2 64 256) (a : A3 2 64 1) (i : Fin 8192) (d : Fin 64) : EReal :=
  agg (proj X W a 0) (proj X W a 1) A (colmax (proj X W a 0) (proj X W a 1) A) (colsum (proj X W a 0) (proj X W a 1) A)
    (xf X W) i d

end Cert.Spec

end
-- ==== Proof.IV0.lean ====
/- Region 0 (the projection kernel) read at the ideal values: after its eight row tiles the [8192,64] output holds
   X·Wᵀ and the two [8192,1] outputs hold (X·Wᵀ)·a[0] and (X·Wᵀ)·a[1], entry by entry, as the specification states
   them. Each matmul into a zero accumulator is the plain sum over its one contracted axis; the transpose and the
   [1,64,1] → [64,1] cast only rename indices; the tile of row i is i / 1024, and the tiles cover the arrays. -/
import proofs.«165041_j86423331930641_1_alg».proof.Proof.IR0
import proofs.«165041_j86423331930641_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Val0

open Idealize.ShloMosaic Idealize.ShloMosaic.TcCoe Idealize.SL.Sem
open Idealize.ShloMosaic.Pipeline (Dat)
open Cert.KernelIdeal Cert.KernelIdeal.Gen Idealize.ShloMosaic.ValueIdx

/-! ## The matmuls' operand indices -/

theorem lhsA_0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide), dif_pos (show (0 : Fin S1024x256.rank) ∈ dot_S1024x256_S256x64_S1024x64_1_0_0_1_n_n.lhsNonContracting by decide)]
  rfl
theorem lhsA_1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem rhsA_0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem rhsA_1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide), dif_pos (show (1 : Fin S256x64.rank) ∈ dot_S1024x256_S256x64_S1024x64_1_0_0_1_n_n.rhsNonContracting by decide)]
  rfl

/-- The first matmul at an index: row p of the X block against row q of W. -/
theorem pay1_apply (x0 : Vec Ideal S1024x256 .f32) (x1 : Vec Ideal S64x256 .f32) (p : Fin 1024) (q : Fin 64) :
    k0_pay1 (F := Ideal) x0 x1 (ix2 p q) = ∑ k : Fin 256, x0 (ix2 p k) * x1 (ix2 q k) := by
  unfold k0_pay1
  refine (Ideal.matmul_constant_zero_apply dot_S1024x256_S256x64_S1024x64_1_0_0_1_n_n none x0 _ (ix2 p q)).trans ?_
  rw [← Equiv.sum_comp (contrEquiv1 dot_S1024x256_S256x64_S1024x64_1_0_0_1_n_n 256 rfl rfl).symm]
  refine Finset.sum_congr rfl fun k _ => ?_
  have hk := contrEquiv1_symm_val dot_S1024x256_S256x64_S1024x64_1_0_0_1_n_n 256 rfl rfl k
  have el : dot_S1024x256_S256x64_S1024x64_1_0_0_1_n_n.lhsIdx (ix2 p q) ((contrEquiv1 dot_S1024x256_S256x64_S1024x64_1_0_0_1_n_n 256 rfl rfl).symm k) = ix2 p k := funext fun a => Fin.ext (by
    match a with
    | ⟨0, _⟩ => exact lhsA_0 _ _
    | ⟨1, _⟩ => exact (lhsA_1 _ _).trans hk)
  have er : dot_S1024x256_S256x64_S1024x64_1_0_0_1_n_n.rhsIdx (ix2 p q) ((contrEquiv1 dot_S1024x256_S256x64_S1024x64_1_0_0_1_n_n 256 rfl rfl).symm k) = ix2 k q := funext fun a => Fin.ext (by
    match a with
    | ⟨0, _⟩ => exact (rhsA_0 _ _).trans hk
    | ⟨1, _⟩ => exact rhsA_1 _ _)
  rw [el, er]
  exact congrArg (x0 (ix2 p k) * ·) (transpose_apply [1, 0] x1 transposes_S64x256_p1_0_S256x64 (ix2 k q) (ix2 q k) (fun b => match b with
    | ⟨0, _⟩ => rfl
    | ⟨1, _⟩ => rfl))

theorem lhsB_0 (i : S1024x1.Idx) (q : dot_S1024x64_S64x1_S1024x1_1_0_0_1_n_n.contr.Idx) :
    (dot_S1024x64_S64x1_S1024x1_1_0_0_1_n_n.lhsIdx i q 0).val = (i 0).val := by
  unfold DotDims.lhsIdx
  rw [dif_neg (show ¬(0 : Fin S1024x64.rank) ∈ dot_S1024x64_S64x1_S1024x1_1_0_0_1_n_n.lhsBatch by decide), dif_pos (show (0 : Fin S1024x64.rank) ∈ dot_S1024x64_S64x1_S1024x1_1_0_0_1_n_n.lhsNonContracting by decide)]
  rfl
theorem lhsB_1 (i : S1024x1.Idx) (q : dot_S1024x64_S64x1_S1024x1_1_0_0_1_n_n.contr.Idx) :
    (dot_S1024x64_S64x1_S1024x1_1_0_0_1_n_n.lhsIdx i q 1).val = (q ⟨0, by decide⟩).val :=
  dot_S1024x64_S64x1_S1024x1_1_0_0_1_n_n.lhsIdx_val_of_single rfl i q
theorem rhsB_0 (i : S1024x1.Idx) (q : dot_S1024x64_S64x1_S1024x1_1_0_0_1_n_n.contr.Idx) :
    (dot_S1024x64_S64x1_S1024x1_1_0_0_1_n_n.rhsIdx i q 0).val = (q ⟨0, by decide⟩).val :=
  dot_S1024x64_S64x1_S1024x1_1_0_0_1_n_n.rhsIdx_val_of_single rfl i q
theorem rhsB_1 (i : S1024x1.Idx) (q : dot_S1024x64_S64x1_S1024x1_1_0_0_1_n_n.contr.Idx) :
    (dot_S1024x64_S64x1_S1024x1_1_0_0_1_n_n.rhsIdx i q 1).val = (i 1).val := by
  unfold DotDims.rhsIdx
  rw [dif_neg (show ¬(1 : Fin S64x1.rank) ∈ dot_S1024x64_S64x1_S1024x1_1_0_0_1_n_n.rhsBatch by decide), dif_pos (show (1 : Fin S64x1.rank) ∈ dot_S1024x64_S64x1_S1024x1_1_0_0_1_n_n.rhsNonContracting by decide)]
  rfl

/-- The second matmul at an index: row p of the first product against the [1,64,1] slice of a, read as a column. -/
theorem pay2_apply (x0 : Vec Ideal S1024x256 .f32) (x1 : Vec Ideal S64x256 .f32) (v : Vec Ideal S1x64x1 .f32) (p : Fin 1024) :
    k0_pay2 (F := Ideal) x0 x1 v (ix2 p (0 : Fin 1)) = ∑ k : Fin 64, k0_pay1 (F := Ideal) x0 x1 (ix2 p k) * v (ix3 (0 : Fin 1) k (0 : Fin 1)) := by
  unfold k0_pay2
  refine (Ideal.matmul_constant_zero_apply dot_S1024x64_S64x1_S1024x1_1_0_0_1_n_n none (k0_pay1 (F := Ideal) x0 x1) _ (ix2 p (0 : Fin 1))).trans ?_
  rw [← Equiv.sum_comp (contrEquiv1 dot_S1024x64_S64x1_S1024x1_1_0_0_1_n_n 64 rfl rfl).symm]
  refine Finset.sum_congr rfl fun k _ => ?_
  have hk := contrEquiv1_symm_val dot_S1024x64_S64x1_S1024x1_1_0_0_1_n_n 64 rfl rfl k
  have el : dot_S1024x64_S64x1_S1024x1_1_0_0_1_n_n.lhsIdx (ix2 p (0 : Fin 1)) ((contrEquiv1 dot_S1024x64_S64x1_S1024x1_1_0_0_1_n_n 64 rfl rfl).symm k) = ix2 p k := funext fun a => Fin.ext (by
    match a with
    | ⟨0, _⟩ => exact lhsB_0 _ _
    | ⟨1, _⟩ => exact (lhsB_1 _ _).trans hk)
  have er : dot_S1024x64_S64x1_S1024x1_1_0_0_1_n_n.rhsIdx (ix2 p (0 : Fin 1)) ((contrEquiv1 dot_S1024x64_S64x1_S1024x1_1_0_0_1_n_n 64 rfl rfl).symm k) = ix2 k (0 : Fin 1) := funext fun a => Fin.ext (by
    match a with
    | ⟨0, _⟩ => exact (rhsB_0 _ _).trans hk
    | ⟨1, _⟩ => exact rhsB_1 _ _)
  rw [el, er]
  exact congrArg (k0_pay1 (F := Ideal) x0 x1 (ix2 p k) * ·) (shapeCast_apply v shapeCasts_S1x64x1_S64x1 (ix2 k (0 : Fin 1)) (ix3 (0 : Fin 1) k (0 : Fin 1))
    (by rewrite [Shape.rowMajor_val_three, Shape.rowMajor_val_two]; show (0 * 64 + k.val) * 1 + 0 = k.val * 1 + 0; omega))

/-- The third matmul is the second's term. -/
theorem pay3_eq (x0 : Vec Ideal S1024x256 .f32) (x1 : Vec Ideal S64x256 .f32) (v : Vec Ideal S1x64x1 .f32) :
    k0_pay3 (F := Ideal) x0 x1 v = k0_pay2 (F := Ideal) x0 x1 v := rfl

/-! ## The arrays the region leaves, as functions of the arrays it finds -/

/-- X·Wᵀ at an index of the [8192,64] array. -/
def G3 (X : Cert.Spec.A2 8192 256) (W : Cert.Spec.A2 64 256) : S8192x64.Idx → EReal :=
  fun j => Cert.Spec.xf X W ⟨(j 0).val, idx2_lt0 j⟩ ⟨(j 1).val, idx2_lt1 j⟩
/-- (X·Wᵀ)·a[h] at an index of the [8192,1] array. -/
def G45 (X : Cert.Spec.A2 8192 256) (W : Cert.Spec.A2 64 256) (a : Cert.Spec.A3 2 64 1) (h : Fin 2) : S8192x1.Idx → EReal :=
  fun j => Cert.Spec.proj X W a h ⟨(j 0).val, idx2_lt0 j⟩

/-- A tile of X·Wᵀ: when the X block is rows 1024·tv … of X and the W block is W, the first product at y is X·Wᵀ at the
    row 1024·tv + y₀. -/
theorem block3 (X : Cert.Spec.A2 8192 256) (W : Cert.Spec.A2 64 256) (x0 : Vec Ideal S1024x256 .f32) (x1 : Vec Ideal S64x256 .f32) (tv : Nat)
    (h0 : ∀ (p : Fin 1024) (k : Fin 256) (r : Fin 8192), r.val = 1024 * tv + p.val → x0 (ix2 p k) = X (ix2 r k))
    (h1 : ∀ (q : Fin 64) (k : Fin 256), x1 (ix2 q k) = W (ix2 q k))
    (y : S1024x64.Idx) (i : S8192x64.Idx) (hi0 : (i 0).val = 1024 * tv + (y 0).val) (hi1 : (i 1).val = (y 1).val) :
    k0_pay1 (F := Ideal) x0 x1 y = G3 X W i := by
  obtain ⟨p, q, rfl⟩ : ∃ (p : Fin 1024) (q : Fin 64), y = ix2 p q := ⟨y 0, y 1, eq_ix2 y⟩
  rw [pay1_apply]
  unfold G3 Cert.Spec.xf
  refine Finset.sum_congr rfl fun k _ => ?_
  rw [h0 p k ⟨(i 0).val, idx2_lt0 i⟩ hi0, h1 q k]
  have e : q = ⟨(i 1).val, idx2_lt1 i⟩ := Fin.ext hi1.symm
  rw [e]

/-- A tile of (X·Wᵀ)·a[h]. -/
theorem block45 (X : Cert.Spec.A2 8192 256) (W : Cert.Spec.A2 64 256) (a : Cert.Spec.A3 2 64 1) (h : Fin 2)
    (x0 : Vec Ideal S1024x256 .f32) (x1 : Vec Ideal S64x256 .f32) (v : Vec Ideal S1x64x1 .f32) (tv : Nat)
    (h0 : ∀ (p : Fin 1024) (k : Fin 256) (r : Fin 8192), r.val = 1024 * tv + p.val → x0 (ix2 p k) = X (ix2 r k))
    (h1 : ∀ (q : Fin 64) (k : Fin 256), x1 (ix2 q k) = W (ix2 q k))
    (h2 : ∀ k : Fin 64, v (ix3 (0 : Fin 1) k (0 : Fin 1)) = a (ix3 h k (0 : Fin 1)))
    (y : S1024x1.Idx) (i : S8192x1.Idx) (hi0 : (i 0).val = 1024 * tv + (y 0).val) :
    k0_pay2 (F := Ideal) x0 x1 v y = G45 X W a h i := by
  obtain ⟨p, q, rfl⟩ : ∃ (p : Fin 1024) (q : Fin 1), y = ix2 p q := ⟨y 0, y 1, eq_ix2 y⟩
  obtain rfl : q = 0 := Subsingleton.elim _ _
  rw [pay2_apply]
  unfold G45 Cert.Spec.proj
  refine Finset.sum_congr rfl fun k _ => ?_
  rw [h2 k]
  exact congrArg (· * a (ix3 h k (0 : Fin 1))) (block3 X W x0 x1 tv h0 h1 (ix2 p k) (ix2 ⟨(i 0).val, idx2_lt0 i⟩ k) hi0 rfl)

/-! ## The blocks the body reads, as entries of the arrays the region finds -/

variable (V : (c : Dev nD) → (b : Ref sig .tc) → Buf (Elt Ideal) ((c : Thread nD τ).loc b))

theorem hz2 : (![0, 0] : Fin 2 → Nat) = fun _ => 0 := funext fun a => by fin_cases a <;> rfl

/-- The windows' block indices over the grid: the row-tiled windows are on tile t, the whole ones at zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The X block at point t is rows 1024·t … 1024·t + 1023 of X. -/
theorem iblk0_0_apply (c : Dev nD) (t : Fin cfg0.N) (p : Fin 1024) (k : Fin 256) (r : Fin 8192) (hr : r.val = 1024 * t.val + p.val) :
    (iblk0 V c 0 t : Vec Ideal S1024x256 .f32) (ix2 p k) = (V c main_arg0 : S8192x256.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 1024 + 1 * p.val = r.val; rw [e0, hr]; omega
  | ⟨1, _⟩ => show win0_0.index t 1 * 256 + 1 * k.val = k.val; rw [e1]; omega

/-- The W block at every point is W. -/
theorem iblk0_1_apply (c : Dev nD) (t : Fin cfg0.N) (q : Fin 64) (k : Fin 256) :
    (iblk0 V c 1 t : Vec Ideal S64x256 .f32) (ix2 q k) = (V c main_arg2 : S64x256.Idx → EReal) (ix2 q k) := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t 0 * 64 + 1 * q.val = q.val; rw [e0]; omega
  | ⟨1, _⟩ => show win0_1.index t 1 * 256 + 1 * k.val = k.val; rw [e1]; omega

/-- The a block at every point is a. -/
theorem iblk0_2_apply (c : Dev nD) (t : Fin cfg0.N) (h : Fin 2) (k : Fin 64) (z : Fin 1) :
    (iblk0 V c 2 t : Vec Ideal S2x64x1 .f32) (ix3 h k z) = (V c main_arg3 : S2x64x1.Idx → EReal) (ix3 h k z) := by
  obtain ⟨-, -, -, -, e0, e1, e2, -⟩ := idx_facts0 t
  unfold iblk0
  rw [View.read_apply]
  show V c main_arg3 _ = V c main_arg3 _
  congr 1
  funext a
  apply Fin.ext
  match a with
  | ⟨0, _⟩ => show win0_2.index t 0 * 2 + 1 * h.val = h.val; rw [e0]; omega
  | ⟨1, _⟩ => show win0_2.index t 1 * 64 + 1 * k.val = k.val; rw [e1]; omega
  | ⟨2, _⟩ => show win0_2.index t 2 * 1 + 1 * z.val = z.val; rw [e2]; omega

/-- The two [1,64,1] loads of the a block read its rows 0 and 1. -/
theorem ld_a0 (x2 : Vec Ideal S2x64x1 .f32) (k : Fin 64) :
    (View.ld x2 r0_2 : Vec Ideal S1x64x1 .f32) (ix3 (0 : Fin 1) k (0 : Fin 1)) = x2 (ix3 (0 : Fin 2) k (0 : Fin 1)) := by
  show x2 _ = x2 _
  congr 1
  funext a
  apply Fin.ext
  match a with
  | ⟨0, _⟩ => rfl
  | ⟨1, _⟩ => show 0 + 1 * k.val = k.val; omega
  | ⟨2, _⟩ => rfl
theorem ld_a1 (x2 : Vec Ideal S2x64x1 .f32) (k : Fin 64) :
    (View.ld x2 r0_3 : Vec Ideal S1x64x1 .f32) (ix3 (0 : Fin 1) k (0 : Fin 1)) = x2 (ix3 (1 : Fin 2) k (0 : Fin 1)) := by
  show x2 _ = x2 _
  congr 1
  funext a
  apply Fin.ext
  match a with
  | ⟨0, _⟩ => rfl
  | ⟨1, _⟩ => show 0 + 1 * k.val = k.val; omega
  | ⟨2, _⟩ => rfl

/-! ## What each point writes back -/

/-- Point t writes back block t of X·Wᵀ. -/
theorem flushed3_eq (c : Dev nD) (t : Fin cfg0.N) :
    (dat0 (F := Ideal) V c).flushed 3 t = ((cfg0.win 3).blk t).view.read (Elt Ideal) (G3 (V c main_arg0) (V c main_arg2)) := by
  show (cfg0.win 3).cut (grid0.coords t) ((dat0 V c).after 3 t) = _
  rw [after0_3]
  unfold out0_3
  rw [View.canon_unit_zero hz2]
  simp only [View.ld_unit_zero (S := S1024x256) hz2, View.ld_unit_zero (S := S64x256) hz2]
  obtain ⟨-, -, -, -, -, -, -, e0, e1, -⟩ := idx_facts0 t
  funext j
  show k0_pay1 (F := Ideal) (iblk0 V c 0 t) (iblk0 V c 1 t) j = G3 (V c main_arg0) (V c main_arg2) (((cfg0.win 3).blk t).view.emb j)
  exact block3 (V c main_arg0) (V c main_arg2) (iblk0 V c 0 t) (iblk0 V c 1 t) t.val
    (fun p k r hr => iblk0_0_apply V c t p k r hr) (fun q k => iblk0_1_apply V c t q k) j (((cfg0.win 3).blk t).view.emb j)
    (by show win0_3.index t 0 * 1024 + 1 * (j 0).val = 1024 * t.val + (j 0).val; rw [e0]; omega)
    (by show win0_3.index t 1 * 64 + 1 * (j 1).val = (j 1).val; rw [e1]; omega)

/-- Point t writes back block t of (X·Wᵀ)·a[0]. -/
theorem flushed4_eq (c : Dev nD) (t : Fin cfg0.N) :
    (dat0 (F := Ideal) V c).flushed 4 t = ((cfg0.win 4).blk t).view.read (Elt Ideal) (G45 (V c main_arg0) (V c main_arg2) (V c main_arg3) 0) := by
  show (cfg0.win 4).cut (grid0.coords t) ((dat0 V c).after 4 t) = _
  rw [after0_4]
  unfold out0_4
  rw [View.canon_unit_zero hz2]
  simp only [View.ld_unit_zero (S := S1024x256) hz2, View.ld_unit_zero (S := S64x256) hz2]
  obtain ⟨-, -, -, -, -, -, -, -, -, e0, -⟩ := idx_facts0 t
  funext j
  show k0_pay2 (F := Ideal) (iblk0 V c 0 t) (iblk0 V c 1 t) (View.ld (iblk0 V c 2 t) r0_2) j
    = G45 (V c main_arg0) (V c main_arg2) (V c main_arg3) 0 (((cfg0.win 4).blk t).view.emb j)
  exact block45 (V c main_arg0) (V c main_arg2) (V c main_arg3) 0 (iblk0 V c 0 t) (iblk0 V c 1 t) (View.ld (iblk0 V c 2 t) r0_2) t.val
    (fun p k r hr => iblk0_0_apply V c t p k r hr) (fun q k => iblk0_1_apply V c t q k)
    (fun k => (ld_a0 (iblk0 V c 2 t) k).trans (iblk0_2_apply V c t 0 k 0)) j (((cfg0.win 4).blk t).view.emb j)
    (by show win0_4.index t 0 * 1024 + 1 * (j 0).val = 1024 * t.val + (j 0).val; rw [e0]; omega)

/-- Point t writes back block t of (X·Wᵀ)·a[1]. -/
theorem flushed5_eq (c : Dev nD) (t : Fin cfg0.N) :
    (dat0 (F := Ideal) V c).flushed 5 t = ((cfg0.win 5).blk t).view.read (Elt Ideal) (G45 (V c main_arg0) (V c main_arg2) (V c main_arg3) 1) := by
  show (cfg0.win 5).cut (grid0.coords t) ((dat0 V c).after 5 t) = _
  rw [after0_5]
  unfold out0_5
  rw [View.canon_unit_zero hz2]
  simp only [View.ld_unit_zero (S := S1024x256) hz2, View.ld_unit_zero (S := S64x256) hz2]
  obtain ⟨-, -, -, -, -, -, -, -, -, -, -, e0, -⟩ := idx_facts0 t
  funext j
  show k0_pay2 (F := Ideal) (iblk0 V c 0 t) (iblk0 V c 1 t) (View.ld (iblk0 V c 2 t) r0_3) j
    = G45 (V c main_arg0) (V c main_arg2) (V c main_arg3) 1 (((cfg0.win 5).blk t).view.emb j)
  exact block45 (V c main_arg0) (V c main_arg2) (V c main_arg3) 1 (iblk0 V c 0 t) (iblk0 V c 1 t) (View.ld (iblk0 V c 2 t) r0_3) t.val
    (fun p k r hr => iblk0_0_apply V c t p k r hr) (fun q k => iblk0_1_apply V c t q k)
    (fun k => (ld_a1 (iblk0 V c 2 t) k).trans (iblk0_2_apply V c t 1 k 0)) j (((cfg0.win 5).blk t).view.emb j)
    (by show win0_5.index t 0 * 1024 + 1 * (j 0).val = 1024 * t.val + (j 0).val; rw [e0]; omega)

/-! ## The row tiles cover the arrays: row i is in tile i / 1024 -/

theorem mem_blk3 (t : Fin cfg0.N) (i : S8192x64.Idx) :
    i ∈ ((cfg0.win 3).blk t).view.set ↔ ∀ a : Fin 2, win0_3.index t a * S1024x64.size a ≤ (i a).val ∧ (i a).val < win0_3.index t a * S1024x64.size a + S1024x64.size a := by
  show i ∈ ((View.whole main_v0_0).slice (win0_3.rect t)).set ↔ _
  rw [View.set_slice_whole, Rect.mem_set_unit]
  exact Iff.rfl
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0_1).slice (win0_4.rect t)).set ↔ _
  rw [View.set_slice_whole, Rect.mem_set_unit]
  exact Iff.rfl
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v0_2).slice (win0_5.rect t)).set ↔ _
  rw [View.set_slice_whole, Rect.mem_set_unit]
  exact Iff.rfl

/-- The point whose tile holds row r. -/
theorem tile_of_row (r : Nat) (hr : r < 8192) : ∃ t : Fin cfg0.N, t.val = r / 1024 :=
  ⟨⟨r / 1024, by rw [show cfg0.N = 8 from N_0]; omega⟩, rfl⟩

theorem cover3 (i : S8192x64.Idx) : ∃ t : Fin cfg0.N, (cfg0.win 3).flush t = true ∧ i ∈ ((cfg0.win 3).blk t).view.set := by
  have hi0 : (i 0).val < 8192 := (i 0).isLt
  have hi1 : (i 1).val < 64 := (i 1).isLt
  obtain ⟨t, ht⟩ := tile_of_row (i 0).val hi0
  obtain ⟨-, -, -, -, -, -, -, e0, e1, -⟩ := idx_facts0 t
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; rw [e0]; omega
  | ⟨1, _⟩ => show win0_3.index t (1 : Fin 2) * 64 ≤ (i 1).val ∧ (i 1).val < win0_3.index t (1 : Fin 2) * 64 + 64; rw [e1]; omega
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  obtain ⟨t, ht⟩ := tile_of_row (i 0).val hi0
  obtain ⟨-, -, -, -, -, -, -, -, -, e0, e1, -⟩ := idx_facts0 t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 1 ≤ (i 1).val ∧ (i 1).val < win0_4.index t (1 : Fin 2) * 1 + 1; rw [e1]; omega
theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  obtain ⟨t, ht⟩ := tile_of_row (i 0).val hi0
  obtain ⟨-, -, -, -, -, -, -, -, -, -, -, e0, e1⟩ := idx_facts0 t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; rw [e0]; omega
  | ⟨1, _⟩ => show win0_5.index t (1 : Fin 2) * 1 ≤ (i 1).val ∧ (i 1).val < win0_5.index t (1 : Fin 2) * 1 + 1; rw [e1]; omega

/-! ## The arrays after the region -/

/-- The [8192,64] output ends at X·Wᵀ. -/
theorem final0_3 (c : Dev nD) (i : Fin 8192) (d : Fin 64) :
    (dat0 (F := Ideal) V c).arrAt 3 cfg0.N (ix2 i d) = Cert.Spec.xf (V c main_arg0) (V c main_arg2) i d :=
  congrFun ((dat0 (F := Ideal) V c).arrAt_eq_of_cover 3 (G3 (V c main_arg0) (V c main_arg2)) (fun t _ => flushed3_eq V c t) cover3) (ix2 i d)

/-- The first [8192,1] output ends at the row term (X·Wᵀ)·a[0]. -/
theorem final0_4 (c : Dev nD) (i : Fin 8192) :
    (dat0 (F := Ideal) V c).arrAt 4 cfg0.N (ix2 i 0) = Cert.Spec.proj (V c main_arg0) (V c main_arg2) (V c main_arg3) 0 i :=
  congrFun ((dat0 (F := Ideal) V c).arrAt_eq_of_cover 4 (G45 (V c main_arg0) (V c main_arg2) (V c main_arg3) 0) (fun t _ => flushed4_eq V c t) cover4) (ix2 i 0)

/-- The second [8192,1] output ends at the column term (X·Wᵀ)·a[1]. -/
theorem final0_5 (c : Dev nD) (i : Fin 8192) :
    (dat0 (F := Ideal) V c).arrAt 5 cfg0.N (ix2 i 0) = Cert.Spec.proj (V c main_arg0) (V c main_arg2) (V c main_arg3) 1 i :=
  congrFun ((dat0 (F := Ideal) V c).arrAt_eq_of_cover 5 (G45 (V c main_arg0) (V c main_arg2) (V c main_arg3) 1) (fun t _ => flushed5_eq V c t) cover5) (ix2 i 0)

end Cert.KernelIdeal.Val0

end
-- ==== Proof.LibBlockSum.lean ====
/-
  Three general facts about finite sums in a commutative additive monoid, with no program in sight: a running total
  that starts at the first term and adds the next term at every step is the sum of the terms so far; a sum over an
  initial segment of the naturals is the sum over the finite type of its elements; and a sum over `a * b` indices
  regroups into `a` consecutive blocks of `b`.
-/
import Mathlib.Algebra.BigOperators.Fin
import Mathlib.Data.Fintype.BigOperators
import Mathlib.Logic.Equiv.Fin.Basic
import Mathlib.Tactic.Ring

open scoped BigOperators

namespace Cert.LibBlockSum

/-- A RUNNING TOTAL IS A SUM. If `acc 0` is the first term and each step adds the next term, then after step `n` the
    total is the sum of the terms `0, …, n`. -/
theorem run_sum {M : Type*} [AddCommMonoid M] (g acc : ℕ → M) (h0 : acc 0 = g 0)
    (hs : ∀ k, acc (k + 1) = acc k + g (k + 1)) (n : ℕ) : acc n = ∑ k ∈ Finset.range (n + 1), g k := by
  induction n with
  | zero => rw [Finset.sum_range_succ, Finset.sum_range_zero, zero_add]; exact h0
  | succ n ih => rw [hs, ih, Finset.sum_range_succ _ (n + 1)]

/-- The same from an EMPTY start: if `acc 0` is zero and step `k` adds the term `k`, then after `n` steps the total is
    the sum of the terms `0, …, n - 1`. -/
theorem run_sum_zero {M : Type*} [AddCommMonoid M] (g acc : ℕ → M) (h0 : acc 0 = 0)
    (hs : ∀ k, acc (k + 1) = acc k + g k) (n : ℕ) : acc n = ∑ k ∈ Finset.range n, g k := by
  induction n with
  | zero => rw [Finset.sum_range_zero]; exact h0
  | succ n ih => rw [hs, ih, Finset.sum_range_succ]

/-- A sum over the naturals below `n` is the sum over `Fin n` of the term at each element's value
    (Mathlib's `Finset.sum_range`). -/
theorem sum_range_eq_sum_fin {M : Type*} [AddCommMonoid M] (n : ℕ) (g : ℕ → M) :
    ∑ k ∈ Finset.range n, g k = ∑ k : Fin n, g k.val :=
  Finset.sum_range g

/-- Position `j` of block `i`, among `a` consecutive blocks of `b`, is below `a * b`. -/
theorem block_lt {a b : ℕ} (i : Fin a) (j : Fin b) : b * i.val + j.val < a * b := by
  have hi : i.val + 1 ≤ a := i.isLt
  calc b * i.val + j.val < b * i.val + b := Nat.add_lt_add_left j.isLt _
    _ = b * (i.val + 1) := by ring
    _ ≤ b * a := Nat.mul_le_mul_left b hi
    _ = a * b := Nat.mul_comm b a

/-- REGROUPING INTO BLOCKS. A sum over `a * b` indices is the sum, over the `a` consecutive blocks of `b` indices, of the
    sum over each block: index `b * i + j` is position `j` of block `i` (the bijection `finProdFinEquiv`). -/
theorem sum_blocks_mul {M : Type*} [AddCommMonoid M] (a b : ℕ) (f : Fin (a * b) → M) :
    ∑ i : Fin a, ∑ j : Fin b, f ⟨b * i.val + j.val, block_lt i j⟩ = ∑ k : Fin (a * b), f k := by
  rw [← Equiv.sum_comp finProdFinEquiv f, Fintype.sum_prod_type]
  refine Finset.sum_congr rfl fun i _ => Finset.sum_congr rfl fun j _ => congrArg f (Fin.ext ?_)
  show b * i.val + j.val = j.val + b * i.val
  exact Nat.add_comm _ _

/-- The instance used by a pass over 16 column blocks of 256 columns: 4096 columns in all. -/
theorem sum_blocks {M : Type*} [AddCommMonoid M] (f : Fin 4096 → M) :
    ∑ cb : Fin 16, ∑ l : Fin 256, f ⟨256 * cb.val + l.val, block_lt (a := 16) cb l⟩ = ∑ j : Fin 4096, f j :=
  sum_blocks_mul 16 256 f

/-- … and the one used by a pass over 8 row blocks of 512 rows: 4096 rows in all. -/
theorem sum_row_blocks {M : Type*} [AddCommMonoid M] (f : Fin 4096 → M) :
    ∑ rb : Fin 8, ∑ r : Fin 512, f ⟨512 * rb.val + r.val, block_lt (a := 8) rb r⟩ = ∑ i : Fin 4096, f i :=
  sum_blocks_mul 8 512 f

end Cert.LibBlockSum
-- ==== Proof.IV1M.lean ====
/-
  The column maximum and the column sum of exponentials, accumulated tile by tile on the extended reals.

  The rows of one column come in tiles X 0, X 1, … (each a finite family). The accumulation keeps a running maximum
  m and a running sum l:

      m₀ = max ⊥ (sup X 0)                      l₀ = exp (⊥ − m₀) · 0 + Σ_r exp (X 0 r − m₀)
      mₖ₊₁ = max mₖ (sup X (k+1))               lₖ₊₁ = exp (mₖ − mₖ₊₁) · lₖ + Σ_r exp (X (k+1) r − mₖ₊₁)

  After tile n the running maximum is the supremum M n of all entries seen, and — when every entry is a real number —
  the running sum is L n = Σ_{k ≤ n} Σ_r exp (X k r − M n): moving the reference point from M n to M (n+1) multiplies
  every term by exp (M n − M (n+1)), which is exact on the reals (and only there: the difference of two infinities is
  not the inverse of a sum). The first tile is entered with the factor 0, whatever exp (⊥ − m₀) is.
  With 8 tiles of 1024 rows cut from a column of 8192 entries, M 7 and L 7 are the column's supremum and the sum over
  the whole column of the exponentials relative to it.
-/
import Idealize.ShloMosaic.PureOps.Ideal
import proofs.«165041_j86423331930641_1_alg».proof.Proof.LibBlockSum

noncomputable section

open scoped BigOperators
open Idealize.ShloMosaic

namespace Cert.OnlineColumn

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {R : Type*} [Fintype R]

/-- The supremum of the entries of tiles 0, …, n. -/
def M (X : ℕ → R → EReal) (n : ℕ) : EReal := (Finset.range (n + 1)).sup fun k => Finset.univ.sup (X k)

/-- The sum over tiles 0, …, n of the exponentials of the entries relative to M n. -/
def L (X : ℕ → R → EReal) (n : ℕ) : EReal := ∑ k ∈ Finset.range (n + 1), ∑ r, Ideal.exp (X k r - M X n)

variable (X : ℕ → R → EReal)

/-- The first step of the running maximum, from ⊥. -/
theorem M_zero : max ⊥ (Finset.univ.sup (X 0)) = M X 0 := by
  unfold M
  rw [zero_add, Finset.range_one, Finset.sup_singleton, max_eq_right bot_le]

/-- A later step of the running maximum. -/
theorem M_succ (n : ℕ) : max (M X n) (Finset.univ.sup (X (n + 1))) = M X (n + 1) := by
  unfold M
  rw [Finset.range_add_one (n := n + 1), Finset.sup_insert, max_comm]

theorem le_M {n k : ℕ} (hk : k ≤ n) (r : R) : X k r ≤ M X n :=
  (Finset.le_sup (f := X k) (Finset.mem_univ r)).trans
    (Finset.le_sup (f := fun k => Finset.univ.sup (X k)) (Finset.mem_range.2 (Nat.lt_succ_of_le hk)))

/-- On real entries (and nonempty tiles) the supremum of the entries seen is a real number. -/
theorem M_real [Nonempty R] (hX : ∀ k r, ∃ y : ℝ, X k r = (y : EReal)) (n : ℕ) : ∃ μ : ℝ, M X n = (μ : EReal) := by
  have hlt : M X n < ⊤ := by
    unfold M
    rw [Finset.sup_lt_iff (by exact bot_lt_top)]
    intro k _
    rw [Finset.sup_lt_iff (by exact bot_lt_top)]
    intro r _
    obtain ⟨y, hy⟩ := hX k r
    rw [hy]; exact EReal.coe_lt_top y
  have hgt : ⊥ < M X n := by
    obtain ⟨r⟩ := ‹Nonempty R›
    obtain ⟨y, hy⟩ := hX 0 r
    exact lt_of_lt_of_le (by rw [hy]; exact EReal.bot_lt_coe y) (le_M X (Nat.zero_le n) r)
  exact ⟨(M X n).toReal, (EReal.coe_toReal hlt.ne hgt.ne').symm⟩

/-- The first step of the running sum: the first tile is entered with the factor 0. -/
theorem L_zero (z : EReal) : Ideal.exp (z - M X 0) * 0 + ∑ r, Ideal.exp (X 0 r - M X 0) = L X 0 := by
  unfold L
  rw [mul_zero, zero_add, zero_add, Finset.sum_range_one]

/-- A later step of the running sum, on real entries: rescale to the new maximum and add the new tile. -/
theorem L_succ [Nonempty R] (hX : ∀ k r, ∃ y : ℝ, X k r = (y : EReal)) (n : ℕ) :
    Ideal.exp (M X n - M X (n + 1)) * L X n + ∑ r, Ideal.exp (X (n + 1) r - M X (n + 1)) = L X (n + 1) := by
  obtain ⟨μ, hμ⟩ := M_real X hX n
  obtain ⟨μ', hμ'⟩ := M_real X hX (n + 1)
  choose x hx using hX
  have hterm : ∀ (ν : ℝ) k r, Ideal.exp (X k r - (ν : EReal)) = ((Real.exp (x k r - ν) : ℝ) : EReal) := fun ν k r => by
    rw [hx k r, ← EReal.coe_sub]; exact Ideal.exp_coe _
  have hL : L X n = ((∑ k ∈ Finset.range (n + 1), ∑ r, Real.exp (x k r - μ) : ℝ) : EReal) := by
    unfold L
    rw [hμ, coe_sum]
    refine Finset.sum_congr rfl fun k _ => ?_
    rw [coe_sum]
    exact Finset.sum_congr rfl fun r _ => hterm μ k r
  have hL' : L X (n + 1) = ((∑ k ∈ Finset.range (n + 1 + 1), ∑ r, Real.exp (x k r - μ') : ℝ) : EReal) := by
    unfold L
    rw [hμ', coe_sum]
    refine Finset.sum_congr rfl fun k _ => ?_
    rw [coe_sum]
    exact Finset.sum_congr rfl fun r _ => hterm μ' k r
  have hT : ∑ r, Ideal.exp (X (n + 1) r - M X (n + 1)) = ((∑ r, Real.exp (x (n + 1) r - μ') : ℝ) : EReal) := by
    rw [hμ', coe_sum]
    exact Finset.sum_congr rfl fun r _ => hterm μ' (n + 1) r
  have hE : Ideal.exp (M X n - M X (n + 1)) = ((Real.exp (μ - μ') : ℝ) : EReal) := by
    rw [hμ, hμ', ← EReal.coe_sub]; exact Ideal.exp_coe _
  rw [hL, hL', hT, hE, ← EReal.coe_mul, ← EReal.coe_add]
  congr 1
  rw [Finset.sum_range_succ _ (n + 1), Finset.mul_sum]
  congr 1
  refine Finset.sum_congr rfl fun k _ => ?_
  rw [Finset.mul_sum]
  refine Finset.sum_congr rfl fun r _ => ?_
  rw [← Real.exp_add]
  congr 1
  ring

/-! ## The recurrence itself -/

/-- The running maximum. -/
def runMax : ℕ → EReal
  | 0 => max ⊥ (Finset.univ.sup (X 0))
  | k + 1 => max (runMax k) (Finset.univ.sup (X (k + 1)))

/-- The running sum. -/
def runSum : ℕ → EReal
  | 0 => Ideal.exp (⊥ - runMax X 0) * 0 + ∑ r, Ideal.exp (X 0 r - runMax X 0)
  | k + 1 => Ideal.exp (runMax X k - runMax X (k + 1)) * runSum k + ∑ r, Ideal.exp (X (k + 1) r - runMax X (k + 1))

theorem runMax_eq (n : ℕ) : runMax X n = M X n := by
  induction n with
  | zero => exact M_zero X
  | succ n ih => rw [runMax, ih]; exact M_succ X n

theorem runSum_eq [Nonempty R] (hX : ∀ k r, ∃ y : ℝ, X k r = (y : EReal)) (n : ℕ) : runSum X n = L X n := by
  induction n with
  | zero => rw [runSum, runMax_eq]; exact L_zero X ⊥
  | succ n ih => rw [runSum, ih, runMax_eq, runMax_eq]; exact L_succ X hX n

/-! ## Eight tiles of 1024 rows cut from a column of 8192 entries -/

/-- Tile k of a column: entries 1024·k, …, 1024·k + 1023 (a real filler beyond the eighth tile). -/
def tiles (Y : Fin 8192 → EReal) (k : ℕ) (r : Fin 1024) : EReal :=
  if h : k < 8 then Y ⟨1024 * k + r.val, by omega⟩ else 0

theorem tiles_of_lt (Y : Fin 8192 → EReal) {k : ℕ} (h : k < 8) (r : Fin 1024) :
    tiles Y k r = Y ⟨1024 * k + r.val, by omega⟩ := dif_pos h

theorem tiles_real (Y : Fin 8192 → EReal) (hY : ∀ i, ∃ y : ℝ, Y i = (y : EReal)) (k : ℕ) (r : Fin 1024) :
    ∃ y : ℝ, tiles Y k r = (y : EReal) := by
  unfold tiles
  split
  · exact hY _
  · exact ⟨0, by simp⟩

/-- After the eighth tile the running maximum is the supremum of the whole column. -/
theorem M_tiles (Y : Fin 8192 → EReal) : M (tiles Y) 7 = Finset.univ.sup Y := by
  unfold M
  apply le_antisymm
  · refine Finset.sup_le fun k hk => Finset.sup_le fun r _ => ?_
    have h : k < 8 := by simpa using Finset.mem_range.1 hk
    rw [tiles_of_lt Y h]
    exact Finset.le_sup (f := Y) (Finset.mem_univ _)
  · refine Finset.sup_le fun i _ => ?_
    have hk : i.val / 1024 < 8 := by omega
    have hr : i.val % 1024 < 1024 := by omega
    have hi : tiles Y (i.val / 1024) ⟨i.val % 1024, hr⟩ = Y i := by
      rw [tiles_of_lt Y hk]
      congr 1
      apply Fin.ext
      show 1024 * (i.val / 1024) + i.val % 1024 = i.val
      omega
    rw [← hi]
    exact (Finset.le_sup (f := tiles Y (i.val / 1024)) (Finset.mem_univ _)).trans
      (Finset.le_sup (f := fun k => Finset.univ.sup (tiles Y k)) (Finset.mem_range.2 (by omega)))

/-- After the eighth tile the running sum is the sum over the whole column of the exponentials relative to the
    column's supremum. -/
theorem L_tiles (Y : Fin 8192 → EReal) : L (tiles Y) 7 = ∑ i, Ideal.exp (Y i - Finset.univ.sup Y) := by
  unfold L
  rw [M_tiles, Finset.sum_range]
  have h := Cert.LibBlockSum.sum_blocks_mul (M := EReal) 8 1024 (fun i : Fin (8 * 1024) => Ideal.exp (Y i - Finset.univ.sup Y))
  refine Eq.trans ?_ h
  refine Finset.sum_congr rfl fun k _ => Finset.sum_congr rfl fun r _ => ?_
  rw [tiles_of_lt Y k.isLt]

/-- THE COLUMN STATISTICS. On a column of real entries, the recurrence run over its eight tiles ends at the column's
    supremum and at the sum of the exponentials relative to it. -/
theorem run_tiles (Y : Fin 8192 → EReal) (hY : ∀ i, ∃ y : ℝ, Y i = (y : EReal)) :
    runMax (tiles Y) 7 = Finset.univ.sup Y ∧ runSum (tiles Y) 7 = ∑ i, Ideal.exp (Y i - Finset.univ.sup Y) :=
  ⟨(runMax_eq _ 7).trans (M_tiles Y), (runSum_eq _ (tiles_real Y hY) 7).trans (L_tiles Y)⟩

end Cert.OnlineColumn

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.LibTiledSup.lean ====
/-
  Finite suprema on the extended reals, taken tile by tile.

  The extended reals are a complete linear order with a least element, and 0 * x = 0, x * 0 = 0, 1 * x = x,
  x * 1 = x hold for every extended real, so none of the statements below needs a finiteness hypothesis.
  A condition enters as a 0/1 factor (if-then-else on an arbitrary proposition, decided classically).
-/
import Mathlib.Data.EReal.Basic
import Mathlib.Data.EReal.Operations
import Mathlib.Order.Fin.Basic
import Mathlib.Data.Finset.Lattice.Fold
import Mathlib.Data.Fintype.Basic

open Classical

namespace Cert.LibTiledSup

/-- Folding max over a finite set, starting from the least element, gives the finite supremum. -/
theorem fold_max_eq_sup {ι : Type*} (s : Finset ι) (f : ι → EReal) : s.fold max ⊥ f = s.sup f := by
  induction s using Finset.induction_on with
  | empty => simp
  | insert a s ha ih => rw [Finset.fold_insert ha, Finset.sup_insert, ih]

/-- A running maximum: if acc 0 = max z (f 0) and acc (n + 1) = max (acc n) (f (n + 1)), then acc n is the maximum
of z and the supremum of f 0, …, f n. -/
theorem running_max (f acc : ℕ → EReal) (z : EReal) (h0 : acc 0 = max z (f 0))
    (hs : ∀ n, acc (n + 1) = max (acc n) (f (n + 1))) (n : ℕ) :
    acc n = max z ((Finset.range (n + 1)).sup f) := by
  induction n with
  | zero => simpa using h0
  | succ n ih =>
    rw [hs, ih, Finset.range_add_one (n := n + 1), Finset.sup_insert, max_assoc, max_comm (f (n + 1))]

/-- The supremum over n < N of a function that is g n below N (and the least element elsewhere) is the supremum
of g over all of Fin N. -/
theorem sup_range_dite {N : ℕ} (g : Fin N → EReal) :
    (Finset.range N).sup (fun n => if h : n < N then g ⟨n, h⟩ else ⊥) = Finset.univ.sup g := by
  apply le_antisymm
  · refine Finset.sup_le fun n hn => ?_
    have h : n < N := Finset.mem_range.1 hn
    rw [dif_pos h]
    exact Finset.le_sup (f := g) (Finset.mem_univ _)
  · refine Finset.sup_le fun i _ => ?_
    have h := Finset.le_sup (f := fun n => if h : n < N then g ⟨n, h⟩ else ⊥) (Finset.mem_range.2 i.2)
    simpa [dif_pos i.2] using h

/-- A supremum taken tile by tile, the conditions applied as 0/1 factors first along the columns and then along
the rows, is the supremum over the whole index set of the values kept where both conditions hold and replaced
by 0 elsewhere. Every (row, column) pair lies in some tile, which gives ≥; each tile entry is one of the
values on the right, which gives ≤. Where the row condition fails, the left inner term is (sup …) * 0 = 0, and
0 is also a value on the right because a tile has at least one column. -/
theorem tiled_masked_sup {T Rl Cl R C : Type*} [Fintype T] [Fintype Rl] [Fintype Cl] [Fintype R] [Fintype C]
    [Nonempty Cl]
    (row : T → Rl → R) (col : T → Cl → C) (hsurj : ∀ i j, ∃ t r c, row t r = i ∧ col t c = j)
    (a : R → C → EReal) (P : R → Prop) (V : C → Prop) :
    (Finset.univ.sup fun t : T => Finset.univ.sup fun r : Rl =>
        (Finset.univ.sup fun c : Cl => a (row t r) (col t c) * (if V (col t c) then (1 : EReal) else 0))
          * (if P (row t r) then (1 : EReal) else 0))
      = Finset.univ.sup fun i : R => Finset.univ.sup fun j : C => if P i ∧ V j then a i j else 0 := by
  -- every value on the right is below the right-hand side
  have hR : ∀ i j, (if P i ∧ V j then a i j else 0)
      ≤ Finset.univ.sup fun i : R => Finset.univ.sup fun j : C => if P i ∧ V j then a i j else 0 :=
    fun i j => (Finset.le_sup (f := fun j : C => if P i ∧ V j then a i j else 0) (Finset.mem_univ j)).trans
      (Finset.le_sup (f := fun i : R => Finset.univ.sup fun j : C => if P i ∧ V j then a i j else 0)
        (Finset.mem_univ i))
  -- every tile row term is below the left-hand side
  have hL : ∀ t r, (Finset.univ.sup fun c : Cl => a (row t r) (col t c) * (if V (col t c) then (1 : EReal) else 0))
        * (if P (row t r) then (1 : EReal) else 0)
      ≤ Finset.univ.sup fun t : T => Finset.univ.sup fun r : Rl =>
        (Finset.univ.sup fun c : Cl => a (row t r) (col t c) * (if V (col t c) then (1 : EReal) else 0))
          * (if P (row t r) then (1 : EReal) else 0) :=
    fun t r => (Finset.le_sup (f := fun r : Rl =>
        (Finset.univ.sup fun c : Cl => a (row t r) (col t c) * (if V (col t c) then (1 : EReal) else 0))
          * (if P (row t r) then (1 : EReal) else 0)) (Finset.mem_univ r)).trans
      (Finset.le_sup (f := fun t : T => Finset.univ.sup fun r : Rl =>
        (Finset.univ.sup fun c : Cl => a (row t r) (col t c) * (if V (col t c) then (1 : EReal) else 0))
          * (if P (row t r) then (1 : EReal) else 0)) (Finset.mem_univ t))
  apply le_antisymm
  · refine Finset.sup_le fun t _ => Finset.sup_le fun r _ => ?_
    by_cases hp : P (row t r)
    · rw [if_pos hp, mul_one]
      refine Finset.sup_le fun c _ => ?_
      by_cases hv : V (col t c)
      · rw [if_pos hv, mul_one]
        simpa [hp, hv] using hR (row t r) (col t c)
      · rw [if_neg hv, mul_zero]
        simpa [hv] using hR (row t r) (col t c)
    · rw [if_neg hp, mul_zero]
      obtain ⟨c⟩ := ‹Nonempty Cl›
      simpa [hp] using hR (row t r) (col t c)
  · refine Finset.sup_le fun i _ => Finset.sup_le fun j _ => ?_
    obtain ⟨t, r, c, rfl, rfl⟩ := hsurj i j
    refine le_trans ?_ (hL t r)
    by_cases hp : P (row t r)
    · rw [if_pos hp, mul_one]
      refine le_trans ?_ (Finset.le_sup (f := fun c : Cl =>
        a (row t r) (col t c) * (if V (col t c) then (1 : EReal) else 0)) (Finset.mem_univ c))
      by_cases hv : V (col t c)
      · simp [hp, hv]
      · simp [hv]
    · simp [hp]

/-- The "some row satisfies the condition" flag, accumulated tile by tile as a maximum of 0/1 values starting
from 0, is positive exactly when some row of the whole index set satisfies the condition. -/
theorem tiled_any_pos {T Rl R : Type*} [Fintype T] [Fintype Rl] [Fintype R]
    (row : T → Rl → R) (hsurj : ∀ i, ∃ t r, row t r = i) (P : R → Prop) :
    (0 : EReal) < max 0 (Finset.univ.sup fun t : T => Finset.univ.sup fun r : Rl =>
        if P (row t r) then (1 : EReal) else 0) ↔ ∃ i, P i := by
  constructor
  · intro h
    rcases lt_max_iff.1 h with h | h
    · exact absurd h (lt_irrefl _)
    · obtain ⟨t, -, ht⟩ := Finset.lt_sup_iff.1 h
      obtain ⟨r, -, hr⟩ := Finset.lt_sup_iff.1 ht
      by_cases hp : P (row t r)
      · exact ⟨_, hp⟩
      · simp [hp] at hr
  · rintro ⟨i, hi⟩
    obtain ⟨t, r, rfl⟩ := hsurj i
    refine lt_max_iff.2 (Or.inr ?_)
    refine Finset.lt_sup_iff.2 ⟨t, Finset.mem_univ _, Finset.lt_sup_iff.2 ⟨r, Finset.mem_univ _, ?_⟩⟩
    simp [hi]

/-- Every pair (i, j) with i < 4096 and j < 2048 lies in a tile: with t = 16 * (i / 512) + j / 128,
r = i % 512 and c = j % 128 one has 512 * (t / 16) + r = i and 128 * (t % 16) + c = j. -/
theorem tile_surj : ∀ (i : Fin 4096) (j : Fin 2048), ∃ (t : Fin 128) (r : Fin 512) (c : Fin 128),
    (⟨512 * (t.val / 16) + r.val, by omega⟩ : Fin 4096) = i
      ∧ (⟨128 * (t.val % 16) + c.val, by omega⟩ : Fin 2048) = j := by
  intro i j
  refine ⟨⟨16 * (i.val / 512) + j.val / 128, by omega⟩, ⟨i.val % 512, by omega⟩, ⟨j.val % 128, by omega⟩,
    ?_, ?_⟩
  · apply Fin.ext
    simp only
    omega
  · apply Fin.ext
    simp only
    omega

end Cert.LibTiledSup
-- ==== Proof.LibSoftmaxReal.lean ====
/-
  Softmax over the extended reals, on real logits: general facts (Mathlib and the exact float operations only).

  * the f32 patterns of `1.0` and of `−∞` denote `1` and `⊥`;
  * a finite sum of reals is real; `tanh` of any extended real is real;
  * the fold of `max` from a start value below `⊤` over a nonempty finite family of reals is real;
  * for real logits `z` and a real shift `M`, `Σ exp (z i − M)` over a nonempty finite set is positive;
  * `a · (1 / w) = a / w` whenever `w ≠ 0` (at `w = 0` the two differ: `1 / 0 = ⊤`, `0 · ⊤ = 0`, `0 / 0 = ⊥`);
  * hence the softmax written as a product with the reciprocal of the sum equals the softmax written as a quotient.
-/
import Idealize.ShloMosaic.PureOps.Ideal
import Idealize.ShloMosaic.PureOps.IdealRules

noncomputable section

namespace Cert.Lib.SoftmaxReal

open Idealize.ShloMosaic

/-- The f32 pattern of `1.0` denotes the real `1`. -/
theorem ofBits_one_f32 : Ideal.ofBits .f32 0x3F800000#32 = (1 : EReal) := IdealRules.sign_bit.ideal_onePat .f32

/-- The f32 pattern of `−∞` denotes the bottom of the extended reals. -/
theorem ofBits_negInf_f32 : Ideal.ofBits .f32 0xFF800000#32 = (⊥ : EReal) := by simp [Ideal.ofBits, Ideal.ieee]

/-- A finite sum of real numbers is a real number. -/
theorem exists_real_sum {ι : Type} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    obtain ⟨r, hr⟩ := h a (Finset.mem_insert_self a S)
    obtain ⟨q, hq⟩ := ih (fun i hi => h i (Finset.mem_insert_of_mem hi))
    exact ⟨r + q, by rw [Finset.sum_insert ha, hr, hq, EReal.coe_add]⟩

/-- `tanh` of any extended real is a real number (`−1` and `1` at the infinities). -/
theorem tanh_real (x : EReal) : ∃ r : ℝ, Ideal.tanh x = (r : EReal) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- The greatest of a nonempty finite family of reals, folded from a start value below `⊤`, is a real number. -/
theorem fold_max_real {ι : Type} (S : Finset ι) (hS : S.Nonempty) (c : EReal) (hc : c < ⊤) (z : ι → EReal)
    (hz : ∀ i ∈ S, ∃ r : ℝ, z i = (r : EReal)) : ∃ r : ℝ, S.fold max c z = (r : EReal) := by
  have hlt : S.fold max c z < ⊤ := by
    rw [Finset.fold_max_lt]
    exact ⟨hc, fun x hx => by obtain ⟨r, hr⟩ := hz x hx; rw [hr]; exact EReal.coe_lt_top _⟩
  have hgt : ⊥ < S.fold max c z := by
    obtain ⟨i, hi⟩ := hS
    have h0 : z i ≤ S.fold max c z := by
      rw [Finset.le_fold_max]
      exact Or.inr ⟨i, hi, le_rfl⟩
    obtain ⟨r, hr⟩ := hz i hi
    exact lt_of_lt_of_le (by rw [hr]; exact EReal.bot_lt_coe _) h0
  exact ⟨(S.fold max c z).toReal, (EReal.coe_toReal hlt.ne hgt.ne').symm⟩

/-- For real logits and a real shift the sum of the exponentials over a nonempty finite set is positive. -/
theorem sum_exp_sub_pos {ι : Type} (S : Finset ι) (hS : S.Nonempty) (z : ι → EReal) (M : EReal)
    (hz : ∀ i ∈ S, ∃ r : ℝ, z i = (r : EReal)) (hM : ∃ r : ℝ, M = (r : EReal)) :
    (0 : EReal) < ∑ i ∈ S, Ideal.exp (z i - M) := by
  obtain ⟨mr, rfl⟩ := hM
  have hw : ∀ i ∈ S, ∃ q : ℝ, 0 < q ∧ Ideal.exp (z i - (mr : EReal)) = (q : EReal) := fun i hi => by
    obtain ⟨r, hr⟩ := hz i hi
    exact ⟨Real.exp (r - mr), Real.exp_pos _, by rw [hr, ← EReal.coe_sub]; exact Ideal.exp_coe _⟩
  obtain ⟨i0, hi0⟩ := hS
  refine lt_of_lt_of_le ?_ (Finset.single_le_sum (f := fun i => Ideal.exp (z i - (mr : EReal))) (fun i hi => ?_) hi0)
  · obtain ⟨q, hq, e⟩ := hw i0 hi0
    show (0 : EReal) < Ideal.exp (z i0 - (mr : EReal))
    rw [e]; exact EReal.coe_pos.mpr hq
  · obtain ⟨q, hq, e⟩ := hw i hi
    show (0 : EReal) ≤ Ideal.exp (z i - (mr : EReal))
    rw [e]; exact EReal.coe_nonneg.mpr hq.le

/-- Off `w = 0` the product with the reciprocal is the quotient. -/
theorem mul_div_one_eq_div (a w : EReal) (hw : w ≠ 0) : a * Ideal.div 1 w = Ideal.div a w := by
  rw [Ideal.div, if_neg hw, Ideal.div, if_neg hw, one_mul]

/-- On real logits the softmax as a product with the reciprocal of the sum is the softmax as a quotient by the sum; the
    shift is the fold of `max` from any start value below `⊤` (a program's `−∞`). -/
theorem softmax_recip_eq_quot {ι : Type} (S : Finset ι) (hS : S.Nonempty) (c : EReal) (hc : c < ⊤) (z : ι → EReal)
    (hz : ∀ i ∈ S, ∃ r : ℝ, z i = (r : EReal)) (u : ι) :
    Ideal.exp (z u - S.fold max c z) * Ideal.div 1 (∑ i ∈ S, Ideal.exp (z i - S.fold max c z))
      = Ideal.div (Ideal.exp (z u - S.fold max c z)) (∑ i ∈ S, Ideal.exp (z i - S.fold max c z)) :=
  mul_div_one_eq_div _ _ (sum_exp_sub_pos S hS z _ hz (fold_max_real S hS c hc z hz)).ne'

end Cert.Lib.SoftmaxReal

end
-- ==== Proof.IV1P.lean ====
/-
  The three arithmetic payloads of the column-statistics body, read at an index over the extended reals.

  The masked score tile at (p, q) is the specification's score of the row term at p, the column term at q and the
  adjacency at (p, q). The new running maximum at column q is the larger of the previous one and the supremum of the
  tile's column q. The new running sum at column q is exp (previous maximum − new maximum) times the previous sum, plus
  the sum over the tile's column q of exp (score − new maximum).
-/
import proofs.«165041_j86423331930641_1_alg».proof.Proof.Gen.KernelIdeal.Skeleton
import proofs.«165041_j86423331930641_1_alg».proof.Proof.Spec
import proofs.«165041_j86423331930641_1_alg».proof.Proof.LibColumn
import proofs.«165041_j86423331930641_1_alg».proof.Proof.LibTiledSup
import proofs.«165041_j86423331930641_1_alg».proof.Proof.LibSoftmaxReal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem
open Idealize.ShloMosaic.ValueIdx

namespace Cert.KernelIdeal.Val

open Cert.KernelIdeal Cert.KernelIdeal.Gen

/-- A reduced column index with the row put back is the pair. -/
theorem lift_col {n m : ℕ} (h : (⟨2, ![n, m]⟩ : Shape).Reduces [0] (⟨1, ![m]⟩ : Shape)) (q : Fin m)
    (k : Fin ((⟨2, ![n, m]⟩ : Shape).size 0)) : h.lift (ix1 q) k = ix2 (⟨k.val, k.isLt⟩ : Fin n) q := by
  funext c; apply Fin.ext
  fin_cases c <;> rfl

/-- A maximum taken down the rows of an [n, m] vector, at column q, is the supremum of that column. -/
theorem multiReduction_max_col {n m : ℕ} (z : FVec Ideal ⟨2, ![n, m]⟩ .f32)
    (h : (⟨2, ![n, m]⟩ : Shape).Reduces [0] (⟨1, ![m]⟩ : Shape)) (hφ : FKind.Formats .f32)
    (hacc : (0xFF800000#32 : BitVec 32) = 0xFF800000#32) (q : Fin m) :
    multiReduction .maximumf [0] ⟨1, ![m]⟩ z 0xFF800000#32 h hφ hacc (ix1 q)
      = (Finset.univ : Finset (Fin n)).sup fun p => z (ix2 p q) := by
  refine (Ideal.multiReduction_maximumf_single z 0xFF800000#32 h hφ hacc (ix1 q)).trans ?_
  have hf : (z ∘ h.lift (ix1 q)) = fun k : Fin n => z (ix2 k q) := funext fun k => congrArg z (lift_col h q k)
  have hb : (FloatOps.ofBits (F := Ideal) .f32 0xFF800000#32 : EReal) = ⊥ := Cert.Lib.SoftmaxReal.ofBits_negInf_f32
  rw [hb]
  refine Eq.trans ?_ (Cert.LibTiledSup.fold_max_eq_sup (Finset.univ : Finset (Fin n)) fun p => z (ix2 p q))
  exact congrArg (fun f => Finset.fold max (⊥ : EReal) f (Finset.univ : Finset (Fin n))) hf

/-- A sum taken down the rows of an [n, m] vector, at column q, is the sum of that column. -/
theorem multiReduction_add_col {n m : ℕ} (z : FVec Ideal ⟨2, ![n, m]⟩ .f32)
    (h : (⟨2, ![n, m]⟩ : Shape).Reduces [0] (⟨1, ![m]⟩ : Shape)) (hφ : FKind.Formats .f32)
    (hacc : (0x00000000#32 : BitVec 32) = 0x00000000#32) (q : Fin m) :
    multiReduction .add [0] ⟨1, ![m]⟩ z 0x00000000#32 h hφ hacc (ix1 q) = ∑ p : Fin n, z (ix2 p q) := by
  refine (Ideal.multiReduction_add_single z 0x00000000#32 h hφ hacc (ix1 q)).trans ?_
  exact Finset.sum_congr rfl fun k _ => congrArg z (lift_col h q k)

/-- The masked score tile at (p, q). -/
theorem pay5_apply (x1 : Vec Ideal S1024x1 .f32) (x2 : Vec Ideal S1x2048 .f32) (x0 : Vec Ideal S1024x2048 .f32)
    (p : Fin 1024) (q : Fin 2048) :
    k1_pay5 (F := Ideal) x1 x2 x0 (ix2 p q) = Cert.Spec.score (x1 (ix2 p 0)) (x2 (ix2 0 q)) (x0 (ix2 p q)) := by
  have h1 : broadcastTo S1024x2048 x1 broadcasts_S1024x1_S1024x2048 (ix2 p q) = x1 (ix2 p 0) :=
    Cert.Lib.broadcastTo_a1_ab_apply x1 _ p q
  have h2 : broadcastTo S1024x2048 x2 broadcasts_S1x2048_S1024x2048 (ix2 p q) = x2 (ix2 0 q) :=
    broadcastTo_1b_ab_apply x2 _ p q
  unfold k1_pay5 Cert.Spec.score
  simp only [shapeCast_self, addf_apply, mulf_apply, subf_apply, select_apply, cmpf_apply, broadcast_apply, h1, h2]
  rfl

/-- The new running maximum at column q: the larger of the previous one and the supremum of the tile's column. -/
theorem pay6_apply (x1 : Vec Ideal S1024x1 .f32) (x2 : Vec Ideal S1x2048 .f32) (x0 : Vec Ideal S1024x2048 .f32)
    (v23 : Vec Ideal S1x2048 .f32) (q : Fin 2048) :
    k1_pay6 (F := Ideal) x1 x2 x0 v23 (ix2 0 q)
      = max (v23 (ix2 0 q)) (Finset.univ.sup fun p : Fin 1024 => Cert.Spec.score (x1 (ix2 p 0)) (x2 (ix2 0 q)) (x0 (ix2 p q))) := by
  unfold k1_pay6
  dsimp only
  refine (maximumf_apply _ _ _).trans ?_
  refine congrArg (max (v23 (ix2 0 q))) ?_
  refine (shapeCast_a_1a_apply _ shapeCasts_S2048_S1x2048 0 q).trans ?_
  refine (multiReduction_max_col (k1_pay5 (F := Ideal) x1 x2 x0) reduces_S1024x2048_S2048 (.inl rfl) rfl q).trans ?_
  exact congrArg (Finset.univ : Finset (Fin 1024)).sup (funext fun p => pay5_apply x1 x2 x0 p q)

/-- The new running sum at column q: the previous sum rescaled to the new maximum, plus the tile's column of
    exponentials relative to the new maximum. -/
theorem pay7_apply (x1 : Vec Ideal S1024x1 .f32) (x2 : Vec Ideal S1x2048 .f32) (x0 : Vec Ideal S1024x2048 .f32)
    (v23 v30 : Vec Ideal S1x2048 .f32) (q : Fin 2048) :
    k1_pay7 (F := Ideal) x1 x2 x0 v23 v30 (ix2 0 q)
      = Ideal.exp (v23 (ix2 0 q) - k1_pay6 (F := Ideal) x1 x2 x0 v23 (ix2 0 q)) * v30 (ix2 0 q)
        + ∑ p : Fin 1024, Ideal.exp (Cert.Spec.score (x1 (ix2 p 0)) (x2 (ix2 0 q)) (x0 (ix2 p q))
            - k1_pay6 (F := Ideal) x1 x2 x0 v23 (ix2 0 q)) := by
  unfold k1_pay7
  dsimp only
  refine (addf_apply _ _ _).trans ?_
  refine congrArg₂ (· + ·) rfl ?_
  refine (shapeCast_a_1a_apply _ shapeCasts_S2048_S1x2048 0 q).trans ?_
  refine (multiReduction_add_col _ reduces_S1024x2048_S2048 (.inl rfl) rfl q).trans ?_
  refine Finset.sum_congr rfl fun p _ => ?_
  refine (Cert.Lib.exp_apply _ _).trans ?_
  refine congrArg Ideal.exp ?_
  refine (subf_apply _ _ _).trans ?_
  exact congrArg₂ (· - ·) (pay5_apply x1 x2 x0 p q) (broadcastTo_1b_ab_apply _ _ p q)

end Cert.KernelIdeal.Val

end
-- ==== Proof.IV1.lean ====
/-
  Region 1, the values: the column maximum and the column sum of exponentials.

  The grid walks, for each of the 4 column tiles (2048 columns), the 8 row tiles (1024 rows) in order. At the first
  row tile the two accumulators start from −∞ and 0; every row tile folds its 1024 × 2048 scores into them, column by
  column: the running maximum takes the tile's column supremum, the running sum is rescaled to the new maximum and
  takes the tile's column of exponentials. So after row tile i of column tile j the accumulators hold, at column q,
  the supremum M i and the sum L i of the online recurrence over the column 2048·j + q of the score matrix, cut in
  tiles of 1024 rows. After the eighth row tile these are the column's supremum and its sum of exponentials, and only
  then are the accumulators copied to the two output blocks and written back: block j of each output is columns
  2048·j … 2048·j + 2047, and the four blocks tile the [1, 8192] arrays.
-/
import proofs.«165041_j86423331930641_1_alg».proof.Proof.IR1D
import proofs.«165041_j86423331930641_1_alg».proof.Proof.IV1M
import proofs.«165041_j86423331930641_1_alg».proof.Proof.IV1P
import proofs.«165041_j86423331930641_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen Cert.OnlineColumn

variable (V : (c : Dev nD) → (b : Ref sig .tc) → Buf (Elt Ideal) ((c : Thread nD τ).loc b))

/-! ## Where a point's blocks sit -/

/-- The block indices of the five windows at point t = 8·j + i: the adjacency block is (i, j), the row terms' block is
    (i, 0), the column terms' and the two outputs' blocks are (0, j). -/
theorem idx1 : ∀ t : Fin cfg1.N,
    win1_0.index t (0 : Fin 2) = t.val % 8 ∧ win1_0.index t (1 : Fin 2) = t.val / 8
    ∧ win1_1.index t (0 : Fin 2) = t.val % 8 ∧ win1_1.index t (1 : Fin 2) = 0
    ∧ win1_2.index t (0 : Fin 2) = 0 ∧ win1_2.index t (1 : Fin 2) = t.val / 8
    ∧ win1_3.index t (0 : Fin 2) = 0 ∧ win1_3.index t (1 : Fin 2) = t.val / 8
    ∧ win1_4.index t (0 : Fin 2) = 0 ∧ win1_4.index t (1 : Fin 2) = t.val / 8 :=
  (by decide +kernel : ∀ t : Fin grid1.N, _)

/-- Row p of row tile n % 8. -/
def rowOf (n : ℕ) (p : Fin 1024) : Fin 8192 := ⟨1024 * (n % 8) + p.val, by omega⟩

/-- Column q of column tile n / 8 (wrapped into range beyond the grid, where it is never read). -/
def colOf (n : ℕ) (q : Fin 2048) : Fin 8192 := ⟨(2048 * (n / 8) + q.val) % 8192, Nat.mod_lt _ (by norm_num)⟩

theorem colOf_val {n : ℕ} (hn : n < 32) (q : Fin 2048) : (colOf n q).val = 2048 * (n / 8) + q.val := by
  show (2048 * (n / 8) + q.val) % 8192 = _
  have := q.isLt
  omega

/-- The adjacency block of point t at (p, q). -/
theorem blk0_apply (c : Dev nD) (t : Fin cfg1.N) (p : Fin 1024) (q : Fin 2048) :
    (iblk1 V c 0 t : Vec Ideal S1024x2048 .f32) (ix2 p q) = V c main_arg1 (ix2 (rowOf t.val p) (colOf t.val q)) := by
  have hN : t.val < 32 := lt_of_lt_of_eq t.isLt N_1
  obtain ⟨e0, e1, -⟩ := idx1 t
  unfold iblk1
  rw [View.read_apply]
  show V c main_arg1 (((cfg1.win 0).blk t).view.emb (ix2 p q)) = V c main_arg1 _
  refine congrArg (V c main_arg1) (funext fun a => Fin.ext ?_)
  match a with
  | ⟨0, _⟩ => show win1_0.index t (0 : Fin 2) * 1024 + 1 * p.val = 1024 * (t.val % 8) + p.val; rw [e0]; omega
  | ⟨1, _⟩ => show win1_0.index t (1 : Fin 2) * 2048 + 1 * q.val = (colOf t.val q).val; rw [e1, colOf_val hN]; omega

/-- The row terms' block of point t at (p, 0). -/
theorem blk1_apply (c : Dev nD) (t : Fin cfg1.N) (p : Fin 1024) :
    (iblk1 V c 1 t : Vec Ideal S1024x1 .f32) (ix2 p 0) = V c main_v0_1 (ix2 (rowOf t.val p) 0) := by
  obtain ⟨-, -, e0, e1, -⟩ := idx1 t
  unfold iblk1
  rw [View.read_apply]
  show V c main_v0_1 (((cfg1.win 1).blk t).view.emb (ix2 p 0)) = V c main_v0_1 _
  refine congrArg (V c main_v0_1) (funext fun a => Fin.ext ?_)
  match a with
  | ⟨0, _⟩ => show win1_1.index t (0 : Fin 2) * 1024 + 1 * p.val = 1024 * (t.val % 8) + p.val; rw [e0]; omega
  | ⟨1, _⟩ => show win1_1.index t (1 : Fin 2) * 1 + 1 * 0 = 0; rw [e1]

/-- The column terms' block of point t at (0, q). -/
theorem blk2_apply (c : Dev nD) (t : Fin cfg1.N) (q : Fin 2048) :
    (iblk1 V c 2 t : Vec Ideal S1x2048 .f32) (ix2 0 q) = V c main_v1 (ix2 0 (colOf t.val q)) := by
  have hN : t.val < 32 := lt_of_lt_of_eq t.isLt N_1
  obtain ⟨-, -, -, -, e0, e1, -⟩ := idx1 t
  unfold iblk1
  rw [View.read_apply]
  show V c main_v1 (((cfg1.win 2).blk t).view.emb (ix2 0 q)) = V c main_v1 _
  refine congrArg (V c main_v1) (funext fun a => Fin.ext ?_)
  match a with
  | ⟨0, _⟩ => show win1_2.index t (0 : Fin 2) * 1 + 1 * 0 = 0; rw [e0]
  | ⟨1, _⟩ => show win1_2.index t (1 : Fin 2) * 2048 + 1 * q.val = (colOf t.val q).val; rw [e1, colOf_val hN]; omega

/-! ## One step of the two accumulators at a column -/

/-- The reset values at a column: −∞ and 0. -/
theorem pay3_apply (q : Fin 2048) : k1_pay3 (F := Ideal) (ix2 0 q) = ⊥ := by
  unfold k1_pay3
  simp only [shapeCast_self, broadcast_apply]
  exact Cert.Lib.SoftmaxReal.ofBits_negInf_f32

theorem pay4_apply (q : Fin 2048) : k1_pay4 (F := Ideal) (ix2 0 q) = 0 := by
  unfold k1_pay4
  simp only [shapeCast_self, broadcast_apply]
  exact Ideal.ofBits_zero_f32

theorem pay1_eq (v : FVec Ideal S1x2048 .f32) : k1_pay1 (F := Ideal) v = v := shapeCast_self v _
theorem pay2_eq (v : FVec Ideal S1x2048 .f32) : k1_pay2 (F := Ideal) v = v := shapeCast_self v _

/-- One row tile folded into the two accumulators, read at column q: with X the tile's column of scores, the new
    maximum is max (old maximum) (sup X) and the new sum is exp (old maximum − new maximum) · (old sum) + Σ exp (X − new
    maximum). -/
theorem step_val (x0 : Vec Ideal S1024x2048 .f32) (x1 : Vec Ideal S1024x1 .f32) (x2 : Vec Ideal S1x2048 .f32)
    (mp lp : Vec Ideal S1x2048 .f32) (q : Fin 2048) (X : Fin 1024 → EReal)
    (hX : ∀ p, Cert.Spec.score (x1 (ix2 p 0)) (x2 (ix2 0 q)) (x0 (ix2 p q)) = X p) :
    k1_pay1 (k1_pay6 (F := Ideal) x1 x2 x0 mp) (ix2 0 q) = max (mp (ix2 0 q)) (Finset.univ.sup X)
    ∧ k1_pay2 (k1_pay7 (F := Ideal) x1 x2 x0 mp lp) (ix2 0 q)
        = Ideal.exp (mp (ix2 0 q) - max (mp (ix2 0 q)) (Finset.univ.sup X)) * lp (ix2 0 q)
          + ∑ p, Ideal.exp (X p - max (mp (ix2 0 q)) (Finset.univ.sup X)) := by
  have hX' : (fun p : Fin 1024 => Cert.Spec.score (x1 (ix2 p 0)) (x2 (ix2 0 q)) (x0 (ix2 p q))) = X := funext hX
  have h6 : k1_pay6 (F := Ideal) x1 x2 x0 mp (ix2 0 q) = max (mp (ix2 0 q)) (Finset.univ.sup X) := by
    rw [pay6_apply, hX']
  refine ⟨(congrFun (pay1_eq _) _).trans h6, (congrFun (pay2_eq _) _).trans ?_⟩
  rw [pay7_apply, h6]
  refine congrArg (fun z => Ideal.exp (mp (ix2 0 q) - max (mp (ix2 0 q)) (Finset.univ.sup X)) * lp (ix2 0 q) + z) ?_
  exact Finset.sum_congr rfl fun p _ => by rw [hX p]

/-! ## The accumulators after every point -/

/-- The rows of column tile n / 8's column q, all 8192 of them. -/
def Ycol (c : Dev nD) (n : ℕ) (q : Fin 2048) : Fin 8192 → EReal := fun r =>
  Cert.Spec.att (fun i : Fin 8192 => V c main_v0_1 (ix2 i 0)) (fun j : Fin 8192 => V c main_v1 (ix2 0 j)) (V c main_arg1) r (colOf n q)

/-- The scores of point t's tile, down column q, are tile t % 8 of that column. -/
theorem blk_score (c : Dev nD) (t : Fin cfg1.N) (q : Fin 2048) (p : Fin 1024) :
    Cert.Spec.score ((iblk1 V c 1 t : Vec Ideal S1024x1 .f32) (ix2 p 0)) ((iblk1 V c 2 t : Vec Ideal S1x2048 .f32) (ix2 0 q))
        ((iblk1 V c 0 t : Vec Ideal S1024x2048 .f32) (ix2 p q))
      = tiles (Ycol V c t.val q) (t.val % 8) p := by
  rw [tiles_of_lt _ (Nat.mod_lt _ (by norm_num)), blk0_apply, blk1_apply, blk2_apply]
  rfl

theorem colOf_succ {n : ℕ} (h : ¬(n + 1) % 8 = 0) (q : Fin 2048) : colOf (n + 1) q = colOf n q := by
  apply Fin.ext
  show (2048 * ((n + 1) / 8) + q.val) % 8192 = (2048 * (n / 8) + q.val) % 8192
  have : (n + 1) / 8 = n / 8 := by omega
  rw [this]

/-- THE ACCUMULATORS. After point n = 8·j + i the running maximum and the running sum hold, at column q, the supremum
    and the rescaled sum of exponentials over row tiles 0 … i of column 2048·j + q. -/
theorem scr_eq (c : Dev nD)
    (hfin : ∀ i j, ∃ r : ℝ, Cert.Spec.att (fun i : Fin 8192 => V c main_v0_1 (ix2 i 0)) (fun j : Fin 8192 => V c main_v1 (ix2 0 j))
      (V c main_arg1) i j = (r : EReal)) :
    ∀ (n : ℕ) (hn : n < cfg1.N) (q : Fin 2048),
      (scrAt1 V c n hn).1 (ix2 0 q) = M (tiles (Ycol V c n q)) (n % 8)
      ∧ (scrAt1 V c n hn).2 (ix2 0 q) = L (tiles (Ycol V c n q)) (n % 8) := by
  have first : ∀ (t : Fin cfg1.N), t.val % 8 = 0 → ∀ q : Fin 2048,
      (scrAt1 V c t.val t.isLt).1 (ix2 0 q) = M (tiles (Ycol V c t.val q)) (t.val % 8)
      ∧ (scrAt1 V c t.val t.isLt).2 (ix2 0 q) = L (tiles (Ycol V c t.val q)) (t.val % 8) := by
    intro t h q
    obtain ⟨s1, s2⟩ := step_val (iblk1 V c 0 t) (iblk1 V c 1 t) (iblk1 V c 2 t) (k1_pay3 (F := Ideal)) (k1_pay4 (F := Ideal)) q
      (tiles (Ycol V c t.val q) (t.val % 8)) (blk_score V c t q)
    rw [scrAt1_zero V c t h]
    dsimp only
    rw [s1, s2, pay3_apply, pay4_apply, h, M_zero]
    exact ⟨rfl, L_zero _ ⊥⟩
  intro n
  induction n with
  | zero => intro hn q; exact first ⟨0, hn⟩ rfl q
  | succ n ih =>
    intro hn q
    by_cases h : (n + 1) % 8 = 0
    · exact first ⟨n + 1, hn⟩ h q
    · obtain ⟨i1, i2⟩ := ih (Nat.lt_of_succ_lt hn) q
      have hreal : ∀ k r, ∃ y : ℝ, tiles (Ycol V c n q) k r = (y : EReal) :=
        tiles_real _ fun r => hfin r (colOf n q)
      have hY : Ycol V c (n + 1) q = Ycol V c n q := by unfold Ycol; rw [colOf_succ h]
      have hm : (n + 1) % 8 = n % 8 + 1 := by omega
      obtain ⟨s1, s2⟩ := step_val (iblk1 V c 0 ⟨n + 1, hn⟩) (iblk1 V c 1 ⟨n + 1, hn⟩) (iblk1 V c 2 ⟨n + 1, hn⟩)
        (scrAt1 V c n (Nat.lt_of_succ_lt hn)).1 (scrAt1 V c n (Nat.lt_of_succ_lt hn)).2 q
        (tiles (Ycol V c (n + 1) q) ((n + 1) % 8)) (blk_score V c ⟨n + 1, hn⟩ q)
      have e := scrAt1_succ V c ⟨n + 1, hn⟩ h
      rw [e]
      dsimp only
      show k1_pay1 (k1_pay6 _ _ _ (scrAt1 V c n _).1) (ix2 0 q) = _ ∧ k1_pay2 (k1_pay7 _ _ _ (scrAt1 V c n _).1 (scrAt1 V c n _).2) (ix2 0 q) = _
      rw [s1, s2, i1, i2, hY, hm, M_succ]
      exact ⟨rfl, L_succ _ hreal (n % 8)⟩

/-! ## From the written-back blocks to the two arrays -/

/-- The column maxima as the contents of the whole [1, 8192] array. -/
def G3 (c : Dev nD) : S1x8192.Idx → Elt Ideal .f32 := fun i =>
  Cert.Spec.colmax (fun i : Fin 8192 => V c main_v0_1 (ix2 i 0)) (fun j : Fin 8192 => V c main_v1 (ix2 0 j)) (V c main_arg1)
    ⟨(i 1).val, idx2_lt1 i⟩

/-- The column sums as the contents of the whole [1, 8192] array. -/
def G4 (c : Dev nD) : S1x8192.Idx → Elt Ideal .f32 := fun i =>
  Cert.Spec.colsum (fun i : Fin 8192 => V c main_v0_1 (ix2 i 0)) (fun j : Fin 8192 => V c main_v1 (ix2 0 j)) (V c main_arg1)
    ⟨(i 1).val, idx2_lt1 i⟩

/-- An index of the first output is in point t's block iff each coordinate is in the block's range on its axis. -/
theorem mem_blk3 (t : Fin cfg1.N) (i : S1x8192.Idx) :
    i ∈ ((cfg1.win 3).blk t).view.set ↔ ∀ a : Fin 2, win1_3.index t a * S1x2048.size a ≤ (i a).val
      ∧ (i a).val < win1_3.index t a * S1x2048.size a + S1x2048.size a := by
  show i ∈ ((View.whole main_v2_0).slice (win1_3.rect t)).set ↔ _
  rw [View.set_slice_whole, Rect.mem_set_unit]
  exact Iff.rfl

theorem mem_blk4 (t : Fin cfg1.N) (i : S1x8192.Idx) :
    i ∈ ((cfg1.win 4).blk t).view.set ↔ ∀ a : Fin 2, win1_4.index t a * S1x2048.size a ≤ (i a).val
      ∧ (i a).val < win1_4.index t a * S1x2048.size a + S1x2048.size a := by
  show i ∈ ((View.whole main_v2_1).slice (win1_4.rect t)).set ↔ _
  rw [View.set_slice_whole, Rect.mem_set_unit]
  exact Iff.rfl

/-- The point that writes back the block holding column i: the last row tile of column tile i / 2048. -/
def lastOf (i : S1x8192.Idx) : Fin cfg1.N := ⟨8 * ((i 1).val / 2048) + 7, by
  have h : (i 1).val < 8192 := (i 1).isLt
  exact lt_of_lt_of_eq (by omega) N_1.symm⟩

/-- Every column of the first output is in the block some last row tile writes back. -/
theorem cover3 (i : S1x8192.Idx) : ∃ t : Fin cfg1.N, (cfg1.win 3).flush t = true ∧ i ∈ ((cfg1.win 3).blk t).view.set := by
  have hi0 : (i 0).val < 1 := (i 0).isLt
  have hi1 : (i 1).val < 8192 := (i 1).isLt
  have ht : (lastOf i).val = 8 * ((i 1).val / 2048) + 7 := rfl
  obtain ⟨-, -, -, -, -, -, e0, e1, -⟩ := idx1 (lastOf i)
  refine ⟨lastOf i, (flush1_3 _).mpr (by rw [ht]; omega), ?_⟩
  rw [mem_blk3]
  intro a
  match a with
  | ⟨0, _⟩ =>
    show win1_3.index (lastOf i) (0 : Fin 2) * 1 ≤ (i 0).val ∧ (i 0).val < win1_3.index (lastOf i) (0 : Fin 2) * 1 + 1
    rw [e0]; omega
  | ⟨1, _⟩ =>
    show win1_3.index (lastOf i) (1 : Fin 2) * 2048 ≤ (i 1).val ∧ (i 1).val < win1_3.index (lastOf i) (1 : Fin 2) * 2048 + 2048
    rw [e1, ht]; omega

theorem cover4 (i : S1x8192.Idx) : ∃ t : Fin cfg1.N, (cfg1.win 4).flush t = true ∧ i ∈ ((cfg1.win 4).blk t).view.set := by
  have hi0 : (i 0).val < 1 := (i 0).isLt
  have hi1 : (i 1).val < 8192 := (i 1).isLt
  have ht : (lastOf i).val = 8 * ((i 1).val / 2048) + 7 := rfl
  obtain ⟨-, -, -, -, -, -, -, -, e0, e1⟩ := idx1 (lastOf i)
  refine ⟨lastOf i, (flush1_4 _).mpr (by rw [ht]; omega), ?_⟩
  rw [mem_blk4]
  intro a
  match a with
  | ⟨0, _⟩ =>
    show win1_4.index (lastOf i) (0 : Fin 2) * 1 ≤ (i 0).val ∧ (i 0).val < win1_4.index (lastOf i) (0 : Fin 2) * 1 + 1
    rw [e0]; omega
  | ⟨1, _⟩ =>
    show win1_4.index (lastOf i) (1 : Fin 2) * 2048 ≤ (i 1).val ∧ (i 1).val < win1_4.index (lastOf i) (1 : Fin 2) * 2048 + 2048
    rw [e1, ht]; omega

/-- What a last row tile writes back into the first output is its block of the column maxima. -/
theorem flushed3_eq (c : Dev nD)
    (hfin : ∀ i j, ∃ r : ℝ, Cert.Spec.att (fun i : Fin 8192 => V c main_v0_1 (ix2 i 0)) (fun j : Fin 8192 => V c main_v1 (ix2 0 j))
      (V c main_arg1) i j = (r : EReal))
    (t : Fin cfg1.N) (hf : (cfg1.win 3).flush t = true) :
    (dat1 (F := Ideal) V c).flushed 3 t = ((cfg1.win 3).blk t).view.read (Elt Ideal) (G3 V c) := by
  have h7 : t.val % 8 = 7 := (flush1_3 t).mp hf
  have hN : t.val < 32 := lt_of_lt_of_eq t.isLt N_1
  obtain ⟨-, -, -, -, -, -, e0, e1, -⟩ := idx1 t
  show (cfg1.win 3).cut (grid1.coords t) ((dat1 (F := Ideal) V c).after 3 t) = _
  rw [after1_3]
  funext y
  obtain ⟨u, q, rfl⟩ : ∃ (u : Fin 1) (q : Fin 2048), y = ix2 u q := ⟨y 0, y 1, eq_ix2 y⟩
  obtain rfl : u = 0 := Subsingleton.elim _ _
  rw [View.read_apply]
  show (scrAt1 V c t.val t.isLt).1 (ix2 0 q) = G3 V c (((cfg1.win 3).blk t).view.emb (ix2 0 q))
  rw [(scr_eq V c hfin t.val t.isLt q).1, h7, M_tiles]
  unfold G3 Cert.Spec.colmax Ycol
  refine congrArg (fun j : Fin 8192 => Finset.univ.sup fun i : Fin 8192 =>
    Cert.Spec.att (fun i : Fin 8192 => V c main_v0_1 (ix2 i 0)) (fun j : Fin 8192 => V c main_v1 (ix2 0 j)) (V c main_arg1) i j) (Fin.ext ?_)
  show (colOf t.val q).val = win1_3.index t (1 : Fin 2) * 2048 + 1 * q.val
  rw [colOf_val hN, e1]; omega

/-- What a last row tile writes back into the second output is its block of the column sums. -/
theorem flushed4_eq (c : Dev nD)
    (hfin : ∀ i j, ∃ r : ℝ, Cert.Spec.att (fun i : Fin 8192 => V c main_v0_1 (ix2 i 0)) (fun j : Fin 8192 => V c main_v1 (ix2 0 j))
      (V c main_arg1) i j = (r : EReal))
    (t : Fin cfg1.N) (hf : (cfg1.win 4).flush t = true) :
    (dat1 (F := Ideal) V c).flushed 4 t = ((cfg1.win 4).blk t).view.read (Elt Ideal) (G4 V c) := by
  have h7 : t.val % 8 = 7 := (flush1_4 t).mp hf
  have hN : t.val < 32 := lt_of_lt_of_eq t.isLt N_1
  obtain ⟨-, -, -, -, -, -, -, -, e0, e1⟩ := idx1 t
  show (cfg1.win 4).cut (grid1.coords t) ((dat1 (F := Ideal) V c).after 4 t) = _
  rw [after1_4]
  funext y
  obtain ⟨u, q, rfl⟩ : ∃ (u : Fin 1) (q : Fin 2048), y = ix2 u q := ⟨y 0, y 1, eq_ix2 y⟩
  obtain rfl : u = 0 := Subsingleton.elim _ _
  rw [View.read_apply]
  show (scrAt1 V c t.val t.isLt).2 (ix2 0 q) = G4 V c (((cfg1.win 4).blk t).view.emb (ix2 0 q))
  rw [(scr_eq V c hfin t.val t.isLt q).2, h7, L_tiles]
  unfold G4 Cert.Spec.colsum Cert.Spec.colmax Ycol
  refine congrArg (fun j : Fin 8192 => ∑ i : Fin 8192,
    Ideal.exp (Cert.Spec.att (fun i : Fin 8192 => V c main_v0_1 (ix2 i 0)) (fun j : Fin 8192 => V c main_v1 (ix2 0 j)) (V c main_arg1) i j
      - Finset.univ.sup fun i : Fin 8192 =>
          Cert.Spec.att (fun i : Fin 8192 => V c main_v0_1 (ix2 i 0)) (fun j : Fin 8192 => V c main_v1 (ix2 0 j)) (V c main_arg1) i j)) (Fin.ext ?_)
  show (colOf t.val q).val = win1_4.index t (1 : Fin 2) * 2048 + 1 * q.val
  rw [colOf_val hN, e1]; omega

/-! ## The two results -/

/-- THE COLUMN MAXIMA: after region 1 the first output holds, at column j, the supremum of column j of the scores. -/
theorem final1_3 (c : Dev nD)
    (hfin : ∀ i j, ∃ r : ℝ, Cert.Spec.att (fun i : Fin 8192 => V c main_v0_1 (ix2 i 0)) (fun j : Fin 8192 => V c main_v1 (ix2 0 j))
      (V c main_arg1) i j = (r : EReal))
    (j : Fin 8192) :
    (dat1 (F := Ideal) V c).arrAt 3 cfg1.N (ix2 0 j)
      = Cert.Spec.colmax (fun i : Fin 8192 => V c main_v0_1 (ix2 i 0)) (fun j : Fin 8192 => V c main_v1 (ix2 0 j)) (V c main_arg1) j := by
  have h := (dat1 (F := Ideal) V c).arrAt_eq_of_cover 3 (G3 V c) (fun t hf => flushed3_eq V c hfin t hf) cover3
  rw [h]
  rfl

/-- THE COLUMN SUMS: after region 1 the second output holds, at column j, the sum over column j of the exponentials of
    the scores relative to the column's supremum. -/
theorem final1_4 (c : Dev nD)
    (hfin : ∀ i j, ∃ r : ℝ, Cert.Spec.att (fun i : Fin 8192 => V c main_v0_1 (ix2 i 0)) (fun j : Fin 8192 => V c main_v1 (ix2 0 j))
      (V c main_arg1) i j = (r : EReal))
    (j : Fin 8192) :
    (dat1 (F := Ideal) V c).arrAt 4 cfg1.N (ix2 0 j)
      = Cert.Spec.colsum (fun i : Fin 8192 => V c main_v0_1 (ix2 i 0)) (fun j : Fin 8192 => V c main_v1 (ix2 0 j)) (V c main_arg1) j := by
  have h := (dat1 (F := Ideal) V c).arrAt_eq_of_cover 4 (G4 V c) (fun t hf => flushed4_eq V c hfin t hf) cover4
  rw [h]
  rfl

end Cert.KernelIdeal.Val

end
-- ==== Proof.IV2P.lean ====
/-
  Region 2's arithmetic at an index. One grid point adds to the carried accumulator the tile's weighted sum: at
  row p and feature d, the sum over the tile's 2048 columns q of exp(score(p, q) − M_q) / L_q · xf[q, d], where the
  score is the leaky rectifier of s_p + n_q plus the mask weight times 1 − A[p, q]. A product of matrices into a zero
  accumulator is the plain sum over the contracted coordinate; a column broadcast along the rows and a row broadcast
  down the rows read their operand at the kept coordinate; a cast to the same shape is the identity.
-/
import proofs.«165041_j86423331930641_1_alg».proof.Proof.Gen.KernelIdeal.Skeleton
import proofs.«165041_j86423331930641_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Val2

open Cert.KernelIdeal Cert.KernelIdeal.Gen Idealize.ShloMosaic Idealize.ShloMosaic.ValueIdx

/-- A column [1024, 1] broadcast along the rows reads, at (p, q), its row p. -/
theorem bcast_col (v : FVec Ideal S1024x1 .f32) (p : Fin 1024) (q : Fin 2048) :
    broadcastTo S1024x2048 v broadcasts_S1024x1_S1024x2048 (ix2 p q) = v (ix2 p (0 : Fin 1)) := by
  refine broadcastTo_apply v broadcasts_S1024x1_S1024x2048 (ix2 p q) (ix2 p (0 : Fin 1)) fun ax => ?_
  match ax with
  | ⟨0, _⟩ => show p.val = if (1024 : Nat) = 1 then 0 else p.val; rw [if_neg (by decide)]
  | ⟨1, _⟩ => show 0 = if (1 : Nat) = 1 then 0 else q.val; rw [if_pos rfl]

/-- A row [1, 2048] broadcast down the rows reads, at (p, q), its column q. -/
theorem bcast_row (v : FVec Ideal S1x2048 .f32) (p : Fin 1024) (q : Fin 2048) :
    broadcastTo S1024x2048 v broadcasts_S1x2048_S1024x2048 (ix2 p q) = v (ix2 (0 : Fin 1) q) := by
  refine broadcastTo_apply v broadcasts_S1x2048_S1024x2048 (ix2 p q) (ix2 (0 : Fin 1) q) fun ax => ?_
  match ax with
  | ⟨0, _⟩ => show 0 = if (1 : Nat) = 1 then 0 else p.val; rw [if_pos rfl]
  | ⟨1, _⟩ => show q.val = if (2048 : Nat) = 1 then 0 else q.val; rw [if_neg (by decide)]

theorem lhs2_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs2_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs2_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs2_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The block product into the zero accumulator, at (p, d): the sum over the 2048 contracted columns. -/
theorem matmul2_apply (l : FVec Ideal S1024x2048 .f32) (r : FVec Ideal S2048x64 .f32) (p : Fin 1024) (d : Fin 64) :
    FloatOps.matmul dot_S1024x2048_S2048x64_S1024x64_1_0_0_1_n_n none l r (constant S1024x64 .f32 0x00000000#32) (ix2 p d)
      = ∑ q : Fin 2048, l (ix2 p q) * r (ix2 q d) := by
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 p d) ((ValueIdx.contrEquiv1 dot_S1024x2048_S2048x64_S1024x64_1_0_0_1_n_n 2048 rfl rfl).symm k) = ix2 p k := funext fun a => Fin.ext (by
    match a with
    | ⟨0, _⟩ => exact lhs2_0 _ _
    | ⟨1, _⟩ => exact (lhs2_1 _ _).trans hk)
  have er : dot_S1024x2048_S2048x64_S1024x64_1_0_0_1_n_n.rhsIdx (ix2 p d) ((ValueIdx.contrEquiv1 dot_S1024x2048_S2048x64_S1024x64_1_0_0_1_n_n 2048 rfl rfl).symm k) = ix2 k d := funext fun a => Fin.ext (by
    match a with
    | ⟨0, _⟩ => exact (rhs2_0 _ _).trans hk
    | ⟨1, _⟩ => exact rhs2_1 _ _)
  rw [el, er]

/-- The exponential of a vector at an index is the exponential of the element. -/
theorem vexp_apply {s : Shape} {φ : FTy} (x : FVec Ideal s φ) (i : s.Idx) : exp x i = Ideal.exp (x i) := rfl

/-- One point's arithmetic at (p, d): what the accumulator held plus the tile's weighted sum. -/
theorem pay3_apply (v3 : Vec Ideal S1024x1 .f32) (v5 : Vec Ideal S1x2048 .f32) (v15 : Vec Ideal S1024x2048 .f32)
    (v21 : Vec Ideal S1x2048 .f32) (v23 : Vec Ideal S1x2048 .f32) (v30 : Vec Ideal S2048x64 .f32) (v32 : Vec Ideal S1024x64 .f32)
    (p : Fin 1024) (d : Fin 64) :
    k2_pay3 (F := Ideal) v3 v5 v15 v21 v23 v30 v32 (ix2 p d)
      = v32 (ix2 p d) + ∑ q : Fin 2048,
          Ideal.div (Ideal.exp (Cert.Spec.score (v3 (ix2 p (0 : Fin 1))) (v5 (ix2 (0 : Fin 1) q)) (v15 (ix2 p q))
            - v21 (ix2 (0 : Fin 1) q))) (v23 (ix2 (0 : Fin 1) q)) * v30 (ix2 q d) := by
  unfold k2_pay3
  simp only [shapeCast_self]
  show v32 (ix2 p d) + _ = _
  refine congrArg (v32 (ix2 p d) + ·) ?_
  refine (matmul2_apply _ v30 p d).trans ?_
  refine Finset.sum_congr rfl fun q _ => ?_
  refine congrArg (· * v30 (ix2 q d)) ?_
  simp only [divf_apply, vexp_apply, subf_apply, addf_apply, select_apply, cmpf_apply, mulf_apply, broadcast_apply]
  rw [bcast_row v21 p q, bcast_row v23 p q, bcast_col v3 p q, bcast_row v5 p q]
  rfl

/-- The cast of the accumulator to its own shape changes nothing. -/
theorem pay1_eq (v : FVec Ideal S1024x64 .f32) : k2_pay1 (F := Ideal) v = v := by
  unfold k2_pay1
  exact shapeCast_self v _

/-- The block the accumulator is reset to is zero everywhere. -/
theorem pay2_apply (p : Fin 1024) (d : Fin 64) : k2_pay2 (F := Ideal) (ix2 p d) = 0 := by
  unfold k2_pay2
  simp only [shapeCast_self]
  exact Ideal.ofBits_zero_f32

end Cert.KernelIdeal.Val2

end
-- ==== Proof.IV2.lean ====
/-
  Region 2's output array. The grid point t = 4·i + j handles row tile i (1024 rows) and column tile j (2048 columns);
  the accumulator of a row tile starts at zero, gains one tile's weighted sum per column tile, and after the fourth is
  written back to rows [1024·i, 1024·i + 1024) of the output. Four sums over 2048 consecutive columns are one sum over
  all 8192 columns, which is the specification's aggregate.
-/
import proofs.«165041_j86423331930641_1_alg».proof.Proof.IR2D
import proofs.«165041_j86423331930641_1_alg».proof.Proof.IV2P
import proofs.«165041_j86423331930641_1_alg».proof.Proof.Spec
import proofs.«165041_j86423331930641_1_alg».proof.Proof.LibBlockSum
import Idealize.ShloMosaic.Lib.Pipeline.Value
import Idealize.ShloMosaic.Lib.ValueIdx

set_option maxRecDepth 16384

noncomputable section

open scoped BigOperators

namespace Cert.KernelIdeal.Val2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Where each window's block sits at a point -/

theorem idx2_0 : ∀ t : Fin cfg2.N, win2_0.index t 0 = t.val / 4 ∧ win2_0.index t 1 = t.val % 4 :=
  (by decide +kernel : ∀ t : Fin grid2.N, win2_0.index t 0 = t.val / 4 ∧ win2_0.index t 1 = t.val % 4)
theorem idx2_1 : ∀ t : Fin cfg2.N, win2_1.index t 0 = t.val / 4 ∧ win2_1.index t 1 = 0 :=
  (by decide +kernel : ∀ t : Fin grid2.N, win2_1.index t 0 = t.val / 4 ∧ win2_1.index t 1 = 0)
theorem idx2_2 : ∀ t : Fin cfg2.N, win2_2.index t 0 = 0 ∧ win2_2.index t 1 = t.val % 4 :=
  (by decide +kernel : ∀ t : Fin grid2.N, win2_2.index t 0 = 0 ∧ win2_2.index t 1 = t.val % 4)
theorem idx2_3 : ∀ t : Fin cfg2.N, win2_3.index t 0 = 0 ∧ win2_3.index t 1 = t.val % 4 :=
  (by decide +kernel : ∀ t : Fin grid2.N, win2_3.index t 0 = 0 ∧ win2_3.index t 1 = t.val % 4)
theorem idx2_4 : ∀ t : Fin cfg2.N, win2_4.index t 0 = 0 ∧ win2_4.index t 1 = t.val % 4 :=
  (by decide +kernel : ∀ t : Fin grid2.N, win2_4.index t 0 = 0 ∧ win2_4.index t 1 = t.val % 4)
theorem idx2_5 : ∀ t : Fin cfg2.N, win2_5.index t 0 = t.val % 4 ∧ win2_5.index t 1 = 0 :=
  (by decide +kernel : ∀ t : Fin grid2.N, win2_5.index t 0 = t.val % 4 ∧ win2_5.index t 1 = 0)
theorem idx2_6 : ∀ t : Fin cfg2.N, win2_6.index t 0 = t.val / 4 ∧ win2_6.index t 1 = 0 :=
  (by decide +kernel : ∀ t : Fin grid2.N, win2_6.index t 0 = t.val / 4 ∧ win2_6.index t 1 = 0)

/-- Row p of the row tile of point t, as a row of the whole array. -/
def rowAt (t : Fin cfg2.N) (p : Fin 1024) : Fin 8192 :=
  ⟨1024 * (t.val / 4) + p.val, by have := t.isLt; have hN : cfg2.N = 32 := N_2; have := p.isLt; omega⟩
/-- Column q of the column tile of point t, as a column of the whole array. -/
def colAt (t : Fin cfg2.N) (q : Fin 2048) : Fin 8192 :=
  ⟨2048 * (t.val % 4) + q.val, by have := q.isLt; omega⟩

/-! ## Each input block read at an index -/

theorem iblk2_0_apply (c : Dev nD) (t : Fin cfg2.N) (p : Fin 1024) (q : Fin 2048) :
    iblk2 V c 0 t (ix2 p q) = V c main_arg1 (ix2 (rowAt t p) (colAt t q)) := by
  unfold iblk2
  rw [View.read_apply]
  show V c main_arg1 _ = V c main_arg1 _
  refine congrArg (V c main_arg1) (funext fun a => Fin.ext ?_)
  match a with
  | ⟨0, _⟩ => show win2_0.index t 0 * 1024 + 1 * p.val = 1024 * (t.val / 4) + p.val; rw [(idx2_0 t).1]; omega
  | ⟨1, _⟩ => show win2_0.index t 1 * 2048 + 1 * q.val = 2048 * (t.val % 4) + q.val; rw [(idx2_0 t).2]; omega

theorem iblk2_1_apply (c : Dev nD) (t : Fin cfg2.N) (p : Fin 1024) :
    iblk2 V c 1 t (ix2 p (0 : Fin 1)) = V c main_v0_1 (ix2 (rowAt t p) (0 : Fin 1)) := by
  unfold iblk2
  rw [View.read_apply]
  show V c main_v0_1 _ = V c main_v0_1 _
  refine congrArg (V c main_v0_1) (funext fun a => Fin.ext ?_)
  match a with
  | ⟨0, _⟩ => show win2_1.index t 0 * 1024 + 1 * p.val = 1024 * (t.val / 4) + p.val; rw [(idx2_1 t).1]; omega
  | ⟨1, _⟩ => show win2_1.index t 1 * 1 + 1 * 0 = 0; rw [(idx2_1 t).2]

theorem iblk2_2_apply (c : Dev nD) (t : Fin cfg2.N) (q : Fin 2048) :
    iblk2 V c 2 t (ix2 (0 : Fin 1) q) = V c main_v1 (ix2 (0 : Fin 1) (colAt t q)) := by
  unfold iblk2
  rw [View.read_apply]
  show V c main_v1 _ = V c main_v1 _
  refine congrArg (V c main_v1) (funext fun a => Fin.ext ?_)
  match a with
  | ⟨0, _⟩ => show win2_2.index t 0 * 1 + 1 * 0 = 0; rw [(idx2_2 t).1]
  | ⟨1, _⟩ => show win2_2.index t 1 * 2048 + 1 * q.val = 2048 * (t.val % 4) + q.val; rw [(idx2_2 t).2]; omega

theorem iblk2_3_apply (c : Dev nD) (t : Fin cfg2.N) (q : Fin 2048) :
    iblk2 V c 3 t (ix2 (0 : Fin 1) q) = V c main_v2_0 (ix2 (0 : Fin 1) (colAt t q)) := by
  unfold iblk2
  rw [View.read_apply]
  show V c main_v2_0 _ = V c main_v2_0 _
  refine congrArg (V c main_v2_0) (funext fun a => Fin.ext ?_)
  match a with
  | ⟨0, _⟩ => show win2_3.index t 0 * 1 + 1 * 0 = 0; rw [(idx2_3 t).1]
  | ⟨1, _⟩ => show win2_3.index t 1 * 2048 + 1 * q.val = 2048 * (t.val % 4) + q.val; rw [(idx2_3 t).2]; omega

theorem iblk2_4_apply (c : Dev nD) (t : Fin cfg2.N) (q : Fin 2048) :
    iblk2 V c 4 t (ix2 (0 : Fin 1) q) = V c main_v2_1 (ix2 (0 : Fin 1) (colAt t q)) := by
  unfold iblk2
  rw [View.read_apply]
  show V c main_v2_1 _ = V c main_v2_1 _
  refine congrArg (V c main_v2_1) (funext fun a => Fin.ext ?_)
  match a with
  | ⟨0, _⟩ => show win2_4.index t 0 * 1 + 1 * 0 = 0; rw [(idx2_4 t).1]
  | ⟨1, _⟩ => show win2_4.index t 1 * 2048 + 1 * q.val = 2048 * (t.val % 4) + q.val; rw [(idx2_4 t).2]; omega

theorem iblk2_5_apply (c : Dev nD) (t : Fin cfg2.N) (q : Fin 2048) (d : Fin 64) :
    iblk2 V c 5 t (ix2 q d) = V c main_v0_0 (ix2 (colAt t q) d) := by
  unfold iblk2
  rw [View.read_apply]
  show V c main_v0_0 _ = V c main_v0_0 _
  refine congrArg (V c main_v0_0) (funext fun a => Fin.ext ?_)
  match a with
  | ⟨0, _⟩ => show win2_5.index t 0 * 2048 + 1 * q.val = 2048 * (t.val % 4) + q.val; rw [(idx2_5 t).1]; omega
  | ⟨1, _⟩ => show win2_5.index t 1 * 64 + 1 * d.val = d.val; rw [(idx2_5 t).2]; omega

/-! ## One point's step, and the accumulator after each point -/

/-- The weighted term of row r and column k at feature d: exp(score − M_k) / L_k · xf[k, d], over the arrays as the
    region finds them. -/
def term (c : Dev nD) (r k : Fin 8192) (d : Fin 64) : EReal :=
  Ideal.div (Ideal.exp (Cert.Spec.att (fun i : Fin 8192 => V c main_v0_1 (ix2 i (0 : Fin 1)))
      (fun j : Fin 8192 => V c main_v1 (ix2 (0 : Fin 1) j)) (V c main_arg1) r k - V c main_v2_0 (ix2 (0 : Fin 1) k)))
    (V c main_v2_1 (ix2 (0 : Fin 1) k)) * V c main_v0_0 (ix2 k d)

/-- One point adds its tile's weighted sum to what the accumulator held. -/
theorem step2_apply (c : Dev nD) (t : Fin cfg2.N) (prev : Vec Ideal S1024x64 .f32) (p : Fin 1024) (d : Fin 64) :
    step2 V c t prev (ix2 p d) = prev (ix2 p d) + ∑ q : Fin 2048, term V c (rowAt t p) (colAt t q) d := by
  show k2_pay1 (F := Ideal) (k2_pay3 (F := Ideal) (iblk2 V c 1 t) (iblk2 V c 2 t) (iblk2 V c 0 t) (iblk2 V c 3 t) (iblk2 V c 4 t) (iblk2 V c 5 t) prev) (ix2 p d) = _
  rw [pay1_eq]
  refine (pay3_apply (iblk2 V c 1 t) (iblk2 V c 2 t) (iblk2 V c 0 t) (iblk2 V c 3 t) (iblk2 V c 4 t) (iblk2 V c 5 t) prev p d).trans ?_
  refine congrArg (prev (ix2 p d) + ·) (Finset.sum_congr rfl fun q _ => ?_)
  rw [iblk2_1_apply, iblk2_2_apply, iblk2_0_apply, iblk2_3_apply, iblk2_4_apply, iblk2_5_apply]
  rfl

/-- A natural number as a row or a column of the whole array (reduced modulo the extent; used below the extent only). -/
def atN (n : ℕ) : Fin 8192 := ⟨n % 8192, Nat.mod_lt _ (by decide)⟩

/-- The weighted sum of column tile jj for row p of row tile i. -/
def tileSum (c : Dev nD) (i jj : ℕ) (p : Fin 1024) (d : Fin 64) : EReal :=
  ∑ q : Fin 2048, term V c (atN (1024 * i + p.val)) (atN (2048 * jj + q.val)) d

theorem rowAt_eq (t : Fin cfg2.N) (p : Fin 1024) : rowAt t p = atN (1024 * (t.val / 4) + p.val) :=
  Fin.ext (by
    show 1024 * (t.val / 4) + p.val = (1024 * (t.val / 4) + p.val) % 8192
    have := t.isLt; have hN : cfg2.N = 32 := N_2; have := p.isLt; omega)

theorem colAt_eq (t : Fin cfg2.N) (q : Fin 2048) : colAt t q = atN (2048 * (t.val % 4) + q.val) :=
  Fin.ext (by
    show 2048 * (t.val % 4) + q.val = (2048 * (t.val % 4) + q.val) % 8192
    have := q.isLt; omega)

theorem tile_eq (c : Dev nD) (t : Fin cfg2.N) (p : Fin 1024) (d : Fin 64) :
    ∑ q : Fin 2048, term V c (rowAt t p) (colAt t q) d = tileSum V c (t.val / 4) (t.val % 4) p d := by
  unfold tileSum
  refine Finset.sum_congr rfl fun q _ => ?_
  rw [rowAt_eq, colAt_eq]

/-- THE ACCUMULATOR after the point at position n: the sum of the row tile's column tiles 0, …, n mod 4. -/
theorem acc_eq (c : Dev nD) (p : Fin 1024) (d : Fin 64) : ∀ (n : ℕ) (hn : n < cfg2.N),
    accAt2 V c n hn (ix2 p d) = ∑ jj ∈ Finset.range (n % 4 + 1), tileSum V c (n / 4) jj p d
  | 0, hn => by
    refine (congrFun (accAt2_reset V c ⟨0, hn⟩ rfl) (ix2 p d)).trans ?_
    rw [step2_apply, pay2_apply, zero_add, tile_eq]
    show tileSum V c (0 / 4) (0 % 4) p d = _
    rw [Finset.sum_range_one]
  | n + 1, hn => by
    by_cases h0 : (n + 1) % 4 = 0
    · refine (congrFun (accAt2_reset V c ⟨n + 1, hn⟩ h0) (ix2 p d)).trans ?_
      rw [step2_apply, pay2_apply, zero_add, tile_eq]
      show tileSum V c ((n + 1) / 4) ((n + 1) % 4) p d = _
      rw [h0, Finset.sum_range_one]
    · refine (congrFun (accAt2_acc V c ⟨n + 1, hn⟩ h0) (ix2 p d)).trans ?_
      rw [step2_apply, tile_eq]
      show accAt2 V c n _ (ix2 p d) + tileSum V c ((n + 1) / 4) ((n + 1) % 4) p d = _
      rw [acc_eq c p d n (Nat.lt_of_succ_lt hn)]
      have e1 : (n + 1) / 4 = n / 4 := by omega
      have e2 : (n + 1) % 4 = n % 4 + 1 := by omega
      rw [e1, e2, Finset.sum_range_succ _ (n % 4 + 1)]

/-- At the last column tile of a row tile the accumulator holds the sum over all 8192 columns. -/
theorem acc_flush (c : Dev nD) (t : Fin cfg2.N) (h3 : t.val % 4 = 3) (p : Fin 1024) (d : Fin 64) :
    accAt2 V c t.val t.isLt (ix2 p d) = ∑ k : Fin 8192, term V c (rowAt t p) k d := by
  rw [acc_eq V c p d t.val t.isLt, h3, Finset.sum_range]
  refine Eq.trans ?_ (Cert.LibBlockSum.sum_blocks_mul 4 2048 (fun k : Fin (4 * 2048) => term V c (rowAt t p) k d))
  refine Finset.sum_congr rfl fun jj _ => ?_
  unfold tileSum
  refine Finset.sum_congr rfl fun q _ => ?_
  have e2 : atN (2048 * jj.val + q.val) = (⟨2048 * jj.val + q.val, Cert.LibBlockSum.block_lt jj q⟩ : Fin (4 * 2048)) :=
    Fin.ext (Nat.mod_eq_of_lt (Cert.LibBlockSum.block_lt jj q))
  rw [← rowAt_eq, e2]

/-! ## The output array -/

/-- What the output array ends holding: at row r and feature d, the sum over all 8192 columns of the weighted terms. -/
def G6 (c : Dev nD) : S8192x64.Idx → EReal := fun idx => ∑ k : Fin 8192, term V c (idx 0) k (idx 1)

/-- What a point that writes back (the last column tile of its row tile) writes is its block of that array. -/
theorem flushed2_6_eq (c : Dev nD) (t : Fin cfg2.N) (hf : (cfg2.win 6).flush t = true) :
    (dat2 V c).flushed 6 t = ((cfg2.win 6).blk t).view.read (Elt Ideal) (G6 V c) := by
  have h3 : t.val % 4 = 3 := (flush2_6 t).mp hf
  show (cfg2.win 6).cut (grid2.coords t) ((dat2 V c).after 6 t) = _
  rw [after2_6]
  funext y
  obtain ⟨p, d, rfl⟩ : ∃ (p : Fin 1024) (d : Fin 64), y = ix2 p d := ⟨y 0, y 1, eq_ix2 (n0 := 1024) (n1 := 64) y⟩
  rw [View.read_apply]
  have eE : ((cfg2.win 6).blk t).view.emb (ix2 p d) = ix2 (rowAt t p) d := funext fun a => Fin.ext (by
    match a with
    | ⟨0, _⟩ => show win2_6.index t 0 * 1024 + 1 * p.val = 1024 * (t.val / 4) + p.val; rw [(idx2_6 t).1]; omega
    | ⟨1, _⟩ => show win2_6.index t 1 * 64 + 1 * d.val = d.val; rw [(idx2_6 t).2]; omega)
  show accAt2 V c t.val t.isLt (ix2 p d) = G6 V c (((cfg2.win 6).blk t).view.emb (ix2 p d))
  rw [eE, acc_flush V c t h3 p d]
  rfl

/-- An index of the output array is in point t's block iff each coordinate is in the block's range on its axis. -/
theorem mem_blk6 (t : Fin cfg2.N) (i : S8192x64.Idx) :
    i ∈ ((cfg2.win 6).blk t).view.set ↔ ∀ a : Fin 2, win2_6.index t a * S1024x64.size a ≤ (i a).val
      ∧ (i a).val < win2_6.index t a * S1024x64.size a + S1024x64.size a := by
  show i ∈ ((View.whole main_v3).slice (win2_6.rect t)).set ↔ _
  rw [View.set_slice_whole, Rect.mem_set_unit]
  exact Iff.rfl

/-- Every index of the output array lies in the block written back at the last column tile of its row tile. -/
theorem cover6 (i : S8192x64.Idx) :
    ∃ t : Fin cfg2.N, (cfg2.win 6).flush t = true ∧ i ∈ ((cfg2.win 6).blk t).view.set := by
  have hi0 : (i 0).val < 8192 := (i 0).isLt
  have hi1 : (i 1).val < 64 := (i 1).isLt
  have hN : cfg2.N = 32 := N_2
  have hlt : 4 * ((i 0).val / 1024) + 3 < cfg2.N := by omega
  refine ⟨⟨4 * ((i 0).val / 1024) + 3, hlt⟩, (flush2_6 _).mpr (by show (4 * ((i 0).val / 1024) + 3) % 4 = 3; omega), ?_⟩
  rw [mem_blk6]
  intro a
  obtain ⟨e0, e1⟩ := idx2_6 ⟨4 * ((i 0).val / 1024) + 3, hlt⟩
  match a with
  | ⟨0, _⟩ =>
    show win2_6.index ⟨4 * ((i 0).val / 1024) + 3, hlt⟩ 0 * 1024 ≤ (i 0).val
      ∧ (i 0).val < win2_6.index ⟨4 * ((i 0).val / 1024) + 3, hlt⟩ 0 * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win2_6.index ⟨4 * ((i 0).val / 1024) + 3, hlt⟩ 1 * 64 ≤ (i 1).val
      ∧ (i 1).val < win2_6.index ⟨4 * ((i 0).val / 1024) + 3, hlt⟩ 1 * 64 + 64
    rw [e1]
    omega

/-- THE OUTPUT ARRAY after the region: the specification's aggregate of the arrays as the region finds them. -/
theorem final2_6 (c : Dev nD) (i : Fin 8192) (d : Fin 64) :
    (dat2 (F := Ideal) V c).arrAt 6 cfg2.N (ix2 i d)
      = Cert.Spec.agg (fun i : Fin 8192 => V c main_v0_1 (ix2 i (0 : Fin 1))) (fun j : Fin 8192 => V c main_v1 (ix2 (0 : Fin 1) j))
          (V c main_arg1) (fun j : Fin 8192 => V c main_v2_0 (ix2 (0 : Fin 1) j)) (fun j : Fin 8192 => V c main_v2_1 (ix2 (0 : Fin 1) j))
          (fun (j : Fin 8192) (d : Fin 64) => V c main_v0_0 (ix2 j d)) i d := by
  rw [(dat2 V c).arrAt_eq_of_cover 6 (G6 V c) (flushed2_6_eq V c) cover6]
  rfl

end Cert.KernelIdeal.Val2

end
-- ==== Proof.IVal.lean ====
/-
  The result array of the whole program, read at an index, is the specification of the four launch arrays: the
  aggregation region's result over the contents it finds, and those contents traced back — the row and column terms
  and the features to the projection region's results, the column statistics to the statistics region's results over the
  same terms and the same adjacency.
-/
import proofs.«165041_j86423331930641_1_alg».proof.Proof.IRunW
import proofs.«165041_j86423331930641_1_alg».proof.Proof.Spec
import proofs.«165041_j86423331930641_1_alg».proof.Proof.IV0
import proofs.«165041_j86423331930641_1_alg».proof.Proof.IV1
import proofs.«165041_j86423331930641_1_alg».proof.Proof.IV2
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The row terms the later regions find are the specification's projection against attention vector 0. -/
theorem rowterm_eq (i : Fin 8192) :
    (dat0 (F := Ideal) (Vk0 m) c).arrAt 4 cfg0.N (ix2 i 0)
      = Cert.Spec.proj (m ((c : Thread nD τ).loc main_arg0)) (m ((c : Thread nD τ).loc main_arg2)) (m ((c : Thread nD τ).loc main_arg3)) 0 i :=
  Val0.final0_4 (Vk0 m) c i

/-- The row of column terms the later regions find: entry (0, j) of the recast column is entry (j, 0) of the column. -/
theorem colterm_eq (j : Fin 8192) :
    Vk2 m c main_v1 (ix2 0 j)
      = Cert.Spec.proj (m ((c : Thread nD τ).loc main_arg0)) (m ((c : Thread nD τ).loc main_arg2)) (m ((c : Thread nD τ).loc main_arg3)) 1 j := by
  rw [Vk2_main_v1]
  refine Eq.trans ?_ (Val0.final0_5 (Vk0 m) c j)
  exact shapeCast_apply _ _ (ix2 (0 : Fin 1) j) (ix2 j (0 : Fin 1)) (by
    rw [Shape.rowMajor_val_two, Shape.rowMajor_val_two]
    show j.val * 1 + 0 = 0 * 8192 + j.val
    omega)

/-- The whole program's result at an index, given that every masked score is a real number. -/
theorem result_eq
    (hfin : ∀ i j, ∃ r : ℝ, Cert.Spec.att
      (Cert.Spec.proj (m ((c : Thread nD τ).loc main_arg0)) (m ((c : Thread nD τ).loc main_arg2)) (m ((c : Thread nD τ).loc main_arg3)) 0)
      (Cert.Spec.proj (m ((c : Thread nD τ).loc main_arg0)) (m ((c : Thread nD τ).loc main_arg2)) (m ((c : Thread nD τ).loc main_arg3)) 1)
      (m ((c : Thread nD τ).loc main_arg1)) i j = (r : EReal))
    (i : Fin 8192) (d : Fin 64) :
    (dat2 (F := Ideal) (Vk3 m) c).arrAt 6 cfg2.N (ix2 i d)
      = Cert.Spec.out (m ((c : Thread nD τ).loc main_arg0)) (m ((c : Thread nD τ).loc main_arg1)) (m ((c : Thread nD τ).loc main_arg2)) (m ((c : Thread nD τ).loc main_arg3)) i d := by
  have hs3 : (fun i : Fin 8192 => Vk3 m c main_v0_1 (ix2 i 0)) = Cert.Spec.proj (m ((c : Thread nD τ).loc main_arg0)) (m ((c : Thread nD τ).loc main_arg2)) (m ((c : Thread nD τ).loc main_arg3)) 0 :=
    funext fun i => by rw [Vk3_main_v0_1]; exact rowterm_eq m c i
  have hs2 : (fun i : Fin 8192 => Vk2 m c main_v0_1 (ix2 i 0)) = Cert.Spec.proj (m ((c : Thread nD τ).loc main_arg0)) (m ((c : Thread nD τ).loc main_arg2)) (m ((c : Thread nD τ).loc main_arg3)) 0 :=
    funext fun i => by rw [Vk2_main_v0_1]; exact rowterm_eq m c i
  have hn2 : (fun j : Fin 8192 => Vk2 m c main_v1 (ix2 0 j)) = Cert.Spec.proj (m ((c : Thread nD τ).loc main_arg0)) (m ((c : Thread nD τ).loc main_arg2)) (m ((c : Thread nD τ).loc main_arg3)) 1 :=
    funext fun j => colterm_eq m c j
  have hn3 : (fun j : Fin 8192 => Vk3 m c main_v1 (ix2 0 j)) = Cert.Spec.proj (m ((c : Thread nD τ).loc main_arg0)) (m ((c : Thread nD τ).loc main_arg2)) (m ((c : Thread nD τ).loc main_arg3)) 1 :=
    funext fun j => by rw [Vk3_main_v1]; exact colterm_eq m c j
  have hfin2 : ∀ i j, ∃ r : ℝ, Cert.Spec.att (fun i : Fin 8192 => Vk2 m c main_v0_1 (ix2 i 0)) (fun j : Fin 8192 => Vk2 m c main_v1 (ix2 0 j)) (Vk2 m c main_arg1) i j = (r : EReal) := by
    rw [hs2, hn2, Vk2_main_arg1]; exact hfin
  have hM : (fun j : Fin 8192 => Vk3 m c main_v2_0 (ix2 0 j)) = Cert.Spec.colmax
      (Cert.Spec.proj (m ((c : Thread nD τ).loc main_arg0)) (m ((c : Thread nD τ).loc main_arg2)) (m ((c : Thread nD τ).loc main_arg3)) 0)
      (Cert.Spec.proj (m ((c : Thread nD τ).loc main_arg0)) (m ((c : Thread nD τ).loc main_arg2)) (m ((c : Thread nD τ).loc main_arg3)) 1)
      (m ((c : Thread nD τ).loc main_arg1)) :=
    funext fun j => by rw [Vk3_main_v2_0, final1_3 (Vk2 m) c hfin2 j, hs2, hn2, Vk2_main_arg1]
  have hL : (fun j : Fin 8192 => Vk3 m c main_v2_1 (ix2 0 j)) = Cert.Spec.colsum
      (Cert.Spec.proj (m ((c : Thread nD τ).loc main_arg0)) (m ((c : Thread nD τ).loc main_arg2)) (m ((c : Thread nD τ).loc main_arg3)) 0)
      (Cert.Spec.proj (m ((c : Thread nD τ).loc main_arg0)) (m ((c : Thread nD τ).loc main_arg2)) (m ((c : Thread nD τ).loc main_arg3)) 1)
      (m ((c : Thread nD τ).loc main_arg1)) :=
    funext fun j => by rw [Vk3_main_v2_1, final1_4 (Vk2 m) c hfin2 j, hs2, hn2, Vk2_main_arg1]
  have hf : (fun (j : Fin 8192) (d : Fin 64) => Vk3 m c main_v0_0 (ix2 j d)) = Cert.Spec.xf (m ((c : Thread nD τ).loc main_arg0)) (m ((c : Thread nD τ).loc main_arg2)) :=
    funext fun j => funext fun d => by rw [Vk3_main_v0_0]; exact Val0.final0_3 (Vk0 m) c j d
  rw [Val2.final2_6 (Vk3 m) c i d, hs3, hn3, hM, hL, hf, Vk3_main_arg1]
  rfl

end Cert.KernelIdeal.Val

end
-- ==== Proof.RefSpec.lean ====
/-
  The reference program, read at an index, is the specification.

  The reference computes xf = X·Wᵀ, the two attention terms s = xf·a[0] and n = xf·a[1], the masked score
  leaky(s_i + n_j) + c·(1 − A[i,j]), the maximum and the exponential sum of every column, and the normalised weights
  against xf. Each stage is read at an index and identified with the corresponding function of the specification:
  a product of matrices is the sum over the contracted coordinate, the maximum over a column folded from −∞ is the
  finite supremum (the extended reals have a least element), and the sum from the zero word is the finite sum.
-/
import proofs.«165041_j86423331930641_1_alg».proof.Proof.Gen.ReferenceIdeal.Read
import proofs.«165041_j86423331930641_1_alg».proof.Proof.Spec
import proofs.«165041_j86423331930641_1_alg».proof.Proof.LibTiledSup

noncomputable section

open scoped BigOperators

namespace Cert.RefSpec

open Cert.ReferenceIdeal Cert.ReferenceIdeal.Gen Cert.ReferenceIdeal.Read Idealize.ShloMosaic Idealize.ShloMosaic.ValueIdx

/-- The f32 pattern of −∞ is the least extended real. -/
theorem ofBits_negInf : Ideal.ofBits .f32 0xFF800000#32 = (⊥ : EReal) := by simp [Ideal.ofBits, Ideal.ieee]

/-- The projected features: entry (i, d) of X·Wᵀ is the sum over k of X[i,k]·W[d,k]. -/
theorem xf_apply (x0 : (⟨S8192x256, .f32⟩ : BufTy).Contents (Elt Ideal)) (x2 : (⟨S64x256, .f32⟩ : BufTy).Contents (Elt Ideal))
    (i : Fin 8192) (d : Fin 64) :
    val_main_v1 (F := Ideal) x0 x2 (ix2 i d) = Cert.Spec.xf x0 x2 i d := by
  rw [val_main_v1_apply]
  unfold Cert.Spec.xf
  refine Finset.sum_congr rfl fun k _ => ?_
  rw [val_main_v0_apply]
  have e1 : lidx_main_v1 (ix2 i d) k = ix2 i k :=
    funext fun a => Fin.ext (by match a with | ⟨0, _⟩ => rfl | ⟨1, _⟩ => rfl)
  have e2 : idx_main_v0 (ridx_main_v1 (ix2 i d) k) = ix2 d k :=
    funext fun a => Fin.ext (by match a with | ⟨0, _⟩ => rfl | ⟨1, _⟩ => rfl)
  rw [e1, e2]

/-- Attention vector 0, sliced out of a and reshaped to a column, at row k. -/
theorem a0_apply (x3 : (⟨S2x64x1, .f32⟩ : BufTy).Contents (Elt Ideal)) (k : Fin 64) :
    val_main_v3 (F := Ideal) x3 (ix2 k (0 : Fin 1)) = x3 (ix3 (0 : Fin 2) k (0 : Fin 1)) := by
  rw [val_main_v3_apply, val_main_v2_apply]
  refine congrArg x3 (funext fun a => Fin.ext ?_)
  match a with
  | ⟨0, _⟩ => rfl
  | ⟨1, _⟩ => show (k.val * 1 + 0) / 1 % 64 = k.val; omega
  | ⟨2, _⟩ => rfl

/-- Attention vector 1, sliced out of a and reshaped to a column, at row k. -/
theorem a1_apply (x3 : (⟨S2x64x1, .f32⟩ : BufTy).Contents (Elt Ideal)) (k : Fin 64) :
    val_main_v6 (F := Ideal) x3 (ix2 k (0 : Fin 1)) = x3 (ix3 (1 : Fin 2) k (0 : Fin 1)) := by
  rw [val_main_v6_apply, val_main_v5_apply]
  refine congrArg x3 (funext fun a => Fin.ext ?_)
  match a with
  | ⟨0, _⟩ => rfl
  | ⟨1, _⟩ => show (k.val * 1 + 0) / 1 % 64 = k.val; omega
  | ⟨2, _⟩ => rfl

/-- The row term: the features of node i against attention vector 0. -/
theorem s_apply (x0 : (⟨S8192x256, .f32⟩ : BufTy).Contents (Elt Ideal)) (x2 : (⟨S64x256, .f32⟩ : BufTy).Contents (Elt Ideal))
    (x3 : (⟨S2x64x1, .f32⟩ : BufTy).Contents (Elt Ideal)) (i : Fin 8192) :
    val_main_v4 (F := Ideal) x0 x2 x3 (ix2 i (0 : Fin 1)) = Cert.Spec.proj x0 x2 x3 0 i := by
  rw [val_main_v4_apply]
  unfold Cert.Spec.proj
  refine Finset.sum_congr rfl fun k _ => ?_
  have e1 : lidx_main_v4 (ix2 i (0 : Fin 1)) k = ix2 i k :=
    funext fun a => Fin.ext (by match a with | ⟨0, _⟩ => rfl | ⟨1, _⟩ => rfl)
  have e2 : ridx_main_v4 (ix2 i (0 : Fin 1)) k = ix2 k (0 : Fin 1) :=
    funext fun a => Fin.ext (by match a with | ⟨0, _⟩ => rfl | ⟨1, _⟩ => rfl)
  rw [e1, e2, xf_apply, a0_apply]

/-- The column term: the features of node i against attention vector 1. -/
theorem n_apply (x0 : (⟨S8192x256, .f32⟩ : BufTy).Contents (Elt Ideal)) (x2 : (⟨S64x256, .f32⟩ : BufTy).Contents (Elt Ideal))
    (x3 : (⟨S2x64x1, .f32⟩ : BufTy).Contents (Elt Ideal)) (i : Fin 8192) :
    val_main_v7 (F := Ideal) x0 x2 x3 (ix2 i (0 : Fin 1)) = Cert.Spec.proj x0 x2 x3 1 i := by
  rw [val_main_v7_apply]
  unfold Cert.Spec.proj
  refine Finset.sum_congr rfl fun k _ => ?_
  have e1 : lidx_main_v7 (ix2 i (0 : Fin 1)) k = ix2 i k :=
    funext fun a => Fin.ext (by match a with | ⟨0, _⟩ => rfl | ⟨1, _⟩ => rfl)
  have e2 : ridx_main_v7 (ix2 i (0 : Fin 1)) k = ix2 k (0 : Fin 1) :=
    funext fun a => Fin.ext (by match a with | ⟨0, _⟩ => rfl | ⟨1, _⟩ => rfl)
  rw [e1, e2, xf_apply, a1_apply]

/-- The masked score: entry (i, j) is the leaky rectifier of s_i + n_j plus the mask weight times 1 − A[i,j]. -/
theorem score_apply (x0 : (⟨S8192x256, .f32⟩ : BufTy).Contents (Elt Ideal)) (x1 : (⟨S8192x8192, .f32⟩ : BufTy).Contents (Elt Ideal))
    (x2 : (⟨S64x256, .f32⟩ : BufTy).Contents (Elt Ideal)) (x3 : (⟨S2x64x1, .f32⟩ : BufTy).Contents (Elt Ideal))
    (i j : Fin 8192) :
    val_main_v21 (F := Ideal) x0 x1 x2 x3 (ix2 i j)
      = Cert.Spec.att (Cert.Spec.proj x0 x2 x3 0) (Cert.Spec.proj x0 x2 x3 1) x1 i j := by
  have e9 : idx_main_v9 (ix2 i j) = ix2 i (0 : Fin 1) :=
    funext fun a => Fin.ext (by match a with | ⟨0, _⟩ => rfl | ⟨1, _⟩ => rfl)
  have e10 : idx_main_v8 (idx_main_v10 (ix2 i j)) = ix2 j (0 : Fin 1) :=
    funext fun a => Fin.ext (by match a with | ⟨0, _⟩ => rfl | ⟨1, _⟩ => rfl)
  rw [val_main_v21_apply, val_main_v16_apply, val_main_v13_apply, val_main_v15_apply, val_main_v11_apply,
    val_main_v9_apply, val_main_v10_apply, val_main_v8_apply, val_main_v12_apply, val_main_cst_apply,
    val_main_v14_apply, val_main_cst_0_apply, val_main_v20_apply, val_main_v19_apply, val_main_cst_2_apply,
    val_main_v18_apply, val_main_v17_apply, val_main_cst_1_apply, e9, e10, s_apply, n_apply]
  rfl

/-- A column index with a row coordinate put back on the reduced axis is the pair (row, column). -/
theorem lift_col (h : S8192x8192.Reduces [0] S8192) (j : Fin 8192) (k : Fin (S8192x8192.size 0)) :
    h.lift (ix1 j) k = ix2 (⟨k.val, k.isLt⟩ : Fin 8192) j := by
  funext c; apply Fin.ext
  fin_cases c <;> rfl

/-- The maximum-reduce over the rows, read at column j: the fold of max down that column from the initial value. -/
theorem hostReduce_max_col (x : (⟨S8192x8192, .f32⟩ : BufTy).Contents (Elt Ideal)) (init : (⟨S_, .f32⟩ : BufTy).Contents (Elt Ideal))
    (j : Fin 8192) :
    Host.reduce (FloatOps.maximumf (F := Ideal) (φ := .f32)) x init reducesTo_S8192x8192_S8192_d0 h_S_ (ix1 j)
      = (Finset.univ : Finset (Fin 8192)).fold max (init ix0) fun k => x (ix2 k j) := by
  have hR : S8192x8192.Reduces [0] S8192 := by decide
  rw [Host.reduce_eq_fold_single (FloatOps.maximumf (F := Ideal) (φ := .f32)) x init reducesTo_S8192x8192_S8192_d0 hR h_S_]
  have hf : (x ∘ hR.lift (ix1 j)) = fun k : Fin 8192 => x (ix2 k j) := funext fun k => congrArg x (lift_col hR j k)
  have hi : init (Shape.Idx.first h_S_) = init ix0 := congrArg init (eq_ix0 _)
  rw [hi]
  exact congrArg (fun f => Finset.fold max (init ix0) f (Finset.univ : Finset (Fin 8192))) hf

/-- The column maximum: the largest masked score of column j (the fold from −∞ is the finite supremum, and the
    later maximum with −∞ changes nothing). -/
theorem colmax_apply (x0 : (⟨S8192x256, .f32⟩ : BufTy).Contents (Elt Ideal)) (x1 : (⟨S8192x8192, .f32⟩ : BufTy).Contents (Elt Ideal))
    (x2 : (⟨S64x256, .f32⟩ : BufTy).Contents (Elt Ideal)) (x3 : (⟨S2x64x1, .f32⟩ : BufTy).Contents (Elt Ideal))
    (j : Fin 8192) :
    val_main_v24 (F := Ideal) x0 x1 x2 x3 (ix1 j)
      = Cert.Spec.colmax (Cert.Spec.proj x0 x2 x3 0) (Cert.Spec.proj x0 x2 x3 1) x1 j := by
  rw [val_main_v24_apply, val_main_v23_apply, val_main_cst_4_apply]
  unfold val_main_v22
  rw [hostReduce_max_col, val_main_cst_3_apply]
  simp only [Ideal.ofBits_def, Ideal.maximumf_def, ofBits_negInf, bot_sup_eq]
  rw [Cert.LibTiledSup.fold_max_eq_sup]
  unfold Cert.Spec.colmax
  exact Finset.sup_congr rfl fun k _ => score_apply x0 x1 x2 x3 k j

/-- The exponential of a score taken relative to its column's maximum. -/
theorem exp_apply (x0 : (⟨S8192x256, .f32⟩ : BufTy).Contents (Elt Ideal)) (x1 : (⟨S8192x8192, .f32⟩ : BufTy).Contents (Elt Ideal))
    (x2 : (⟨S64x256, .f32⟩ : BufTy).Contents (Elt Ideal)) (x3 : (⟨S2x64x1, .f32⟩ : BufTy).Contents (Elt Ideal))
    (i j : Fin 8192) :
    val_main_v28 (F := Ideal) x0 x1 x2 x3 (ix2 i j)
      = Ideal.exp (Cert.Spec.att (Cert.Spec.proj x0 x2 x3 0) (Cert.Spec.proj x0 x2 x3 1) x1 i j
          - Cert.Spec.colmax (Cert.Spec.proj x0 x2 x3 0) (Cert.Spec.proj x0 x2 x3 1) x1 j) := by
  have e : idx_main_v25 (idx_main_v26 (ix2 i j)) = ix1 j :=
    funext fun a => Fin.ext (by match a with | ⟨0, _⟩ => rfl)
  rw [val_main_v28_apply, val_main_v27_apply, val_main_v26_apply, val_main_v25_apply, e, score_apply, colmax_apply]
  rfl

/-- The column sum: the exponentials of column j, relative to its maximum, added up from zero. -/
theorem colsum_apply (x0 : (⟨S8192x256, .f32⟩ : BufTy).Contents (Elt Ideal)) (x1 : (⟨S8192x8192, .f32⟩ : BufTy).Contents (Elt Ideal))
    (x2 : (⟨S64x256, .f32⟩ : BufTy).Contents (Elt Ideal)) (x3 : (⟨S2x64x1, .f32⟩ : BufTy).Contents (Elt Ideal))
    (j : Fin 8192) :
    val_main_v29 (F := Ideal) x0 x1 x2 x3 (ix1 j)
      = Cert.Spec.colsum (Cert.Spec.proj x0 x2 x3 0) (Cert.Spec.proj x0 x2 x3 1) x1 j := by
  rw [val_main_v29_apply, val_main_cst_5_apply]
  simp only [Ideal.ofBits_def, Ideal.ofBits_zero_f32, zero_add]
  unfold Cert.Spec.colsum
  refine Finset.sum_congr rfl fun k _ => ?_
  have e : idx_main_v29 (ix1 j) k = ix2 k j :=
    funext fun a => Fin.ext (by match a with | ⟨0, _⟩ => rfl | ⟨1, _⟩ => rfl)
  rw [e, exp_apply]

/-- The reference's result at (i, d) is the specification: the normalised weights of row i against column d of
    the projected features. -/
theorem ref_out (x0 : (⟨S8192x256, .f32⟩ : BufTy).Contents (Elt Ideal)) (x1 : (⟨S8192x8192, .f32⟩ : BufTy).Contents (Elt Ideal))
    (x2 : (⟨S64x256, .f32⟩ : BufTy).Contents (Elt Ideal)) (x3 : (⟨S2x64x1, .f32⟩ : BufTy).Contents (Elt Ideal))
    (i : Fin 8192) (d : Fin 64) :
    val_main_v33 (F := Ideal) x0 x1 x2 x3 (ix2 i d) = Cert.Spec.out x0 x1 x2 x3 i d := by
  rw [val_main_v33_apply]
  unfold Cert.Spec.out Cert.Spec.agg
  refine Finset.sum_congr rfl fun k _ => ?_
  have e1 : lidx_main_v33 (ix2 i d) k = ix2 i k :=
    funext fun a => Fin.ext (by match a with | ⟨0, _⟩ => rfl | ⟨1, _⟩ => rfl)
  have e2 : ridx_main_v33 (ix2 i d) k = ix2 k d :=
    funext fun a => Fin.ext (by match a with | ⟨0, _⟩ => rfl | ⟨1, _⟩ => rfl)
  have e3 : idx_main_v30 (idx_main_v31 (ix2 i k)) = ix1 k :=
    funext fun a => Fin.ext (by match a with | ⟨0, _⟩ => rfl)
  rw [e1, e2, val_main_v32_apply, val_main_v31_apply, val_main_v30_apply, e3, exp_apply, colsum_apply, xf_apply]
  rfl

end Cert.RefSpec

end
-- ==== Proof.Finite.lean ====
/-
  Finiteness: under the hypothesis that every entry of the four inputs is a real number, every masked score is a
  real number; and the precondition (every entry's absolute value is below +∞) says exactly that every
  entry is a real number.

  Sums and products of reals are real, the four literals of the score are finite patterns, and a selection
  between two reals is real. An extended real whose absolute value is below +∞ is neither infinity.
-/
import proofs.«165041_j86423331930641_1_alg».proof.Proof.Spec
import proofs.«165041_j86423331930641_1_alg».proof.Proof.LibSoftmaxReal
import proofs.«165041_j86423331930641_1_alg».proof.Pre_finite_inputs
import Idealize.ShloMosaic.Lib.ReduceAll
import Idealize.ShloMosaic.Lib.ValueIdx

noncomputable section

open scoped BigOperators

namespace Cert.Finite

open Idealize.ShloMosaic Idealize.ShloMosaic.ValueIdx

/-- An f32 pattern whose exponent field is not all ones denotes a real number. -/
theorem ofBits_f32_real (b : BitVec 32) (h : (b.extractLsb' 23 8).toNat ≠ 255) :
    ∃ r : ℝ, Ideal.ofBits .f32 b = (r : EReal) := by
  show ∃ r : ℝ, Ideal.ieee 8 23 b = (r : EReal)
  unfold Ideal.ieee
  dsimp only
  rw [if_neg (by simpa using h)]
  split
  · exact ⟨_, rfl⟩
  · exact ⟨_, rfl⟩

/-- A product of two reals is real. -/
theorem mul_real {x y : EReal} (hx : ∃ r : ℝ, x = (r : EReal)) (hy : ∃ r : ℝ, y = (r : EReal)) :
    ∃ r : ℝ, x * y = (r : EReal) := by
  obtain ⟨p, rfl⟩ := hx; obtain ⟨q, rfl⟩ := hy
  exact ⟨p * q, (EReal.coe_mul p q).symm⟩

/-- A sum of two reals is real. -/
theorem add_real {x y : EReal} (hx : ∃ r : ℝ, x = (r : EReal)) (hy : ∃ r : ℝ, y = (r : EReal)) :
    ∃ r : ℝ, x + y = (r : EReal) := by
  obtain ⟨p, rfl⟩ := hx; obtain ⟨q, rfl⟩ := hy
  exact ⟨p + q, (EReal.coe_add p q).symm⟩

/-- A difference of two reals is real. -/
theorem sub_real {x y : EReal} (hx : ∃ r : ℝ, x = (r : EReal)) (hy : ∃ r : ℝ, y = (r : EReal)) :
    ∃ r : ℝ, x - y = (r : EReal) := by
  obtain ⟨p, rfl⟩ := hx; obtain ⟨q, rfl⟩ := hy
  exact ⟨p - q, (EReal.coe_sub p q).symm⟩

/-- A selection between two reals is real. -/
theorem select_real (c : BitVec 1) {x y : EReal} (hx : ∃ r : ℝ, x = (r : EReal)) (hy : ∃ r : ℝ, y = (r : EReal)) :
    ∃ r : ℝ, Scalar.select c x y = (r : EReal) := by
  unfold Scalar.select
  split
  · exact hx
  · exact hy

/-- The masked score of real terms is real. -/
theorem score_real {s n adj : EReal} (hs : ∃ r : ℝ, s = (r : EReal)) (hn : ∃ r : ℝ, n = (r : EReal))
    (hadj : ∃ r : ℝ, adj = (r : EReal)) : ∃ r : ℝ, Cert.Spec.score s n adj = (r : EReal) := by
  unfold Cert.Spec.score
  have hsn := add_real hs hn
  exact add_real (select_real _ hsn (mul_real (ofBits_f32_real _ (by decide)) hsn))
    (mul_real (ofBits_f32_real _ (by decide)) (sub_real (ofBits_f32_real _ (by decide)) hadj))

/-- The projected features of real inputs are real. -/
theorem xf_real (X : Cert.Spec.A2 8192 256) (W : Cert.Spec.A2 64 256) (hX : ∀ k, ∃ r : ℝ, X k = (r : EReal))
    (hW : ∀ k, ∃ r : ℝ, W k = (r : EReal)) (i : Fin 8192) (d : Fin 64) : ∃ r : ℝ, Cert.Spec.xf X W i d = (r : EReal) :=
  Cert.Lib.SoftmaxReal.exists_real_sum _ _ fun k _ => mul_real (hX _) (hW _)

/-- The attention terms of real inputs are real. -/
theorem proj_real (X : Cert.Spec.A2 8192 256) (W : Cert.Spec.A2 64 256) (a : Cert.Spec.A3 2 64 1)
    (hX : ∀ k, ∃ r : ℝ, X k = (r : EReal)) (hW : ∀ k, ∃ r : ℝ, W k = (r : EReal)) (ha : ∀ k, ∃ r : ℝ, a k = (r : EReal))
    (h : Fin 2) (i : Fin 8192) : ∃ r : ℝ, Cert.Spec.proj X W a h i = (r : EReal) :=
  Cert.Lib.SoftmaxReal.exists_real_sum _ _ fun k _ => mul_real (xf_real X W hX hW i k) (ha _)

/-- Every masked score of real inputs is real. -/
theorem att_finite (X : Cert.Spec.A2 8192 256) (A : Cert.Spec.A2 8192 8192) (W : Cert.Spec.A2 64 256) (a : Cert.Spec.A3 2 64 1)
    (hX : ∀ k, ∃ r : ℝ, X k = (r : EReal)) (hA : ∀ k, ∃ r : ℝ, A k = (r : EReal)) (hW : ∀ k, ∃ r : ℝ, W k = (r : EReal))
    (ha : ∀ k, ∃ r : ℝ, a k = (r : EReal)) :
    ∀ i j, ∃ r : ℝ, Cert.Spec.att (Cert.Spec.proj X W a 0) (Cert.Spec.proj X W a 1) A i j = (r : EReal) := fun i j =>
  score_real (proj_real X W a hX hW ha 0 i) (proj_real X W a hX hW ha 1 j) (hA _)

/-- An extended real whose absolute value is below the f32 pattern of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- The precondition — every entry of each of the four inputs has absolute value below +∞ — says that every
    entry of the four inputs is a real number. -/
theorem inputs_real [Cert.Pre_finite_inputs.Facts]
    (X : FVec Ideal Cert.Pre_finite_inputs.S8192x256 .f32) (A : FVec Ideal Cert.Pre_finite_inputs.S8192x8192 .f32)
    (W : FVec Ideal Cert.Pre_finite_inputs.S64x256 .f32) (a : FVec Ideal Cert.Pre_finite_inputs.S2x64x1 .f32)
    (h : Cert.Pre_finite_inputs.fn (F := Ideal) X A W a = fun _ => 1#1) :
    (∀ k, ∃ r : ℝ, X k = (r : EReal)) ∧ (∀ k, ∃ r : ℝ, A k = (r : EReal)) ∧ (∀ k, ∃ r : ℝ, W k = (r : EReal))
      ∧ (∀ k, ∃ r : ℝ, a k = (r : EReal)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun k => real_of_abs_lt_inf _ (Host.reduce_andi_all _ _ _ _ _ h1 k),
    fun k => real_of_abs_lt_inf _ (Host.reduce_andi_all _ _ _ _ _ h2 k),
    fun k => real_of_abs_lt_inf _ (Host.reduce_andi_all _ _ _ _ _ h3 k),
    fun k => real_of_abs_lt_inf _ (Host.reduce_andi_all _ _ _ _ _ h4 k)⟩

/-- Under the precondition every masked score is a real number. -/
theorem att_finite_of_pre [Cert.Pre_finite_inputs.Facts]
    (X : FVec Ideal Cert.Pre_finite_inputs.S8192x256 .f32) (A : FVec Ideal Cert.Pre_finite_inputs.S8192x8192 .f32)
    (W : FVec Ideal Cert.Pre_finite_inputs.S64x256 .f32) (a : FVec Ideal Cert.Pre_finite_inputs.S2x64x1 .f32)
    (h : Cert.Pre_finite_inputs.fn (F := Ideal) X A W a = fun _ => 1#1) :
    ∀ i j, ∃ r : ℝ, Cert.Spec.att (Cert.Spec.proj X W a 0) (Cert.Spec.proj X W a 1) A i j = (r : EReal) :=
  att_finite X A W a (inputs_real X A W a h).1 (inputs_real X A W a h).2.1 (inputs_real X A W a h).2.2.1
    (inputs_real X A W a h).2.2.2

end Cert.Finite

end
-- ==== Proof.lean ====
/-
  Graph attention with a column-wise softmax, as three kernel regions against its plain reference.

  The kernel program projects the node features (xf = X·Wᵀ, the row terms s = xf·a₀, the column terms n = xf·a₁), then
  passes twice over the adjacency: the first pass keeps, per column, a running maximum M and a running sum L of
  exponentials rescaled whenever the maximum grows, over eight row tiles; the second accumulates, per row tile and over four
  column tiles, the products of exp(score − M)/L with the features. The reference forms the whole score matrix, takes the
  softmax of each column and multiplies by the features.

  Over the extended reals both are one function of the four inputs (the specification): the running maximum over the
  tiles is the supremum of the column; on real scores the rescaled running sum telescopes to the sum of exp(score − M)
  over the whole column (this is where the finiteness of the inputs is used: every score is then a real number); sums
  over tiles regroup into one sum because addition of extended reals is commutative and associative. The three frames
  follow from running each region's body at every grid point with the carried scratch contents named point by point;
  the idealised kernel is the kernel's own text read over the extended reals, so nothing is owed for that conjunct.
-/
import proofs.«165041_j86423331930641_1_alg».proof.Defs
import proofs.«165041_j86423331930641_1_alg».proof.Proof.Gen.Kernel
import proofs.«165041_j86423331930641_1_alg».proof.Proof.Gen.KernelIdeal
import proofs.«165041_j86423331930641_1_alg».proof.Proof.Gen.ReferenceIdeal
import proofs.«165041_j86423331930641_1_alg».proof.Proof.Gen.Pre_finite_inputs
import proofs.«165041_j86423331930641_1_alg».proof.Proof.Gen.ReferenceIdeal.Run
import proofs.«165041_j86423331930641_1_alg».proof.Proof.Gen.ReferenceIdeal.Read
import proofs.«165041_j86423331930641_1_alg».proof.Proof.BRun
import proofs.«165041_j86423331930641_1_alg».proof.Proof.IRun
import proofs.«165041_j86423331930641_1_alg».proof.Proof.IVal
import proofs.«165041_j86423331930641_1_alg».proof.Proof.RefSpec
import proofs.«165041_j86423331930641_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs to the end, faults nowhere, and leaves its four arguments as launched. -/
theorem frame_k : @Cert.frame_Kernel Cert.Kernel.Gen.facts Cert.Pre_finite_inputs.Gen.facts :=
  fun m ρ _ => Cert.Kernel.Gen.frame m ρ

/-- The same for the kernel program read over the extended reals. -/
theorem frame_ki : @Cert.frame_KernelIdeal Cert.KernelIdeal.Gen.facts Cert.Pre_finite_inputs.Gen.facts :=
  fun m ρ _ => Cert.KernelIdeal.Gen.frame m ρ

/-- The reference is host operations only: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The idealised kernel is the kernel's own text: no rewrite to account for. -/
theorem preserves : Cert.preserves_Kernel_KernelIdeal := trivial

/-- From memories agreeing on the four inputs, all finite, both programs end with the specification of those inputs
    in their result arrays, entry by entry. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => (Cert.KernelIdeal.Gen.dat2 (F := Ideal) (Cert.KernelIdeal.Gen.Vk3 m) c).arrAt 6 Cert.KernelIdeal.cfg2.N,
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2]
  funext idx
  obtain ⟨i, d, rfl⟩ : ∃ (i : Fin 8192) (d : Fin 64), idx = ix2 i d := ⟨idx 0, idx 1, eq_ix2 idx⟩
  rw [Cert.RefSpec.ref_out]
  exact (Cert.KernelIdeal.Val.result_eq m c
    (@Cert.Finite.att_finite_of_pre Cert.Pre_finite_inputs.Gen.facts _ _ _ _ (hpre c)) i d).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
